-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S100000x40 : Shape := ⟨2, ![100000, 40]⟩
abbrev S4000x40 : Shape := ⟨2, ![4000, 40]⟩
abbrev S1700000x40 : Shape := ⟨2, ![1700000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S1x128, .f32⟩
  | .hbm, ⟨71, _⟩ => ⟨S1x128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S100000x128, .f32⟩
  | .hbm, ⟨87, _⟩ => ⟨S100000x40, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x40, .f32⟩
  | .hbm, ⟨97, _⟩ => ⟨S1700000x1, .f32⟩
  | .hbm, ⟨98, _⟩ => ⟨S1700000x40, .f32⟩
  | .hbm, ⟨99, _⟩ => ⟨S1700000x40, .f32⟩
  | .hbm, ⟨100, _⟩ => ⟨S_, .f32⟩
  | .hbm, ⟨101, _⟩ => ⟨S100000x40, .f32⟩
  | .hbm, ⟨102, _⟩ => ⟨S1700000x1, .i32⟩
  | .hbm, ⟨103, _⟩ => ⟨S100000x40, .f32⟩
  | .hbm, ⟨104, _⟩ => ⟨S1x40, .f32⟩
  | .hbm, ⟨105, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x40, .f32⟩
  | .local _ .vmem, ⟨23, _⟩ => ⟨S4000x40, .f32⟩
  | .local _ .vmem, ⟨24, _⟩ => ⟨S4000x40, .f32⟩
  | .local _ .vmem, ⟨25, _⟩ => ⟨S4000x40, .f32⟩
  | .local _ .vmem, ⟨26, _⟩ => ⟨S4000x40, .f32⟩
  | .local _ .vmem, ⟨27, _⟩ => ⟨S1x40, .f32⟩
  | .local _ .vmem, ⟨28, _⟩ => ⟨S4000x40, .f32⟩
  | .local _ .vmem, ⟨29, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_v47_2 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S4000x128_S4000x128 : S4000x128.ShapeCasts S4000x128
  shapeCasts_S1x128_S1x128 : S1x128.ShapeCasts S1x128
  broadcasts_S1x128_S4000x128 : S1x128.Broadcasts S4000x128
  reduces_S4000x128_S128 : S4000x128.Reduces [0] S128
  shapeCasts_S1x128_S128 : S1x128.ShapeCasts S128
  bcast_S_S128 : S_.BroadcastsInDim S128 (![] : Fin 0 → Fin S128.rank)
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x40_S4000x40_1_0_0_1_n_n_wf : DotDims.WF S4000x128 S128x40 S4000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x40.size a ≤ S100000x40.size a
  hwx3_2 : ∀ i : grid3.Coords, EltTy.bits .f32 = 32 ∨ (Rect.block (s := S100000x40) S4000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x40.size a ≤ S100000x40.size a
  hwx4_0 : ∀ i : grid4.Coords, EltTy.bits .f32 = 32 ∨ (Rect.block (s := S100000x40) S4000x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x40.size a ≤ S1x40.size a
  hwx4_1 : ∀ i : grid4.Coords, EltTy.bits .f32 = 32 ∨ (Rect.block (s := S1x40) S1x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x40.size a ≤ S100000x40.size a
  hwx4_2 : ∀ i : grid4.Coords, EltTy.bits .f32 = 32 ∨ (Rect.block (s := S100000x40) S4000x40.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S4000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S4000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S4000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x40, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x40, .f32⟩
  | _ => ⟨S100000x128, .f32⟩

abbrev hbmTy0_1 (i : Nat) : BufTy := match i % 128 with
  | 0 => ⟨S1700000x1, .f32⟩
  | 1 => ⟨S1700000x40, .f32⟩
  | 2 => ⟨S1700000x40, .f32⟩
  | 3 => ⟨S_, .f32⟩
  | 4 => ⟨S100000x40, .f32⟩
  | 5 => ⟨S1700000x1, .i32⟩
  | 6 => ⟨S100000x40, .f32⟩
  | 7 => ⟨S1x40, .f32⟩
  | 8 => ⟨S100000x40, .f32⟩
  | 9 => ⟨S100000x40, .f32⟩
  | 10 => ⟨S_, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x40, .f32⟩
  | 17 => ⟨S100000x40, .f32⟩
  | 18 => ⟨S100000x40, .f32⟩
  | 19 => ⟨S_, .f32⟩
  | 20 => ⟨S100000, .f32⟩
  | 21 => ⟨S100000x1, .f32⟩
  | 22 => ⟨S100000x1, .f32⟩
  | 23 => ⟨S100000x40, .f32⟩
  | 24 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_13 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_14 : Ref sig .tc := ⟨.hbm, 119, rfl⟩
abbrev main_v70 : Ref sig .tc := ⟨.hbm, 120, rfl⟩
abbrev main_v71 : Ref sig .tc := ⟨.hbm, 121, rfl⟩
abbrev main_c_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_16 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call3_cst : Ref sig .tc := ⟨.hbm, 138, rfl⟩
abbrev main_call3_v0 : Ref sig .tc := ⟨.hbm, 139, rfl⟩
abbrev main_call3_cst_0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_cst_1 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_v86 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KRun.lean ====
/-
  The idealized kernel program's run with its result named.

  Every weakly fair execution of the program terminates without a fault; at the end the result array holds what the
  last of the five kernel regions wrote back, block by block, into it — the contents of the program's buffers after the
  last region, read at the result — and the eight argument arrays are as they were at the start.
-/
import proofs.«130976_j31610959298975_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the contents the last region leaves, the arguments unchanged. -/
theorem run : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.KStages.lean ====
/-
  The kernel program's host stages between its dense kernels, as pure functions of the values they consume.

  The edge list gives two index vectors (sources and destinations, each followed by the self loops 0 … N−1); the
  destination counts give the per-node scale 1/√deg; the per-edge scale is the product of the two end nodes' scales;
  and an aggregation multiplies the gathered source rows by the per-edge scale and adds them into the destination rows.
  Each definition is the composition of the program's own host operations for that stage, in the program's order.
-/
import proofs.«130976_j31610959298975_1_alg».proof.KernelIdeal
import proofs.«130976_j31610959298975_1_alg».proof.Proof.Gen.KernelIdeal
import Idealize.ShloMosaic.PureOps.Ideal

noncomputable section

namespace Cert.KernelIdeal.KStages

open Cert.KernelIdeal Idealize.ShloMosaic
open Cert.KernelIdeal.Facts₀

/-- An index vector as a column. -/
def col (v : IVec S1700000 32) : IVec S1700000x1 32 := broadcastInDim S1700000x1 ![0] bcast_S1700000_S1700000x1_0 v

/-- A negative index counted from the end (what indexing with a possibly negative integer lowers to), as a column. -/
def wrapCol (v : IVec S1700000 32) : IVec S1700000x1 32 :=
  col (select (cmpi .slt v (broadcastInDim S1700000 ![] bcast_S_S1700000 (constantI S_ 32 0#32)))
    (addi v (broadcastInDim S1700000 ![] bcast_S_S1700000 (constantI S_ 32 100000#32))) v)

/-- The edge list's row 0 followed by the self loops. -/
def srcIdx (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edge list's row 1 followed by the self loops. -/
def dstIdx (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The number of edges arriving at each node, from the destination vector. -/
def degOf (dst : IVec S1700000 32) : FVec Ideal S100000 .f32 :=
  Host.scatterAdd scatter_S100000_S1700000x1_S1700000_n_0_0_1
    (broadcastInDim S100000 ![] bcast_S_S100000 (constant (F := Ideal) S_ .f32 0x00000000#32))
    (col dst)
    (broadcastInDim S1700000 ![] bcast_S_S1700000 (constant (F := Ideal) S_ .f32 0x3F800000#32))

/-- "The degree is positive", entry by entry. -/
def posOf (dst : IVec S1700000 32) : IVec S100000 1 :=
  cmpf .ogt (degOf dst) (broadcastInDim S100000 ![] bcast_S_S100000 (constant (F := Ideal) S_ .f32 0x00000000#32))

/-- 1/√max(deg, 1). -/
def rsOf (dst : IVec S1700000 32) : FVec Ideal S100000 .f32 :=
  Host.rsqrt (maximumf (degOf dst) (broadcastInDim S100000 ![] bcast_S_S100000 (constant (F := Ideal) S_ .f32 0x3F800000#32)))

/-- 1/√deg where the degree is positive, else the given scalar (zero). -/
def disOf (pos : IVec S100000 1) (rs : FVec Ideal S100000 .f32) (z : FVec Ideal S_ .f32) : FVec Ideal S100000 .f32 :=
  select pos rs (broadcastInDim S100000 ![] bcast_S_S100000 (id z))

/-- The per-edge scale: the source node's times the destination node's. -/
def normOf (dis : FVec Ideal S100000 .f32) (src dst : IVec S1700000 32) : FVec Ideal S1700000 .f32 :=
  mulf (Host.gather gather_S100000_S1700000x1_S1700000_n_0_n_n_0_1_1 dis (wrapCol src))
    (Host.gather gather_S100000_S1700000x1_S1700000_n_0_n_n_0_1_1 dis (wrapCol dst))

/-- One aggregation of 128-wide rows. -/
def aggOf128 (src dst : IVec S1700000 32) (nrm : FVec Ideal S1700000 .f32) (H : FVec Ideal S100000x128 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (col dst)
    (mulf (Host.gather gather_S100000x128_S1700000x1_S1700000x128_1_0_n_n_0_1_1128 H (wrapCol src))
      (broadcastInDim S1700000x128 ![0, 1] bcast_S1700000x1_S1700000x128_0_1
        (broadcastInDim S1700000x1 ![0] bcast_S1700000_S1700000x1_0 nrm)))

/-- One aggregation of 40-wide rows. -/
def aggOf40 (src dst : IVec S1700000 32) (nrm : FVec Ideal S1700000 .f32) (H : FVec Ideal S100000x40 .f32) :
    FVec Ideal S100000x40 .f32 :=
  Host.scatterAdd scatter_S100000x40_S1700000x1_S1700000x40_1_0_0_1
    (broadcastInDim S100000x40 ![] bcast_S_S100000x40 (constant (F := Ideal) S_ .f32 0x00000000#32))
    (col dst)
    (mulf (Host.gather gather_S100000x40_S1700000x1_S1700000x40_1_0_n_n_0_1_140 H (wrapCol src))
      (broadcastInDim S1700000x40 ![0, 1] bcast_S1700000x1_S1700000x40_0_1
        (broadcastInDim S1700000x1 ![0] bcast_S1700000_S1700000x1_0 nrm)))

end Cert.KernelIdeal.KStages

end
-- ==== Proof.KHost.lean ====
/-
  The kernel program's stretches of host operations, read one stretch at a time.

  Between its five kernel regions the program runs plain host operations: the index vectors and per-edge scales before
  the first region, an aggregation after the first and after the fourth, the batch statistics' division after the
  second, and reshapes of the parameter vectors into one-row matrices. For any contents of the buffers before a stretch,
  the buffer a stage writes holds that stage's function of the buffers it reads, and a buffer the stretch does not
  write is unchanged.
-/
import proofs.«130976_j31610959298975_1_alg».proof.Proof.Gen.KernelIdeal.Frame
import proofs.«130976_j31610959298975_1_alg».proof.Proof.KStages
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

/-- The contents of every buffer of the TensorCore. -/
abbrev Val : Type := Valuation τ sig (Elt Ideal)

/-- A buffer no operation of a stretch writes keeps its contents. -/
macro "host_skip" : tactic => `(tactic| exact StableHlo.after_of_forall_not_mem _ _ (List.forall_iff_forall_mem.mp (by
    simp only [hostOps0, hostOps0_1, hostOps0_2, hostOps1, hostOps2, hostOps4, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## Buffers a stretch leaves alone -/

theorem pass_hostOps0_main_arg0 (W : Val) : after (hostOps0 (F := Ideal)) W (Proc.devRef .tc main_arg0) = W (Proc.devRef .tc main_arg0) := by host_skip
theorem pass_hostOps0_main_arg2 (W : Val) : after (hostOps0 (F := Ideal)) W (Proc.devRef .tc main_arg2) = W (Proc.devRef .tc main_arg2) := by host_skip
theorem pass_hostOps0_main_arg3 (W : Val) : after (hostOps0 (F := Ideal)) W (Proc.devRef .tc main_arg3) = W (Proc.devRef .tc main_arg3) := by host_skip
theorem pass_hostOps0_main_arg4 (W : Val) : after (hostOps0 (F := Ideal)) W (Proc.devRef .tc main_arg4) = W (Proc.devRef .tc main_arg4) := by host_skip
theorem pass_hostOps0_main_arg5 (W : Val) : after (hostOps0 (F := Ideal)) W (Proc.devRef .tc main_arg5) = W (Proc.devRef .tc main_arg5) := by host_skip
theorem pass_hostOps0_main_arg6 (W : Val) : after (hostOps0 (F := Ideal)) W (Proc.devRef .tc main_arg6) = W (Proc.devRef .tc main_arg6) := by host_skip
theorem pass_hostOps0_main_arg7 (W : Val) : after (hostOps0 (F := Ideal)) W (Proc.devRef .tc main_arg7) = W (Proc.devRef .tc main_arg7) := by host_skip
theorem pass_hostOps0_1_main_arg0 (W : Val) : after (hostOps0_1 (F := Ideal)) W (Proc.devRef .tc main_arg0) = W (Proc.devRef .tc main_arg0) := by host_skip
theorem pass_hostOps0_1_main_arg2 (W : Val) : after (hostOps0_1 (F := Ideal)) W (Proc.devRef .tc main_arg2) = W (Proc.devRef .tc main_arg2) := by host_skip
theorem pass_hostOps0_1_main_arg3 (W : Val) : after (hostOps0_1 (F := Ideal)) W (Proc.devRef .tc main_arg3) = W (Proc.devRef .tc main_arg3) := by host_skip
theorem pass_hostOps0_1_main_arg4 (W : Val) : after (hostOps0_1 (F := Ideal)) W (Proc.devRef .tc main_arg4) = W (Proc.devRef .tc main_arg4) := by host_skip
theorem pass_hostOps0_1_main_arg5 (W : Val) : after (hostOps0_1 (F := Ideal)) W (Proc.devRef .tc main_arg5) = W (Proc.devRef .tc main_arg5) := by host_skip
theorem pass_hostOps0_1_main_arg6 (W : Val) : after (hostOps0_1 (F := Ideal)) W (Proc.devRef .tc main_arg6) = W (Proc.devRef .tc main_arg6) := by host_skip
theorem pass_hostOps0_1_main_arg7 (W : Val) : after (hostOps0_1 (F := Ideal)) W (Proc.devRef .tc main_arg7) = W (Proc.devRef .tc main_arg7) := by host_skip
theorem pass_hostOps0_1_main_v3 (W : Val) : after (hostOps0_1 (F := Ideal)) W (Proc.devRef .tc main_v3) = W (Proc.devRef .tc main_v3) := by host_skip
theorem pass_hostOps0_1_main_v6 (W : Val) : after (hostOps0_1 (F := Ideal)) W (Proc.devRef .tc main_v6) = W (Proc.devRef .tc main_v6) := by host_skip
theorem pass_hostOps0_2_main_arg0 (W : Val) : after (hostOps0_2 (F := Ideal)) W (Proc.devRef .tc main_arg0) = W (Proc.devRef .tc main_arg0) := by host_skip
theorem pass_hostOps0_2_main_arg2 (W : Val) : after (hostOps0_2 (F := Ideal)) W (Proc.devRef .tc main_arg2) = W (Proc.devRef .tc main_arg2) := by host_skip
theorem pass_hostOps0_2_main_arg3 (W : Val) : after (hostOps0_2 (F := Ideal)) W (Proc.devRef .tc main_arg3) = W (Proc.devRef .tc main_arg3) := by host_skip
theorem pass_hostOps0_2_main_arg4 (W : Val) : after (hostOps0_2 (F := Ideal)) W (Proc.devRef .tc main_arg4) = W (Proc.devRef .tc main_arg4) := by host_skip
theorem pass_hostOps0_2_main_arg5 (W : Val) : after (hostOps0_2 (F := Ideal)) W (Proc.devRef .tc main_arg5) = W (Proc.devRef .tc main_arg5) := by host_skip
theorem pass_hostOps0_2_main_arg6 (W : Val) : after (hostOps0_2 (F := Ideal)) W (Proc.devRef .tc main_arg6) = W (Proc.devRef .tc main_arg6) := by host_skip
theorem pass_hostOps0_2_main_arg7 (W : Val) : after (hostOps0_2 (F := Ideal)) W (Proc.devRef .tc main_arg7) = W (Proc.devRef .tc main_arg7) := by host_skip
theorem pass_hostOps0_2_main_v3 (W : Val) : after (hostOps0_2 (F := Ideal)) W (Proc.devRef .tc main_v3) = W (Proc.devRef .tc main_v3) := by host_skip
theorem pass_hostOps0_2_main_v6 (W : Val) : after (hostOps0_2 (F := Ideal)) W (Proc.devRef .tc main_v6) = W (Proc.devRef .tc main_v6) := by host_skip
theorem pass_hostOps1_main_arg4 (W : Val) : after (hostOps1 (F := Ideal)) W (Proc.devRef .tc main_arg4) = W (Proc.devRef .tc main_arg4) := by host_skip
theorem pass_hostOps1_main_arg5 (W : Val) : after (hostOps1 (F := Ideal)) W (Proc.devRef .tc main_arg5) = W (Proc.devRef .tc main_arg5) := by host_skip
theorem pass_hostOps1_main_arg6 (W : Val) : after (hostOps1 (F := Ideal)) W (Proc.devRef .tc main_arg6) = W (Proc.devRef .tc main_arg6) := by host_skip
theorem pass_hostOps1_main_arg7 (W : Val) : after (hostOps1 (F := Ideal)) W (Proc.devRef .tc main_arg7) = W (Proc.devRef .tc main_arg7) := by host_skip
theorem pass_hostOps1_main_v3 (W : Val) : after (hostOps1 (F := Ideal)) W (Proc.devRef .tc main_v3) = W (Proc.devRef .tc main_v3) := by host_skip
theorem pass_hostOps1_main_v6 (W : Val) : after (hostOps1 (F := Ideal)) W (Proc.devRef .tc main_v6) = W (Proc.devRef .tc main_v6) := by host_skip
theorem pass_hostOps1_main_v31 (W : Val) : after (hostOps1 (F := Ideal)) W (Proc.devRef .tc main_v31) = W (Proc.devRef .tc main_v31) := by host_skip
theorem pass_hostOps2_main_arg6 (W : Val) : after (hostOps2 (F := Ideal)) W (Proc.devRef .tc main_arg6) = W (Proc.devRef .tc main_arg6) := by host_skip
theorem pass_hostOps2_main_arg7 (W : Val) : after (hostOps2 (F := Ideal)) W (Proc.devRef .tc main_arg7) = W (Proc.devRef .tc main_arg7) := by host_skip
theorem pass_hostOps2_main_v3 (W : Val) : after (hostOps2 (F := Ideal)) W (Proc.devRef .tc main_v3) = W (Proc.devRef .tc main_v3) := by host_skip
theorem pass_hostOps2_main_v6 (W : Val) : after (hostOps2 (F := Ideal)) W (Proc.devRef .tc main_v6) = W (Proc.devRef .tc main_v6) := by host_skip
theorem pass_hostOps2_main_v31 (W : Val) : after (hostOps2 (F := Ideal)) W (Proc.devRef .tc main_v31) = W (Proc.devRef .tc main_v31) := by host_skip
theorem pass_hostOps2_main_v47_0 (W : Val) : after (hostOps2 (F := Ideal)) W (Proc.devRef .tc main_v47_0) = W (Proc.devRef .tc main_v47_0) := by host_skip

/-! ## What each stretch computes -/

set_option maxHeartbeats 2000000 in
theorem s0_v3 (W : Val) : after (hostOps0 (F := Ideal)) W (Proc.devRef .tc main_v3)
    = KStages.srcIdx (W (Proc.devRef .tc main_arg1)) := by
  after_results
  all_goals rfl

set_option maxHeartbeats 2000000 in
theorem s0_v6 (W : Val) : after (hostOps0 (F := Ideal)) W (Proc.devRef .tc main_v6)
    = KStages.dstIdx (W (Proc.devRef .tc main_arg1)) := by
  after_results
  all_goals rfl

set_option maxHeartbeats 2000000 in
theorem s0_v12 (W : Val) : after (hostOps0 (F := Ideal)) W (Proc.devRef .tc main_v12)
    = KStages.posOf (KStages.dstIdx (W (Proc.devRef .tc main_arg1))) := by
  after_results
  all_goals rfl

set_option maxHeartbeats 2000000 in
theorem s0_v15 (W : Val) : after (hostOps0 (F := Ideal)) W (Proc.devRef .tc main_v15)
    = KStages.rsOf (KStages.dstIdx (W (Proc.devRef .tc main_arg1))) := by
  after_results
  all_goals rfl

set_option maxHeartbeats 2000000 in
theorem s0_cst3 (W : Val) : after (hostOps0 (F := Ideal)) W (Proc.devRef .tc main_cst_3)
    = constant (F := Ideal) S_ .f32 0x00000000#32 := by
  after_results
  all_goals rfl

set_option maxHeartbeats 2000000 in
theorem s01_v16 (W : Val) : after (hostOps0_1 (F := Ideal)) W (Proc.devRef .tc main_v16)
    = KStages.disOf (W (Proc.devRef .tc main_v12)) (W (Proc.devRef .tc main_v15)) (W (Proc.devRef .tc main_cst_3)) := by
  after_results
  all_goals rfl

set_option maxHeartbeats 2000000 in
theorem s02_v31 (W : Val) : after (hostOps0_2 (F := Ideal)) W (Proc.devRef .tc main_v31)
    = KStages.normOf (W (Proc.devRef .tc main_v16)) (W (Proc.devRef .tc main_v3)) (W (Proc.devRef .tc main_v6)) := by
  after_results
  all_goals rfl

set_option maxHeartbeats 2000000 in
theorem s1_v45 (W : Val) : after (hostOps1 (F := Ideal)) W (Proc.devRef .tc main_v45)
    = KStages.aggOf128 (W (Proc.devRef .tc main_v3)) (W (Proc.devRef .tc main_v6)) (W (Proc.devRef .tc main_v31)) (W (Proc.devRef .tc main_v32)) := by
  after_results
  all_goals rfl

set_option maxHeartbeats 2000000 in
theorem s1_v46 (W : Val) : after (hostOps1 (F := Ideal)) W (Proc.devRef .tc main_v46)
    = shapeCast S1x128 (W (Proc.devRef .tc main_arg3)) Facts₀.shapeCasts_S128_S1x128 := by
  after_results
  all_goals rfl

set_option maxHeartbeats 2000000 in
theorem s2_v56 (W : Val) : after (hostOps2 (F := Ideal)) W (Proc.devRef .tc main_v56)
    = shapeCast S1x128 (Host.divf (shapeCast S128 (W (Proc.devRef .tc main_v47_1)) Facts₀.shapeCasts_S1x128_S128) (broadcastInDim S128 ![] Facts₀.bcast_S_S128 (constant (F := Ideal) S_ .f32 0x47C35000#32))) Facts₀.shapeCasts_S128_S1x128 := by
  after_results
  all_goals rfl

set_option maxHeartbeats 2000000 in
theorem s2_v57 (W : Val) : after (hostOps2 (F := Ideal)) W (Proc.devRef .tc main_v57)
    = shapeCast S1x128 (subf (Host.divf (shapeCast S128 (W (Proc.devRef .tc main_v47_2)) Facts₀.shapeCasts_S1x128_S128) (broadcastInDim S128 ![] Facts₀.bcast_S_S128 (constant (F := Ideal) S_ .f32 0x47C35000#32))) (mulf (Host.divf (shapeCast S128 (W (Proc.devRef .tc main_v47_1)) Facts₀.shapeCasts_S1x128_S128) (broadcastInDim S128 ![] Facts₀.bcast_S_S128 (constant (F := Ideal) S_ .f32 0x47C35000#32))) (Host.divf (shapeCast S128 (W (Proc.devRef .tc main_v47_1)) Facts₀.shapeCasts_S1x128_S128) (broadcastInDim S128 ![] Facts₀.bcast_S_S128 (constant (F := Ideal) S_ .f32 0x47C35000#32))))) Facts₀.shapeCasts_S128_S1x128 := by
  after_results
  all_goals rfl

set_option maxHeartbeats 2000000 in
theorem s2_v58 (W : Val) : after (hostOps2 (F := Ideal)) W (Proc.devRef .tc main_v58)
    = shapeCast S1x128 (W (Proc.devRef .tc main_arg4)) Facts₀.shapeCasts_S128_S1x128 := by
  after_results
  all_goals rfl

set_option maxHeartbeats 2000000 in
theorem s2_v59 (W : Val) : after (hostOps2 (F := Ideal)) W (Proc.devRef .tc main_v59)
    = shapeCast S1x128 (W (Proc.devRef .tc main_arg5)) Facts₀.shapeCasts_S128_S1x128 := by
  after_results
  all_goals rfl

set_option maxHeartbeats 2000000 in
theorem s4_v74 (W : Val) : after (hostOps4 (F := Ideal)) W (Proc.devRef .tc main_v74)
    = KStages.aggOf40 (W (Proc.devRef .tc main_v3)) (W (Proc.devRef .tc main_v6)) (W (Proc.devRef .tc main_v31)) (W (Proc.devRef .tc main_v61)) := by
  after_results
  all_goals rfl

set_option maxHeartbeats 2000000 in
theorem s4_v75 (W : Val) : after (hostOps4 (F := Ideal)) W (Proc.devRef .tc main_v75)
    = shapeCast S1x40 (W (Proc.devRef .tc main_arg7)) Facts₀.shapeCasts_S40_S1x40 := by
  after_results
  all_goals rfl

end Cert.KernelIdeal.KHost

end
-- ==== Proof.RefStages.lean ====
/-
  The reference program's stages as pure functions of the values they consume.

  The edge list gives two index vectors (sources and destinations, each followed by the self loops 0 … N−1), the
  destination counts give the per-node scale 1/√deg, and an aggregation multiplies the gathered source rows by the two
  scales and adds them into the destination rows. Around the two aggregations sit the dense stages: the first product,
  bias and positive part, the batch statistics and normalisation, the second product, and the final biased log-softmax.
  Each definition is the composition of the program's own operations for that stage, in the program's order.
-/
import proofs.«130976_j31610959298975_1_alg».proof.ReferenceIdeal
import proofs.«130976_j31610959298975_1_alg».proof.Proof.Gen.ReferenceIdeal
import Idealize.ShloMosaic.PureOps.Ideal

noncomputable section

namespace Cert.ReferenceIdeal.Stages

open Cert.ReferenceIdeal Idealize.ShloMosaic
open Cert.ReferenceIdeal.Facts₀

/-- The integers 0 … N−1: the self loops. -/
def loopIdx : IVec S100000 32 := iotaInDim S100000 32 0

/-- Row `k` of the edge list followed by the self loops. -/
def srcIdx (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, loopIdx⟩] concatenates_S1600000_S100000_S1700000_d0

def dstIdx (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, loopIdx⟩] concatenates_S1600000_S100000_S1700000_d0

/-- An index vector as a column. -/
def col (v : IVec S1700000 32) : IVec S1700000x1 32 := broadcastInDim S1700000x1 ![0] bcast_S1700000_S1700000x1_0 v

/-- A negative index counted from the end (what indexing with a possibly negative integer lowers to), as a column. -/
def wrapCol (v : IVec S1700000 32) : IVec S1700000x1 32 :=
  col (select (cmpi .slt v (broadcastInDim S1700000 ![] bcast_S_S1700000 (constantI S_ 32 0#32)))
    (addi v (broadcastInDim S1700000 ![] bcast_S_S1700000 (constantI S_ 32 100000#32))) v)

/-- The number of edges arriving at each node. -/
def deg (e : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (col (dstIdx e))
    (broadcastInDim S1700000 ![] bcast_S_S1700000 (constant (F := Ideal) S_ .f32 0x3F800000#32))

/-- 1/√deg where the degree is positive, else 0. -/
def dis (e : IVec S2x1600000 32) : FVec Ideal S100000 .f32 :=
  select (cmpf .ogt (deg e) (broadcastInDim S100000 ![] bcast_S_S100000 (constant (F := Ideal) S_ .f32 0x00000000#32)))
    (Host.rsqrt (maximumf (deg e) (broadcastInDim S100000 ![] bcast_S_S100000 (constant (F := Ideal) S_ .f32 0x3F800000#32))))
    (broadcastInDim S100000 ![] bcast_S_S100000 (id (constant (F := Ideal) S_ .f32 0x00000000#32)))

/-- The per-edge scale: the source's times the destination's. -/
def normE (e : IVec S2x1600000 32) : FVec Ideal S1700000 .f32 :=
  mulf (Host.gather gather_S100000_S1700000x1_S1700000_n_0_n_n_0_1_1 (dis e) (wrapCol (srcIdx e)))
    (Host.gather gather_S100000_S1700000x1_S1700000_n_0_n_n_0_1_1 (dis e) (wrapCol (dstIdx e)))

/-- One aggregation of 128-wide rows. -/
def agg128 (e : IVec S2x1600000 32) (H : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (col (dstIdx e))
    (mulf (Host.gather gather_S100000x128_S1700000x1_S1700000x128_1_0_n_n_0_1_1128 H (wrapCol (srcIdx e)))
      (broadcastInDim S1700000x128 ![0, 1] bcast_S1700000x1_S1700000x128_0_1
        (broadcastInDim S1700000x1 ![0] bcast_S1700000_S1700000x1_0 (normE e))))

/-- One aggregation of 40-wide rows. -/
def agg40 (e : IVec S2x1600000 32) (H : FVec Ideal S100000x40 .f32) : FVec Ideal S100000x40 .f32 :=
  Host.scatterAdd scatter_S100000x40_S1700000x1_S1700000x40_1_0_0_1
    (broadcastInDim S100000x40 ![] bcast_S_S100000x40 (constant (F := Ideal) S_ .f32 0x00000000#32))
    (col (dstIdx e))
    (mulf (Host.gather gather_S100000x40_S1700000x1_S1700000x40_1_0_n_n_0_1_140 H (wrapCol (srcIdx e)))
      (broadcastInDim S1700000x40 ![0, 1] bcast_S1700000x1_S1700000x40_0_1
        (broadcastInDim S1700000x1 ![0] bcast_S1700000_S1700000x1_0 (normE e))))

/-- A 128-vector repeated along the rows. -/
def rows128 (v : FVec Ideal S128 .f32) : FVec Ideal S100000x128 .f32 :=
  broadcastInDim S100000x128 ![0, 1] bcast_S1x128_S100000x128_0_1 (broadcastInDim S1x128 ![1] bcast_S128_S1x128_1 v)

/-- A 40-vector repeated along the rows. -/
def rows40 (v : FVec Ideal S40 .f32) : FVec Ideal S100000x40 .f32 :=
  broadcastInDim S100000x40 ![0, 1] bcast_S1x40_S100000x40_0_1 (broadcastInDim S1x40 ![1] bcast_S40_S1x40_1 v)

/-- Bias, then the positive part. -/
def hrelu (A : FVec Ideal S100000x128 .f32) (b1 : FVec Ideal S128 .f32) : FVec Ideal S100000x128 .f32 :=
  maximumf (addf A (rows128 b1))
    (broadcastInDim S100000x128 ![] bcast_S_S100000x128 (constant (F := Ideal) S_ .f32 0x00000000#32))

/-- The column sums. -/
def colSumR (h : FVec Ideal S100000x128 .f32) : FVec Ideal S128 .f32 :=
  Host.reduceAdd h (constant (F := Ideal) S_ .f32 0x00000000#32) reducesTo_S100000x128_S128_d0 h_S_

/-- The column means. -/
def meanR (h : FVec Ideal S100000x128 .f32) : FVec Ideal S128 .f32 :=
  Host.divf (colSumR h) (broadcastInDim S128 ![] bcast_S_S128 (constant (F := Ideal) S_ .f32 0x47C35000#32))

/-- The column variances as the library computes them: the mean of the squared deviations, with the divisor N − ddof
    (ddof = 0) and a guard that answers NaN's stand-in when that divisor is not positive. -/
def varR (h : FVec Ideal S100000x128 .f32) : FVec Ideal S128 .f32 :=
  let dev : FVec Ideal S100000x128 .f32 :=
    subf h (broadcastInDim S100000x128 ![0, 1] bcast_S1x128_S100000x128_0_1
      (Host.divf (broadcastInDim S1x128 ![1] bcast_S128_S1x128_1 (colSumR h))
        (broadcastInDim S1x128 ![] bcast_S_S1x128 (constant (F := Ideal) S_ .f32 0x47C35000#32))))
  let cnt : FVec Ideal S_ .f32 :=
    subf (constant (F := Ideal) S_ .f32 0x47C35000#32) (sitofp .f32 (constantI S_ 32 0#32))
  select (broadcastInDim S128 ![] bcast_S_S128
      (cmpf .ogt cnt (constant (F := Ideal) S_ .f32 0x00000000#32)))
    (Host.divf (colSumR (mulf dev dev)) (broadcastInDim S128 ![] bcast_S_S128 cnt))
    (broadcastInDim S128 ![] bcast_S_S128 (id (constant (F := Ideal) S_ .f32 0x7FC00000#32)))

/-- The normalisation with the batch's own statistics. -/
def bnR (h : FVec Ideal S100000x128 .f32) (g b : FVec Ideal S128 .f32) : FVec Ideal S100000x128 .f32 :=
  addf (mulf (mulf (subf h (rows128 (meanR h)))
      (rows128 (Host.rsqrt (addf (varR h) (broadcastInDim S128 ![] bcast_S_S128 (constant (F := Ideal) S_ .f32 0x3727C5AC#32))))))
      (rows128 g)) (rows128 b)

/-- A column vector [N] as [N, 1] and then repeated along the 40 columns. -/
def cols40 (v : FVec Ideal S100000 .f32) : FVec Ideal S100000x40 .f32 :=
  broadcastInDim S100000x40 ![0, 1] bcast_S100000x1_S100000x40_0_1 (broadcastInDim S100000x1 ![0] bcast_S100000_S100000x1_0 v)

/-- The biased row-wise log-softmax as the library lowers it. -/
def outR (A : FVec Ideal S100000x40 .f32) (b2 : FVec Ideal S40 .f32) : FVec Ideal S100000x40 .f32 :=
  let z : FVec Ideal S100000x40 .f32 := addf A (rows40 b2)
  let zmax : FVec Ideal S100000 .f32 :=
    maximumf (broadcastInDim S100000 ![] bcast_S_S100000 (constant (F := Ideal) S_ .f32 0xFF800000#32))
      (Host.reduce FloatOps.maximumf z (constant (F := Ideal) S_ .f32 0xFF800000#32) reducesTo_S100000x40_S100000_d1 h_S_)
  let sh : FVec Ideal S100000x40 .f32 := subf z (cols40 zmax)
  subf sh (broadcastInDim S100000x40 ![0, 1] bcast_S100000x1_S100000x40_0_1
    (Host.log (broadcastInDim S100000x1 ![0] bcast_S100000_S100000x1_0
      (Host.reduceAdd (Host.exp sh) (constant (F := Ideal) S_ .f32 0x00000000#32) reducesTo_S100000x40_S100000_d1 h_S_))))

/-- The whole reference, as one function of its eight arguments. -/
def refOut (x : FVec Ideal S100000x128 .f32) (e : IVec S2x1600000 32) (W1 : FVec Ideal S128x128 .f32)
    (b1 g be : FVec Ideal S128 .f32) (W2 : FVec Ideal S128x40 .f32) (b2 : FVec Ideal S40 .f32) : FVec Ideal S100000x40 .f32 :=
  outR (agg40 e (Host.dotGeneral dot_S100000x128_S128x40_S100000x40_1_0_0_1_n_n none
      (bnR (hrelu (agg128 e (Host.dotGeneral dot_S100000x128_S128x128_S100000x128_1_0_0_1_n_n none x W1)) b1) g be) W2)) b2

end Cert.ReferenceIdeal.Stages

end
-- ==== Proof.Spec.lean ====
/-
  The mathematics of the two programs, stage by stage, as functions on matrices of extended reals.

  A two-layer graph convolution with batch normalisation between the layers and a row-wise log-softmax at the end.
  Matrices are functions of a pair of coordinates; a vector of per-column parameters is carried as a matrix with one row.
  Each stage below is what one dense step computes at one entry: a product of a matrix with a weight matrix, a bias
  followed by the positive part, the two column sums a variance needs, the normalisation itself, and the row-wise
  log-softmax of a biased matrix.
-/
import Idealize.ShloMosaic.Lib.ValueIdx
import Idealize.ShloMosaic.PureOps.Ideal.Laws

open scoped BigOperators

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal

/-- The product of a matrix with a weight matrix: entry (r, c) is the sum over q of x(r, q) · w(q, c). -/
def mm {n k c : ℕ} (x : Mat n k) (w : Mat k c) : Mat n c :=
  fun i => ∑ q : Fin k, x (ix2 (n0 := n) (n1 := k) (i 0) q) * w (ix2 (n0 := k) (n1 := c) q (i 1))

/-- A bias added to every row, then the positive part. -/
def reluBias {n c : ℕ} (a : Mat n c) (b : Mat 1 c) : Mat n c :=
  fun i => max (a i + b (ix2 (n0 := 1) (n1 := c) 0 (i 1))) 0

/-- The sum of each column. -/
def colSum {n c : ℕ} (h : Mat n c) : Mat 1 c :=
  fun j => ∑ r : Fin n, h (ix2 (n0 := n) (n1 := c) r (j 1))

/-- The sum of the squares of each column. -/
def colSumSq {n c : ℕ} (h : Mat n c) : Mat 1 c :=
  fun j => ∑ r : Fin n, h (ix2 (n0 := n) (n1 := c) r (j 1)) * h (ix2 (n0 := n) (n1 := c) r (j 1))

/-- Batch normalisation with given per-column mean and variance, scale and shift; the small constant under the
    square root is the binary32 number nearest to 1e-5, kept as its word. -/
def bn {n c : ℕ} (h : Mat n c) (mean var g b : Mat 1 c) : Mat n c :=
  fun i => (h i - mean (ix2 (n0 := 1) (n1 := c) 0 (i 1)))
      * Ideal.rsqrt (var (ix2 (n0 := 1) (n1 := c) 0 (i 1)) + Ideal.ofBits .f32 0x3727C5AC#32)
      * g (ix2 (n0 := 1) (n1 := c) 0 (i 1)) + b (ix2 (n0 := 1) (n1 := c) 0 (i 1))

/-- The largest entry of row r (the bottom element for an empty row). -/
def rowMax {n c : ℕ} (z : Mat n c) (r : Fin n) : EReal :=
  (Finset.univ : Finset (Fin c)).fold max ⊥ (fun q => z (ix2 (n0 := n) (n1 := c) r q))

/-- A bias added to every row. -/
def addBias {n c : ℕ} (a : Mat n c) (b : Mat 1 c) : Mat n c :=
  fun i => a i + b (ix2 (n0 := 1) (n1 := c) 0 (i 1))

/-- The row-wise log-softmax: z − max − log Σ exp (z − max), the maximum and the sum taken along the row. -/
def logSoftmax {n c : ℕ} (z : Mat n c) : Mat n c :=
  fun i => (z i - rowMax z (i 0))
      - Ideal.log (∑ q : Fin c, Ideal.exp (z (ix2 (n0 := n) (n1 := c) (i 0) q) - rowMax z (i 0)))

/-- A vector as a matrix with one row, and back. -/
def row {c : ℕ} (v : (⟨1, ![c]⟩ : Shape).Idx → EReal) : Mat 1 c := fun j => v (ix1 (j 1))
def unrow {c : ℕ} (m : Mat 1 c) : (⟨1, ![c]⟩ : Shape).Idx → EReal := fun j => m (ix2 (n0 := 1) (n1 := c) 0 (j 0))

/-- The number of rows N = 100000 of the node matrices, as the binary32 word both programs divide by. -/
def cntN : EReal := Ideal.ofBits .f32 0x47C35000#32

/-- Column sums divided by N: the column means. -/
def meanOf {c : ℕ} (s : Mat 1 c) : Mat 1 c :=
  fun j => Ideal.div (s (ix2 (n0 := 1) (n1 := c) 0 (j 1))) cntN

/-- The variance as "mean of squares minus square of the mean", from the two column sums. -/
def varOfSums {c : ℕ} (s ss : Mat 1 c) : Mat 1 c :=
  fun j => Ideal.div (ss (ix2 (n0 := 1) (n1 := c) 0 (j 1))) cntN - meanOf s j * meanOf s j

/-- The variance as the mean of the squared deviations from the column mean. -/
def varOfDev {n c : ℕ} (h : Mat n c) : Mat 1 c :=
  fun j => Ideal.div (∑ r : Fin n, (h (ix2 (n0 := n) (n1 := c) r (j 1)) - meanOf (colSum h) j)
      * (h (ix2 (n0 := n) (n1 := c) r (j 1)) - meanOf (colSum h) j)) cntN

/-- Every entry is a real number (neither infinity). -/
def AllReal {ι : Type} (f : ι → EReal) : Prop := ∀ i, f i ≠ ⊤ ∧ f i ≠ ⊥

end Cert.Spec

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«130976_j31610959298975_1_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.KBridge.lean ====
/-
  The kernel program's host stages are the reference's, and its small host computations between the dense kernels are
  the specification's.

  The two programs build the index vectors, the node and edge scales and the two aggregations from the same host
  operations over the same literal shapes with the same dimension numbers, so each stage of one is, as a function, the
  stage of the other. Between its second and third dense kernels the kernel program turns the two column sums into the
  column mean and the "mean of squares minus square of the mean" variance, reshaping one-row matrices to vectors and
  back; read entry by entry these are the specification's mean and variance.
-/
import proofs.«130976_j31610959298975_1_alg».proof.Proof.KStages
import proofs.«130976_j31610959298975_1_alg».proof.Proof.RefStages
import proofs.«130976_j31610959298975_1_alg».proof.Proof.Spec
import proofs.«130976_j31610959298975_1_alg».proof.Proof.LibLayout

open scoped BigOperators

noncomputable section

namespace Cert.KBridge

open Idealize.ShloMosaic Idealize.ShloMosaic.ValueIdx Cert.Spec

/-! ## The two programs' host stages are the same functions -/

section Same
open Cert.KernelIdeal Cert.ReferenceIdeal

attribute [local irreducible] Host.gather Host.scatterAdd concatenate broadcastInDim shapeCast extractStridedSlice
  iotaInDim select cmpi addi mulf cmpf maximumf Host.rsqrt

/-- An index vector as a column: the same broadcast in both programs. -/
theorem col_eq (v : IVec Cert.KernelIdeal.S1700000 32) : KStages.col v = Stages.col v := rfl

/-- The wrap-around of negative indices, as a column: the same in both programs. -/
theorem wrapCol_eq (v : IVec Cert.KernelIdeal.S1700000 32) : KStages.wrapCol v = Stages.wrapCol v := rfl

/-- The source vector: the edge list's row 0 followed by the self loops, in both programs. -/
theorem src_eq (e : IVec Cert.KernelIdeal.S2x1600000 32) : KStages.srcIdx e = Stages.srcIdx e := rfl

/-- The destination vector: the edge list's row 1 followed by the self loops, in both programs. -/
theorem dst_eq (e : IVec Cert.KernelIdeal.S2x1600000 32) : KStages.dstIdx e = Stages.dstIdx e := rfl

/-- The destination counts. -/
theorem deg_eq (e : IVec Cert.KernelIdeal.S2x1600000 32) : KStages.degOf (KStages.dstIdx e) = Stages.deg e := by
  unfold KStages.degOf Stages.deg
  rw [dst_eq, col_eq]
  rfl

/-- The node scale 1/√deg (or 0). -/
theorem dis_eq (e : IVec Cert.KernelIdeal.S2x1600000 32) :
    KStages.disOf (KStages.posOf (KStages.dstIdx e)) (KStages.rsOf (KStages.dstIdx e))
      (constant (F := Ideal) Cert.KernelIdeal.S_ .f32 0x00000000#32) = Stages.dis e := by
  unfold KStages.disOf KStages.posOf KStages.rsOf Stages.dis
  rw [deg_eq]

/-- The per-edge scale as the kernel program computes it from the edge list. -/
def normK (e : IVec Cert.KernelIdeal.S2x1600000 32) : FVec Ideal Cert.KernelIdeal.S1700000 .f32 :=
  KStages.normOf (KStages.disOf (KStages.posOf (KStages.dstIdx e)) (KStages.rsOf (KStages.dstIdx e))
    (constant (F := Ideal) Cert.KernelIdeal.S_ .f32 0x00000000#32)) (KStages.srcIdx e) (KStages.dstIdx e)

/-- It is the reference's per-edge scale. -/
theorem norm_eq (e : IVec Cert.KernelIdeal.S2x1600000 32) : normK e = Stages.normE e := by
  unfold normK KStages.normOf Stages.normE
  rw [dis_eq, src_eq, dst_eq, wrapCol_eq, wrapCol_eq]
  rfl

/-- The aggregation of 128-wide rows. -/
theorem agg128_eq (e : IVec Cert.KernelIdeal.S2x1600000 32) (H : FVec Ideal Cert.KernelIdeal.S100000x128 .f32) :
    KStages.aggOf128 (KStages.srcIdx e) (KStages.dstIdx e) (normK e) H = Stages.agg128 e H := by
  unfold KStages.aggOf128 Stages.agg128
  rw [norm_eq, src_eq, dst_eq, col_eq, wrapCol_eq]
  rfl

/-- The aggregation of 40-wide rows. -/
theorem agg40_eq (e : IVec Cert.KernelIdeal.S2x1600000 32) (H : FVec Ideal Cert.KernelIdeal.S100000x40 .f32) :
    KStages.aggOf40 (KStages.srcIdx e) (KStages.dstIdx e) (normK e) H = Stages.agg40 e H := by
  unfold KStages.aggOf40 Stages.agg40
  rw [norm_eq, src_eq, dst_eq, col_eq, wrapCol_eq]
  rfl

end Same

/-! ## The kernel program's host computations between its dense kernels -/

section Between
open Cert.KernelIdeal Cert.KernelIdeal.Facts₀

/-- A single number repeated over any shape reads that number (the scalar shape has one index). -/
theorem bcast_scalar_apply {α : Type} {t : Shape} (X : (⟨0, ![]⟩ : Shape).Idx → α)
    (hb : (⟨0, ![]⟩ : Shape).BroadcastsInDim t (![] : Fin 0 → Fin t.rank)) (j : t.Idx) :
    broadcastInDim t ![] hb X j = X ix0 :=
  broadcastInDim_apply _ hb X j ix0 (fun a => a.elim0)

/-- The host's quotient of two arrays, read at an index, is the quotient of the entries. -/
theorem hostDivf_apply {s : Shape} {φ : FTy} (a b : FVec Ideal s φ) (i : s.Idx) :
    Host.divf a b i = Ideal.div (a i) (b i) := rfl

/-- A 128-vector reshaped to a single row is the specification's row. -/
theorem row128_eq (v : FVec Ideal S128 .f32) : shapeCast S1x128 v shapeCasts_S128_S1x128 = Cert.Spec.row v := by
  funext j
  obtain ⟨a, c, rfl⟩ : ∃ (a : Fin 1) (c : Fin 128), j = ix2 a c := ⟨j 0, j 1, eq_ix2 j⟩
  obtain rfl : a = 0 := Subsingleton.elim _ _
  rw [Cert.LibLayout.shapeCast_row_apply]
  rfl

/-- A 40-vector reshaped to a single row is the specification's row. -/
theorem row40_eq (w : FVec Ideal S40 .f32) : shapeCast S1x40 w shapeCasts_S40_S1x40 = Cert.Spec.row w := by
  funext j
  obtain ⟨a, c, rfl⟩ : ∃ (a : Fin 1) (c : Fin 40), j = ix2 a c := ⟨j 0, j 1, eq_ix2 j⟩
  obtain rfl : a = 0 := Subsingleton.elim _ _
  rw [Cert.LibLayout.shapeCast_row_apply]
  rfl

/-- A one-row matrix of column sums divided by N, as the kernel program computes it: reshaped to a vector and divided
    by the word for N. -/
def meanK (s : FVec Ideal S1x128 .f32) : FVec Ideal S128 .f32 :=
  Host.divf (shapeCast S128 s shapeCasts_S1x128_S128)
    (broadcastInDim S128 ![] bcast_S_S128 (constant (F := Ideal) S_ .f32 0x47C35000#32))

/-- Entry c of it is entry (0, c) of the sums over N. -/
theorem meanK_apply (s : FVec Ideal S1x128 .f32) (c : Fin 128) :
    meanK s (ix1 c) = Ideal.div (s (ix2 0 c)) cntN := by
  unfold meanK
  rw [hostDivf_apply, Cert.LibLayout.shapeCast_unrow_apply, bcast_scalar_apply, constant_apply]
  rfl

/-- Reshaped back to one row it is the specification's mean. -/
theorem mean2d_eq (s : FVec Ideal S1x128 .f32) :
    shapeCast S1x128 (meanK s) shapeCasts_S128_S1x128 = Cert.Spec.meanOf s := by
  funext j
  obtain ⟨a, c, rfl⟩ : ∃ (a : Fin 1) (c : Fin 128), j = ix2 a c := ⟨j 0, j 1, eq_ix2 j⟩
  obtain rfl : a = 0 := Subsingleton.elim _ _
  rw [Cert.LibLayout.shapeCast_row_apply, meanK_apply]
  rfl

/-- The mean of the squares minus the square of the mean, reshaped to one row, is the specification's variance from the
    two column sums. -/
theorem var2d_eq (s ss : FVec Ideal S1x128 .f32) :
    shapeCast S1x128 (subf (meanK ss) (mulf (meanK s) (meanK s))) shapeCasts_S128_S1x128 = Cert.Spec.varOfSums s ss := by
  funext j
  obtain ⟨a, c, rfl⟩ : ∃ (a : Fin 1) (c : Fin 128), j = ix2 a c := ⟨j 0, j 1, eq_ix2 j⟩
  obtain rfl : a = 0 := Subsingleton.elim _ _
  rw [Cert.LibLayout.shapeCast_row_apply, subf_apply, mulf_apply, meanK_apply, meanK_apply]
  rfl

end Between

end Cert.KBridge

end
-- ==== Proof.LibDot.lean ====
/-
  A product of two matrices at one entry is a sum over the one contracted axis.  Two such sums — over different
  dimension records, of different operands — are equal as soon as their factors agree position by position
  along that axis.  This is what identifies a row block's product with the matching rows of the whole product:
  the block's row r of the left operand IS row (block offset + r) of the whole left operand, the right operand
  is the same matrix, and the contracted positions correspond one to one.
-/
import Idealize.ShloMosaic.Lib.ValueIdx
import Idealize.ShloMosaic.PureOps.Ideal.Laws

noncomputable section

namespace Cert.LibDot

open Idealize.ShloMosaic Idealize.ShloMosaic.ValueIdx

/-- The sum over a one-axis contraction index, re-indexed by the axis's positions `0 … n-1`. -/
theorem sum_contr {sl sr so : Shape} (d : DotDims sl sr so) (n : Nat) (hr : d.contr.rank = 1)
    (hs : d.contr.size ⟨0, by omega⟩ = n) (f : d.contr.Idx → EReal) :
    ∑ k : d.contr.Idx, f k = ∑ k : Fin n, f ((contrEquiv1 d n hr hs).symm k) :=
  (Equiv.sum_comp (contrEquiv1 d n hr hs).symm f).symm

/-- Two one-axis contractions of the same length whose left factors agree at every position, and whose right
    factors do, are the same sum. -/
theorem dot_sum_eq {sl sr so sl' sr' so' : Shape} (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (A : sl.Idx → EReal) (B : sr.Idx → EReal) (A' : sl'.Idx → EReal) (B' : sr'.Idx → EReal) (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    ∑ k : d.contr.Idx, A (d.lhsIdx j k) * B (d.rhsIdx j k) = ∑ k : d'.contr.Idx, A' (d'.lhsIdx j' k) * B' (d'.rhsIdx j' k) := by
  rw [sum_contr d n hr hs, sum_contr d' n hr' hs']
  exact Finset.sum_congr rfl fun k _ => by rw [hA k, hB k]

/-- A block product into the zero accumulator against the host's whole product, entry against entry: equal when
    the factors agree along the contracted axis. -/
theorem matmul_eq_dotGeneral {sl sr so sl' sr' so' : Shape} {φ₁ φ₂ φ₁' φ₂' : FTy}
    (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (prec prec' : Option ContractPrecision) (sched : HostSchedule)
    (A : FVec Ideal sl φ₁) (B : FVec Ideal sr φ₂) (A' : FVec Ideal sl' φ₁') (B' : FVec Ideal sr' φ₂') (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    FloatOps.matmul d prec A B (constant so .f32 0x00000000#32) j = FloatOps.dotGeneral d' prec' sched A' B' j' := by
  rw [Ideal.matmul_constant_zero_apply, Ideal.dotGeneral_apply]
  exact dot_sum_eq d d' n hr hs hr' hs' A B A' B' j j' hA hB

end Cert.LibDot

end
-- ==== Proof.KDense0.lean ====
/-
  The first dense stage of the kernel program, read off its blockwise run: the region multiplies each block of
  4000 rows of x by the whole of W1 and writes the block of the result back, so the result array ends holding the
  product x · W1 entry by entry.  The steps: the block product at one entry is a sum over the contracted axis; the
  block's rows are rows of x and the weight block is W1, so that entry is the whole product's entry; every row of the
  result lies in exactly the block of the point r / 4000; hence the array after the last point is the whole product.
-/
import proofs.«130976_j31610959298975_1_alg».proof.Proof.Gen.KernelIdeal.Frame
import proofs.«130976_j31610959298975_1_alg».proof.Proof.Spec
import proofs.«130976_j31610959298975_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KDense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## The first product: a row block of x times the whole of W1 -/

/-- The block product at one entry: the sum over the contracted axis. -/
theorem pay0_apply (x0 : Vec Ideal S4000x128 .f32) (x1 : Vec Ideal S128x128 .f32) (p : Fin 4000) (q : Fin 128) :
    Gen.k0_pay1 (F := Ideal) x0 x1 (ix2 p q) = ∑ k : Fin 128, x0 (ix2 p k) * x1 (ix2 k q) := by
  unfold Gen.k0_pay1
  refine (Ideal.matmul_constant_zero_apply dot_S4000x128_S128x128_S4000x128_1_0_0_1_n_n none _ _ _).trans ?_
  rw [Cert.LibDot.sum_contr dot_S4000x128_S128x128_S4000x128_1_0_0_1_n_n 128 rfl rfl]
  refine Finset.sum_congr rfl fun k _ => ?_
  have hl : dot_S4000x128_S128x128_S4000x128_1_0_0_1_n_n.lhsIdx (ix2 p q)
      ((contrEquiv1 dot_S4000x128_S128x128_S4000x128_1_0_0_1_n_n 128 rfl rfl).symm k) = ix2 p k := by
    funext a; apply Fin.ext
    match a with
    | ⟨0, _⟩ => rfl
    | ⟨1, _⟩ =>
      exact (dot_S4000x128_S128x128_S4000x128_1_0_0_1_n_n.lhsIdx_val_of_single (cl := 1) rfl _ _).trans
        (contrEquiv1_symm_val dot_S4000x128_S128x128_S4000x128_1_0_0_1_n_n 128 rfl rfl k)
  have hr : dot_S4000x128_S128x128_S4000x128_1_0_0_1_n_n.rhsIdx (ix2 p q)
      ((contrEquiv1 dot_S4000x128_S128x128_S4000x128_1_0_0_1_n_n 128 rfl rfl).symm k) = ix2 k q := by
    funext a; apply Fin.ext
    match a with
    | ⟨0, _⟩ =>
      exact (dot_S4000x128_S128x128_S4000x128_1_0_0_1_n_n.rhsIdx_val_of_single (cr := 0) rfl _ _).trans
        (contrEquiv1_symm_val dot_S4000x128_S128x128_S4000x128_1_0_0_1_n_n 128 rfl rfl k)
    | ⟨1, _⟩ => rfl
  rw [hl, hr]
  rfl

/-- An entry of the block product is the entry of the whole product it sits at, as soon as the block's row is the
    whole matrix's row and the weight block is the whole weight matrix. -/
theorem point0 (A : Cert.Spec.Mat 100000 128) (B : Cert.Spec.Mat 128 128)
    (x0 : Vec Ideal S4000x128 .f32) (x1 : Vec Ideal S128x128 .f32) (j : S4000x128.Idx) (i : S100000x128.Idx)
    (h0 : ∀ k : Fin 128, x0 (ix2 (n0 := 4000) (n1 := 128) (j 0) k) = A (ix2 (n0 := 100000) (n1 := 128) (i 0) k))
    (h1 : ∀ k : Fin 128, x1 (ix2 (n0 := 128) (n1 := 128) k (j 1)) = B (ix2 (n0 := 128) (n1 := 128) k (i 1))) :
    Gen.k0_pay1 (F := Ideal) x0 x1 j = Cert.Spec.mm A B i := by
  refine (congrArg (Gen.k0_pay1 (F := Ideal) x0 x1) (eq_ix2 j)).trans ?_
  refine (pay0_apply x0 x1 (j 0) (j 1)).trans ?_
  unfold Cert.Spec.mm
  exact Finset.sum_congr rfl fun k _ => by rw [h0 k, h1 k]

/-- The printed index maps over the 25 points: the row blocks of x and of the result move together, one block
    per point; W1's block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the left block at point t is the array's row the result's block has there. -/
theorem in0_0 (c : Dev nD) (t : Fin cfg0.N) (j : ((cfg0.win 2).xblock (grid0.coords t)).Idx) (k : Fin 128) :
    Gen.iblk0 V c 0 t (ix2 (n0 := 4000) (n1 := 128) (j 0) k)
      = V c (Pipeline.arrRef spec0 0) (ix2 (n0 := 100000) (n1 := 128) ((((cfg0.win 2).blk t).view.emb j) 0) k) := by
  obtain ⟨e0, e1, e2, e3, e4, e5⟩ := idx_facts0 t
  show V c (Pipeline.arrRef spec0 0) (((cfg0.win 0).blk t).view.emb (ix2 (n0 := 4000) (n1 := 128) (j 0) k)) = _
  refine congrArg (V c (Pipeline.arrRef spec0 0)) (funext fun a => Fin.ext ?_)
  match a with
  | ⟨0, _⟩ => show win0_0.index t (0 : Fin 2) * 4000 + 1 * (j 0).val = win0_2.index t (0 : Fin 2) * 4000 + 1 * (j 0).val; omega
  | ⟨1, _⟩ => show win0_0.index t (1 : Fin 2) * 128 + 1 * k.val = k.val; omega

/-- The weight block at any point is the whole weight matrix: read at (k, q) it is the array's entry (k, q). -/
theorem in0_1 (c : Dev nD) (t : Fin cfg0.N) (j : ((cfg0.win 2).xblock (grid0.coords t)).Idx) (k : Fin 128) :
    Gen.iblk0 V c 1 t (ix2 (n0 := 128) (n1 := 128) k (j 1))
      = V c (Pipeline.arrRef spec0 1) (ix2 (n0 := 128) (n1 := 128) k ((((cfg0.win 2).blk t).view.emb j) 1)) := by
  obtain ⟨e0, e1, e2, e3, e4, e5⟩ := idx_facts0 t
  show V c (Pipeline.arrRef spec0 1) (((cfg0.win 1).blk t).view.emb (ix2 (n0 := 128) (n1 := 128) k (j 1))) = _
  refine congrArg (V c (Pipeline.arrRef spec0 1)) (funext fun a => Fin.ext ?_)
  match a with
  | ⟨0, _⟩ => show win0_1.index t (0 : Fin 2) * 128 + 1 * k.val = k.val; omega
  | ⟨1, _⟩ => show win0_1.index t (1 : Fin 2) * 128 + 1 * (j 1).val = win0_2.index t (1 : Fin 2) * 128 + 1 * (j 1).val; omega

/-- What point t writes back is block t of the whole product. -/
theorem flushed0_eq (c : Dev nD) (t : Fin cfg0.N) :
    (Gen.dat0 (F := Ideal) V c).flushed 2 t = ((cfg0.win 2).blk t).view.read (Elt Ideal)
      (Cert.Spec.mm (n := 100000) (k := 128) (c := 128) (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero hz0]
  simp only [View.ld_unit_zero (S := S4000x128) hz0, View.ld_unit_zero (S := S128x128) hz0]
  funext j
  exact point0 (V c (Pipeline.arrRef spec0 0)) (V c (Pipeline.arrRef spec0 1)) (Gen.iblk0 V c 0 t) (Gen.iblk0 V c 1 t) j
    (((cfg0.win 2).blk t).view.emb j) (in0_0 V c t j) (in0_1 V c t j)

/-- An index of the result is in point t's block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- Row r of the result is written by point r / 4000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_2 _, ?_⟩
  rw [mem_blk0]
  obtain ⟨e0, e1, e2, e3, e4, e5⟩ := idx_facts0 ⟨(i 0).val / 4000, by rw [hN]; omega⟩
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ (i 0).val ∧ (i 0).val < (i 0).val / 4000 * 4000 + 4000; omega
  | ⟨1, _⟩ => show win0_2.index _ (1 : Fin 2) * 128 ≤ (i 1).val ∧ (i 1).val < win0_2.index _ (1 : Fin 2) * 128 + 128; rw [e5]; omega

/-- The result array of the first product region is x · W1, entry by entry. -/
theorem final0 (c : Dev nD) : (Gen.dat0 (F := Ideal) V c).arrAt 2 cfg0.N
    = Cert.Spec.mm (n := 100000) (k := 128) (c := 128) (V c (Pipeline.arrRef spec0 0)) (V c (Pipeline.arrRef spec0 1)) :=
  (Gen.dat0 (F := Ideal) V c).arrAt_eq_of_cover 2 _ (fun t _ => flushed0_eq V c t) cover0

end Cert.KernelIdeal.KDense

end
-- ==== Proof.KDense2.lean ====
/-
  The normalisation stage of the kernel program, read off its blockwise run: the region takes each block of 4000
  rows of h together with the four per-column rows (mean, variance, scale, shift), computes
  (h − mean) · 1/√(variance + ε) · scale + shift entry by entry, and writes the block back, so the result array ends
  holding the batch normalisation of h with those statistics.  The steps: the body's value at one entry, the row
  broadcasts read at the entry's column; the block's entry is the whole array's entry and the four row blocks are the
  whole rows; every row of the result lies in the block of the point r / 4000; hence the array after the last point.
-/
import proofs.«130976_j31610959298975_1_alg».proof.Proof.Gen.KernelIdeal.Frame
import proofs.«130976_j31610959298975_1_alg».proof.Proof.Spec
import proofs.«130976_j31610959298975_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KDense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The normalisation: a row block of h against the four per-column rows -/

/-- The body's value at one entry: the entry of h minus the column's mean, times the reciprocal square root of the
    column's variance plus the small constant, times the column's scale, plus the column's shift. -/
theorem pay2_apply (v0 : Vec Ideal S1x128 .f32) (v5 : Vec Ideal S4000x128 .f32) (v7 v13 v17 : Vec Ideal S1x128 .f32)
    (p : Fin 4000) (q : Fin 128) :
    Gen.k2_pay1 (F := Ideal) v0 v5 v7 v13 v17 (ix2 p q)
      = (v5 (ix2 p q) - v7 (ix2 (0 : Fin 1) q)) * Ideal.rsqrt (v0 (ix2 (0 : Fin 1) q) + Ideal.ofBits .f32 0x3727C5AC#32)
          * v13 (ix2 (0 : Fin 1) q) + v17 (ix2 (0 : Fin 1) q) := by
  unfold Gen.k2_pay1
  simp only [shapeCast_self]
  rw [addf_apply, mulf_apply, mulf_apply, subf_apply, broadcastTo_1b_ab_apply, broadcastTo_1b_ab_apply,
    broadcastTo_1b_ab_apply, broadcastTo_1b_ab_apply]
  rfl

/-- An entry of the block's normalisation is the entry of the whole array's, as soon as the block's entry is the whole
    matrix's entry and the four row blocks are the whole rows. -/
theorem point2 (H : Cert.Spec.Mat 100000 128) (M Vr G B : Cert.Spec.Mat 1 128)
    (x0 : Vec Ideal S4000x128 .f32) (x1 x2 x3 x4 : Vec Ideal S1x128 .f32) (j : S4000x128.Idx) (i : S100000x128.Idx)
    (h0 : x0 (ix2 (n0 := 4000) (n1 := 128) (j 0) (j 1)) = H i)
    (h1 : x1 (ix2 (n0 := 1) (n1 := 128) 0 (j 1)) = M (ix2 (n0 := 1) (n1 := 128) 0 (i 1)))
    (h2 : x2 (ix2 (n0 := 1) (n1 := 128) 0 (j 1)) = Vr (ix2 (n0 := 1) (n1 := 128) 0 (i 1)))
    (h3 : x3 (ix2 (n0 := 1) (n1 := 128) 0 (j 1)) = G (ix2 (n0 := 1) (n1 := 128) 0 (i 1)))
    (h4 : x4 (ix2 (n0 := 1) (n1 := 128) 0 (j 1)) = B (ix2 (n0 := 1) (n1 := 128) 0 (i 1))) :
    Gen.k2_pay1 (F := Ideal) x2 x0 x1 x3 x4 j = Cert.Spec.bn H M Vr G B i := by
  refine (congrArg (Gen.k2_pay1 (F := Ideal) x2 x0 x1 x3 x4) (eq_ix2 j)).trans ?_
  refine (pay2_apply x2 x0 x1 x3 x4 (j 0) (j 1)).trans ?_
  unfold Cert.Spec.bn
  rw [h0, h1, h2, h3, h4]

/-- The printed index maps over the 25 points: the row blocks of h and of the result move together, one block
    per point; each of the four rows is its whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of h at point t, read at an entry, is the array's entry the result's block has there. -/
theorem in2_0 (c : Dev nD) (t : Fin cfg2.N) (j : ((cfg2.win 5).xblock (grid2.coords t)).Idx) :
    Gen.iblk2 V c 0 t (ix2 (n0 := 4000) (n1 := 128) (j 0) (j 1))
      = V c (Pipeline.arrRef spec2 0) (((cfg2.win 5).blk t).view.emb j) := by
  obtain ⟨a0, a1, b0, b1, c0, c1, d0, d1, e0, e1, f0, f1⟩ := idx_facts2 t
  show V c (Pipeline.arrRef spec2 0) (((cfg2.win 0).blk t).view.emb (ix2 (n0 := 4000) (n1 := 128) (j 0) (j 1))) = _
  refine congrArg (V c (Pipeline.arrRef spec2 0)) (funext fun a => Fin.ext ?_)
  match a with
  | ⟨0, _⟩ => show win2_0.index t (0 : Fin 2) * 4000 + 1 * (j 0).val = win2_5.index t (0 : Fin 2) * 4000 + 1 * (j 0).val; omega
  | ⟨1, _⟩ => show win2_0.index t (1 : Fin 2) * 128 + 1 * (j 1).val = win2_5.index t (1 : Fin 2) * 128 + 1 * (j 1).val; omega

/-- The mean row's block at any point is the whole row: read at column q it is the array's entry (0, q). -/
theorem in2_1 (c : Dev nD) (t : Fin cfg2.N) (j : ((cfg2.win 5).xblock (grid2.coords t)).Idx) :
    Gen.iblk2 V c 1 t (ix2 (n0 := 1) (n1 := 128) (0 : Fin 1) (j 1))
      = V c (Pipeline.arrRef spec2 1) (ix2 (n0 := 1) (n1 := 128) (0 : Fin 1) ((((cfg2.win 5).blk t).view.emb j) 1)) := by
  obtain ⟨a0, a1, b0, b1, c0, c1, d0, d1, e0, e1, f0, f1⟩ := idx_facts2 t
  show V c (Pipeline.arrRef spec2 1) (((cfg2.win 1).blk t).view.emb (ix2 (n0 := 1) (n1 := 128) (0 : Fin 1) (j 1))) = _
  refine congrArg (V c (Pipeline.arrRef spec2 1)) (funext fun a => Fin.ext ?_)
  match a with
  | ⟨0, _⟩ => show win2_1.index t (0 : Fin 2) * 1 + 1 * 0 = 0; omega
  | ⟨1, _⟩ => show win2_1.index t (1 : Fin 2) * 128 + 1 * (j 1).val = win2_5.index t (1 : Fin 2) * 128 + 1 * (j 1).val; omega

/-- The variance row's block at any point is the whole row: read at column q it is the array's entry (0, q). -/
theorem in2_2 (c : Dev nD) (t : Fin cfg2.N) (j : ((cfg2.win 5).xblock (grid2.coords t)).Idx) :
    Gen.iblk2 V c 2 t (ix2 (n0 := 1) (n1 := 128) (0 : Fin 1) (j 1))
      = V c (Pipeline.arrRef spec2 2) (ix2 (n0 := 1) (n1 := 128) (0 : Fin 1) ((((cfg2.win 5).blk t).view.emb j) 1)) := by
  obtain ⟨a0, a1, b0, b1, c0, c1, d0, d1, e0, e1, f0, f1⟩ := idx_facts2 t
  show V c (Pipeline.arrRef spec2 2) (((cfg2.win 2).blk t).view.emb (ix2 (n0 := 1) (n1 := 128) (0 : Fin 1) (j 1))) = _
  refine congrArg (V c (Pipeline.arrRef spec2 2)) (funext fun a => Fin.ext ?_)
  match a with
  | ⟨0, _⟩ => show win2_2.index t (0 : Fin 2) * 1 + 1 * 0 = 0; omega
  | ⟨1, _⟩ => show win2_2.index t (1 : Fin 2) * 128 + 1 * (j 1).val = win2_5.index t (1 : Fin 2) * 128 + 1 * (j 1).val; omega

/-- The scale row's block at any point is the whole row: read at column q it is the array's entry (0, q). -/
theorem in2_3 (c : Dev nD) (t : Fin cfg2.N) (j : ((cfg2.win 5).xblock (grid2.coords t)).Idx) :
    Gen.iblk2 V c 3 t (ix2 (n0 := 1) (n1 := 128) (0 : Fin 1) (j 1))
      = V c (Pipeline.arrRef spec2 3) (ix2 (n0 := 1) (n1 := 128) (0 : Fin 1) ((((cfg2.win 5).blk t).view.emb j) 1)) := by
  obtain ⟨a0, a1, b0, b1, c0, c1, d0, d1, e0, e1, f0, f1⟩ := idx_facts2 t
  show V c (Pipeline.arrRef spec2 3) (((cfg2.win 3).blk t).view.emb (ix2 (n0 := 1) (n1 := 128) (0 : Fin 1) (j 1))) = _
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 128 + 1 * (j 1).val = win2_5.index t (1 : Fin 2) * 128 + 1 * (j 1).val; omega

/-- The shift row's block at any point is the whole row: read at column q it is the array's entry (0, q). -/
theorem in2_4 (c : Dev nD) (t : Fin cfg2.N) (j : ((cfg2.win 5).xblock (grid2.coords t)).Idx) :
    Gen.iblk2 V c 4 t (ix2 (n0 := 1) (n1 := 128) (0 : Fin 1) (j 1))
      = V c (Pipeline.arrRef spec2 4) (ix2 (n0 := 1) (n1 := 128) (0 : Fin 1) ((((cfg2.win 5).blk t).view.emb j) 1)) := by
  obtain ⟨a0, a1, b0, b1, c0, c1, d0, d1, e0, e1, f0, f1⟩ := idx_facts2 t
  show V c (Pipeline.arrRef spec2 4) (((cfg2.win 4).blk t).view.emb (ix2 (n0 := 1) (n1 := 128) (0 : Fin 1) (j 1))) = _
  refine congrArg (V c (Pipeline.arrRef spec2 4)) (funext fun a => Fin.ext ?_)
  match a with
  | ⟨0, _⟩ => show win2_4.index t (0 : Fin 2) * 1 + 1 * 0 = 0; omega
  | ⟨1, _⟩ => show win2_4.index t (1 : Fin 2) * 128 + 1 * (j 1).val = win2_5.index t (1 : Fin 2) * 128 + 1 * (j 1).val; omega

/-- What point t writes back is block t of the whole normalised array. -/
theorem flushed2_eq (c : Dev nD) (t : Fin cfg2.N) :
    (Gen.dat2 (F := Ideal) V c).flushed 5 t = ((cfg2.win 5).blk t).view.read (Elt Ideal)
      (Cert.Spec.bn (n := 100000) (c := 128) (V c (Pipeline.arrRef spec2 0)) (V c (Pipeline.arrRef spec2 1))
        (V c (Pipeline.arrRef spec2 2)) (V c (Pipeline.arrRef spec2 3)) (V c (Pipeline.arrRef spec2 4))) := by
  show (cfg2.win 5).cut (grid2.coords t) ((Gen.dat2 (F := Ideal) V c).after 5 t) = _
  rw [Gen.after2_5]
  unfold Gen.out2_5
  rw [View.canon_unit_zero hz2]
  simp only [View.ld_unit_zero (S := S4000x128) hz2, View.ld_unit_zero (S := S1x128) hz2]
  funext j
  exact point2 (V c (Pipeline.arrRef spec2 0)) (V c (Pipeline.arrRef spec2 1)) (V c (Pipeline.arrRef spec2 2))
    (V c (Pipeline.arrRef spec2 3)) (V c (Pipeline.arrRef spec2 4))
    (Gen.iblk2 V c 0 t) (Gen.iblk2 V c 1 t) (Gen.iblk2 V c 2 t) (Gen.iblk2 V c 3 t) (Gen.iblk2 V c 4 t) j
    (((cfg2.win 5).blk t).view.emb j) (in2_0 V c t j) (in2_1 V c t j) (in2_2 V c t j) (in2_3 V c t j) (in2_4 V c t j)

/-- An index of the result is in point t's block iff each coordinate is in the block's range on its axis. -/
theorem mem_blk2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v60).slice (win2_5.rect t)).set ↔ _
  rw [View.set_slice_whole, Rect.mem_set_unit]
  exact Iff.rfl

/-- Row r of the result is written by point r / 4000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  refine ⟨⟨(i 0).val / 4000, by rw [hN]; omega⟩, flush2_5 _, ?_⟩
  rw [mem_blk2]
  obtain ⟨a0, a1, b0, b1, c0, c1, d0, d1, e0, e1, f0, f1⟩ := idx_facts2 ⟨(i 0).val / 4000, by rw [hN]; omega⟩
  intro a
  match a with
  | ⟨0, _⟩ => show win2_5.index _ (0 : Fin 2) * 4000 ≤ (i 0).val ∧ (i 0).val < win2_5.index _ (0 : Fin 2) * 4000 + 4000; rw [f0]; show (i 0).val / 4000 * 4000 ≤ (i 0).val ∧ (i 0).val < (i 0).val / 4000 * 4000 + 4000; omega
  | ⟨1, _⟩ => show win2_5.index _ (1 : Fin 2) * 128 ≤ (i 1).val ∧ (i 1).val < win2_5.index _ (1 : Fin 2) * 128 + 128; rw [f1]; omega

/-- The result array of the normalisation region is the batch normalisation of h with the given per-column mean,
    variance, scale and shift, entry by entry. -/
theorem final2 (c : Dev nD) : (Gen.dat2 (F := Ideal) V c).arrAt 5 cfg2.N
    = Cert.Spec.bn (n := 100000) (c := 128) (V c (Pipeline.arrRef spec2 0)) (V c (Pipeline.arrRef spec2 1))
        (V c (Pipeline.arrRef spec2 2)) (V c (Pipeline.arrRef spec2 3)) (V c (Pipeline.arrRef spec2 4)) :=
  (Gen.dat2 (F := Ideal) V c).arrAt_eq_of_cover 5 _ (fun t _ => flushed2_eq V c t) cover2

end Cert.KernelIdeal.KDense

end
-- ==== Proof.KDense3.lean ====
/-
  The second dense stage of the kernel program, read off its blockwise run: the region multiplies each block of
  4000 rows of the normalised features h by the whole of W2 and writes the block of the result back, so the result
  array ends holding the product h · W2 entry by entry.  The steps are those of the first product: the block product at
  one entry is a sum over the contracted axis; the block's rows are rows of h and the weight block is W2; every row
  of the result lies in the block of the point r / 4000; hence the array after the last point is the whole product.
-/
import proofs.«130976_j31610959298975_1_alg».proof.Proof.Gen.KernelIdeal.Frame
import proofs.«130976_j31610959298975_1_alg».proof.Proof.Spec
import proofs.«130976_j31610959298975_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KDense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-! ## The second product: a row block of h times the whole of W2 -/

/-- The block product at one entry: the sum over the contracted axis. -/
theorem pay3_apply (x0 : Vec Ideal S4000x128 .f32) (x1 : Vec Ideal S128x40 .f32) (p : Fin 4000) (q : Fin 40) :
    Gen.k3_pay1 (F := Ideal) x0 x1 (ix2 p q) = ∑ k : Fin 128, x0 (ix2 p k) * x1 (ix2 k q) := by
  unfold Gen.k3_pay1
  refine (Ideal.matmul_constant_zero_apply dot_S4000x128_S128x40_S4000x40_1_0_0_1_n_n none _ _ _).trans ?_
  rw [Cert.LibDot.sum_contr dot_S4000x128_S128x40_S4000x40_1_0_0_1_n_n 128 rfl rfl]
  refine Finset.sum_congr rfl fun k _ => ?_
  have hl : dot_S4000x128_S128x40_S4000x40_1_0_0_1_n_n.lhsIdx (ix2 p q)
      ((contrEquiv1 dot_S4000x128_S128x40_S4000x40_1_0_0_1_n_n 128 rfl rfl).symm k) = ix2 p k := by
    funext a; apply Fin.ext
    match a with
    | ⟨0, _⟩ => rfl
    | ⟨1, _⟩ =>
      exact (dot_S4000x128_S128x40_S4000x40_1_0_0_1_n_n.lhsIdx_val_of_single (cl := 1) rfl _ _).trans
        (contrEquiv1_symm_val dot_S4000x128_S128x40_S4000x40_1_0_0_1_n_n 128 rfl rfl k)
  have hr : dot_S4000x128_S128x40_S4000x40_1_0_0_1_n_n.rhsIdx (ix2 p q)
      ((contrEquiv1 dot_S4000x128_S128x40_S4000x40_1_0_0_1_n_n 128 rfl rfl).symm k) = ix2 k q := by
    funext a; apply Fin.ext
    match a with
    | ⟨0, _⟩ =>
      exact (dot_S4000x128_S128x40_S4000x40_1_0_0_1_n_n.rhsIdx_val_of_single (cr := 0) rfl _ _).trans
        (contrEquiv1_symm_val dot_S4000x128_S128x40_S4000x40_1_0_0_1_n_n 128 rfl rfl k)
    | ⟨1, _⟩ => rfl
  rw [hl, hr, shapeCast_self]
  rfl

/-- An entry of the block product is the entry of the whole product it sits at, as soon as the block's row is the
    whole matrix's row and the weight block is the whole weight matrix. -/
theorem point3 (A : Cert.Spec.Mat 100000 128) (B : Cert.Spec.Mat 128 40)
    (x0 : Vec Ideal S4000x128 .f32) (x1 : Vec Ideal S128x40 .f32) (j : S4000x40.Idx) (i : S100000x40.Idx)
    (h0 : ∀ k : Fin 128, x0 (ix2 (n0 := 4000) (n1 := 128) (j 0) k) = A (ix2 (n0 := 100000) (n1 := 128) (i 0) k))
    (h1 : ∀ k : Fin 128, x1 (ix2 (n0 := 128) (n1 := 40) k (j 1)) = B (ix2 (n0 := 128) (n1 := 40) k (i 1))) :
    Gen.k3_pay1 (F := Ideal) x0 x1 j = Cert.Spec.mm A B i := by
  refine (congrArg (Gen.k3_pay1 (F := Ideal) x0 x1) (eq_ix2 j)).trans ?_
  refine (pay3_apply x0 x1 (j 0) (j 1)).trans ?_
  unfold Cert.Spec.mm
  exact Finset.sum_congr rfl fun k _ => by rw [h0 k, h1 k]

/-- The printed index maps over the 25 points: the row blocks of h and of the result move together, one block
    per point; W2's block is the whole matrix. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r of the left block at point t is the array's row the result's block has there. -/
theorem in3_0 (c : Dev nD) (t : Fin cfg3.N) (j : ((cfg3.win 2).xblock (grid3.coords t)).Idx) (k : Fin 128) :
    Gen.iblk3 V c 0 t (ix2 (n0 := 4000) (n1 := 128) (j 0) k)
      = V c (Pipeline.arrRef spec3 0) (ix2 (n0 := 100000) (n1 := 128) ((((cfg3.win 2).blk t).view.emb j) 0) k) := by
  obtain ⟨e0, e1, e2, e3, e4, e5⟩ := idx_facts3 t
  show V c (Pipeline.arrRef spec3 0) (((cfg3.win 0).blk t).view.emb (ix2 (n0 := 4000) (n1 := 128) (j 0) k)) = _
  refine congrArg (V c (Pipeline.arrRef spec3 0)) (funext fun a => Fin.ext ?_)
  match a with
  | ⟨0, _⟩ => show win3_0.index t (0 : Fin 2) * 4000 + 1 * (j 0).val = win3_2.index t (0 : Fin 2) * 4000 + 1 * (j 0).val; omega
  | ⟨1, _⟩ => show win3_0.index t (1 : Fin 2) * 128 + 1 * k.val = k.val; omega

/-- The weight block at any point is the whole weight matrix: read at (k, q) it is the array's entry (k, q). -/
theorem in3_1 (c : Dev nD) (t : Fin cfg3.N) (j : ((cfg3.win 2).xblock (grid3.coords t)).Idx) (k : Fin 128) :
    Gen.iblk3 V c 1 t (ix2 (n0 := 128) (n1 := 40) k (j 1))
      = V c (Pipeline.arrRef spec3 1) (ix2 (n0 := 128) (n1 := 40) k ((((cfg3.win 2).blk t).view.emb j) 1)) := by
  obtain ⟨e0, e1, e2, e3, e4, e5⟩ := idx_facts3 t
  show V c (Pipeline.arrRef spec3 1) (((cfg3.win 1).blk t).view.emb (ix2 (n0 := 128) (n1 := 40) k (j 1))) = _
  refine congrArg (V c (Pipeline.arrRef spec3 1)) (funext fun a => Fin.ext ?_)
  match a with
  | ⟨0, _⟩ => show win3_1.index t (0 : Fin 2) * 128 + 1 * k.val = k.val; omega
  | ⟨1, _⟩ => show win3_1.index t (1 : Fin 2) * 40 + 1 * (j 1).val = win3_2.index t (1 : Fin 2) * 40 + 1 * (j 1).val; omega

/-- What point t writes back is block t of the whole product. -/
theorem flushed3_eq (c : Dev nD) (t : Fin cfg3.N) :
    (Gen.dat3 (F := Ideal) V c).flushed 2 t = ((cfg3.win 2).blk t).view.read (Elt Ideal)
      (Cert.Spec.mm (n := 100000) (k := 128) (c := 40) (V c (Pipeline.arrRef spec3 0)) (V c (Pipeline.arrRef spec3 1))) := by
  show (cfg3.win 2).cut (grid3.coords t) ((Gen.dat3 (F := Ideal) V c).after 2 t) = _
  rw [Gen.after3_2]
  unfold Gen.out3_2
  rw [View.canon_unit_zero hz3]
  simp only [View.ld_unit_zero (S := S4000x128) hz3, View.ld_unit_zero (S := S128x40) hz3]
  funext j
  exact point3 (V c (Pipeline.arrRef spec3 0)) (V c (Pipeline.arrRef spec3 1)) (Gen.iblk3 V c 0 t) (Gen.iblk3 V c 1 t) j
    (((cfg3.win 2).blk t).view.emb j) (in3_0 V c t j) (in3_1 V c t j)

/-- An index of the result is in point t's block iff each coordinate is in the block's range on its axis. -/
theorem mem_blk3 (t : Fin cfg3.N) (i : S100000x40.Idx) :
    i ∈ ((cfg3.win 2).blk t).view.set ↔ ∀ a : Fin 2, win3_2.index t a * S4000x40.size a ≤ (i a).val ∧ (i a).val < win3_2.index t a * S4000x40.size a + S4000x40.size a := by
  show i ∈ ((View.whole main_v61).slice (win3_2.rect t)).set ↔ _
  rw [View.set_slice_whole, Rect.mem_set_unit]
  exact Iff.rfl

/-- Row r of the result is written by point r / 4000. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 25 := N_3
  refine ⟨⟨(i 0).val / 4000, by rw [hN]; omega⟩, flush3_2 _, ?_⟩
  rw [mem_blk3]
  obtain ⟨e0, e1, e2, e3, e4, e5⟩ := idx_facts3 ⟨(i 0).val / 4000, by rw [hN]; omega⟩
  intro a
  match a with
  | ⟨0, _⟩ => show win3_2.index _ (0 : Fin 2) * 4000 ≤ (i 0).val ∧ (i 0).val < win3_2.index _ (0 : Fin 2) * 4000 + 4000; rw [e4]; show (i 0).val / 4000 * 4000 ≤ (i 0).val ∧ (i 0).val < (i 0).val / 4000 * 4000 + 4000; omega
  | ⟨1, _⟩ => show win3_2.index _ (1 : Fin 2) * 40 ≤ (i 1).val ∧ (i 1).val < win3_2.index _ (1 : Fin 2) * 40 + 40; rw [e5]; omega

/-- The result array of the second product region is h · W2, entry by entry. -/
theorem final3 (c : Dev nD) : (Gen.dat3 (F := Ideal) V c).arrAt 2 cfg3.N
    = Cert.Spec.mm (n := 100000) (k := 128) (c := 40) (V c (Pipeline.arrRef spec3 0)) (V c (Pipeline.arrRef spec3 1)) :=
  (Gen.dat3 (F := Ideal) V c).arrAt_eq_of_cover 2 _ (fun t _ => flushed3_eq V c t) cover3

end Cert.KernelIdeal.KDense

end
-- ==== Proof.LibAccFold.lean ====
/- A running total that starts at `z` and adds one term per step is `z` plus the sum of the terms;
   the same with one extra term added once, after a chosen step. -/
import Mathlib.Algebra.BigOperators.Fin
import Mathlib.Algebra.BigOperators.Intervals

open scoped BigOperators

namespace Cert.Spec

variable {M : Type*} [AddCommMonoid M]

/-- The running total after step `k`: step `0` gives `z + g 0`, step `k + 1` adds `g (k + 1)`. -/
def foldAcc (z : M) (g : ℕ → M) : ℕ → M
  | 0 => z + g 0
  | k + 1 => foldAcc z g k + g (k + 1)

theorem foldAcc_zero (z : M) (g : ℕ → M) : foldAcc z g 0 = z + g 0 := rfl

theorem foldAcc_succ (z : M) (g : ℕ → M) (k : ℕ) : foldAcc z g (k + 1) = foldAcc z g k + g (k + 1) := rfl

/-- The running total is the start plus the sum of the terms so far. -/
theorem foldAcc_eq (z : M) (g : ℕ → M) (k : ℕ) : foldAcc z g k = z + ∑ j ∈ Finset.range (k + 1), g j := by
  induction k with
  | zero => simp [foldAcc]
  | succ k ih => rw [foldAcc_succ, ih, Finset.sum_range_succ _ (k + 1), add_assoc]

/-- The running total with the extra term `x` added once, right after step `d`'s own term. -/
def foldAccD (z : M) (g : ℕ → M) (x : M) (d : ℕ) : ℕ → M
  | 0 => if 0 = d then (z + g 0) + x else z + g 0
  | k + 1 => if k + 1 = d then (foldAccD z g x d k + g (k + 1)) + x else foldAccD z g x d k + g (k + 1)

theorem foldAccD_zero (z : M) (g : ℕ → M) (x : M) (d : ℕ) :
    foldAccD z g x d 0 = if 0 = d then (z + g 0) + x else z + g 0 := rfl

theorem foldAccD_succ (z : M) (g : ℕ → M) (x : M) (d k : ℕ) :
    foldAccD z g x d (k + 1)
      = if k + 1 = d then (foldAccD z g x d k + g (k + 1)) + x else foldAccD z g x d k + g (k + 1) := rfl

/-- Before the chosen step the extra term has not been added. -/
theorem foldAccD_lt (z : M) (g : ℕ → M) (x : M) (d k : ℕ) (h : k < d) :
    foldAccD z g x d k = z + ∑ j ∈ Finset.range (k + 1), g j := by
  induction k with
  | zero => rw [foldAccD_zero, if_neg (by omega)]; simp
  | succ k ih =>
    rw [foldAccD_succ, if_neg (by omega), ih (by omega), Finset.sum_range_succ _ (k + 1), add_assoc]

/-- From the chosen step on, the running total is the start plus the sum of the terms so far, plus the extra term. -/
theorem foldAccD_eq (z : M) (g : ℕ → M) (x : M) (d k : ℕ) (h : d ≤ k) :
    foldAccD z g x d k = (z + ∑ j ∈ Finset.range (k + 1), g j) + x := by
  induction k with
  | zero =>
    obtain rfl : d = 0 := by omega
    rw [foldAccD_zero, if_pos rfl]; simp
  | succ k ih =>
    rw [foldAccD_succ]
    by_cases hd : k + 1 = d
    · rw [if_pos hd, foldAccD_lt z g x d k (by omega), Finset.sum_range_succ _ (k + 1), add_assoc z]
    · rw [if_neg hd, ih (by omega), Finset.sum_range_succ _ (k + 1), ← add_assoc z, add_right_comm]

/-- A sum over `range n` of a function of naturals is the sum over `Fin n` of it at the values. -/
theorem sum_range_eq_sum_fin (n : ℕ) (g : ℕ → M) : ∑ j ∈ Finset.range n, g j = ∑ j : Fin n, g j.val :=
  (Fin.sum_univ_eq_sum_range g n).symm

end Cert.Spec
-- ==== Proof.LibBlocks.lean ====
/- A sum over a range, cut into consecutive blocks of equal length. -/
import Mathlib.Algebra.BigOperators.Fin
import Mathlib.Logic.Equiv.Fin.Basic

open scoped BigOperators

namespace Cert.Spec

/-- The `t`-th index of the `k`-th block of length `n` is below `b * n`. -/
theorem block_lt {b n : ℕ} (k : Fin b) (t : Fin n) : k.val * n + t.val < b * n :=
  calc k.val * n + t.val < k.val * n + n := Nat.add_lt_add_left t.isLt _
    _ = (k.val + 1) * n := (Nat.succ_mul _ _).symm
    _ ≤ b * n := Nat.mul_le_mul_right n k.isLt

/-- A sum over `b * n` consecutive indices is the sum over the `b` blocks of the sums over each block's `n` indices. -/
theorem sum_blocks {M : Type*} [AddCommMonoid M] (b n : ℕ) (f : Fin (b * n) → M) :
    ∑ j, f j = ∑ k : Fin b, ∑ t : Fin n, f ⟨k.val * n + t.val, block_lt k t⟩ := by
  rw [← Fintype.sum_prod_type', ← Equiv.sum_comp (finProdFinEquiv (m := b) (n := n)) f]
  refine Finset.sum_congr rfl fun p _ => congrArg f (Fin.ext ?_)
  simp [finProdFinEquiv, Nat.mul_comm, Nat.add_comm]

/-- The rows and columns of this certificate: 8192 indices are 8 blocks of 1024. -/
theorem sum_8192 {M : Type*} [AddCommMonoid M] (f : Fin 8192 → M) :
    ∑ j, f j = ∑ k : Fin 8, ∑ t : Fin 1024, f ⟨k.val * 1024 + t.val, block_lt (b := 8) k t⟩ :=
  sum_blocks 8 1024 f

end Cert.Spec
-- ==== Proof.LibKeepdims.lean ====
/-
  The layout operations a keepdims reduction leaves around it, read at an index, and the two one-axis sums of a matrix.

  A column [a, 1] broadcast along its unit axis to [a, b] reads row p's one element at every (p, c); a single element
  [1, 1] broadcast to [a, b] reads that element everywhere; a column [n, 1] reshaped to a row [1, n] keeps the order of its
  elements. At the exact instance a sum of a matrix [a, b] along its second axis is, at row r, the sum of that row, and a
  sum of a column [a, 1] along its first axis is the sum of the column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

section Layout
variable {α : Type}

/-- A column [a, 1] broadcast to [a, b], read at (p, c), is the column at (p, 0). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single element [1, 1] broadcast to [a, b], read anywhere, is that element. -/
theorem broadcastTo_unit_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column [n, 1] reshaped to a row [1, n], read at (0, j), is the column at (j, 0). -/
theorem shapeCast_col_row_apply {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

end Layout

section Sums

/-- The sum of a matrix [a, b] along its second axis, at row r: the sum of row r. -/
theorem sum_lanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.f32).bits) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  apply Fin.ext
  match d with
  | ⟨0, _⟩ => rfl
  | ⟨1, _⟩ => rfl

/-- The sum of a column [a, 1] along its first axis: the sum of the column. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.f32).bits) = FKind.add.neutral .f32 hφ) :
    multiReduction .add [0] ⟨1, ![1]⟩ src 0x00000000#32 h hφ hacc (ix1 (0 : Fin 1))
      = ∑ r : Fin a, src (ix2 r (0 : Fin 1)) := by
  refine (Ideal.multiReduction_add_single src 0x00000000#32 h hφ hacc (ix1 (0 : Fin 1))).trans ?_
  refine Finset.sum_congr rfl fun r _ => congrArg src ?_
  funext d
  apply Fin.ext
  match d with
  | ⟨0, _⟩ => rfl
  | ⟨1, _⟩ => rfl

end Sums

end Cert.LibKeepdims

end
-- ==== Proof.KStats.lean ====
/-
  The bias, positive part and column statistics step of the program, read as mathematics.

  The step walks over a matrix of 100000 rows and 128 columns in 25 blocks of 4000 rows. For each block it adds the
  bias row to every row and takes the positive part, writes that block out, and adds the block's column sums and the
  column sums of its squares onto two one-row accumulators, which are set to zero at the first block. So the written
  matrix is the positive part of (matrix + bias row), and after the last block the accumulators hold its column sums
  and the column sums of its squares: a sum over 100000 rows is the sum, over the 25 blocks, of the sums over each
  block's 4000 rows. The reference program's own bias and positive part, read at an entry, is the same function.
-/
import proofs.«130976_j31610959298975_1_alg».proof.Proof.Gen.KernelIdeal.Frame
import proofs.«130976_j31610959298975_1_alg».proof.Proof.Spec
import proofs.«130976_j31610959298975_1_alg».proof.Proof.RefStages
import proofs.«130976_j31610959298975_1_alg».proof.Proof.LibAccFold
import proofs.«130976_j31610959298975_1_alg».proof.Proof.LibBlocks
import proofs.«130976_j31610959298975_1_alg».proof.Proof.LibLayout
import proofs.«130976_j31610959298975_1_alg».proof.Proof.LibKeepdims
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KStats

open Cert.KernelIdeal Cert.KernelIdeal.Gen

variable {F : FTy → Type} [FloatOps F]

theorem hz : (![0, 0] : Fin 2 → Nat) = fun _ => 0 := funext fun a => by fin_cases a <;> rfl

/-! ## What each case of the body leaves in each output's buffer

The body stores the positive part of (block + bias) into the third window, and adds the block's column sums (and the
column sums of its squares) onto the two one-row accumulators; at the first grid point the accumulators are set to
zero first. -/

/-- First point, third window: the positive part of the block plus the bias row. -/
theorem outA2 (c : Dev nD) (i : grid1.Coords) (arg1 : Memref sig .tc .vmem S4000x128 .f32) (harg1 : arg1.IsWhole) (arg2 : Memref sig .tc .vmem S1x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (hc0 : cond1_0 i)
    (x0 : Vec F S4000x128 .f32) (x1 : Vec F S1x128 .f32) :
    out1_A_2 c i arg1 harg1 arg2 harg2 arg3 harg3 arg4 harg4 arg5 harg5 hc0 x0 x1 = k1_pay3 x0 x1 := by
  unfold out1_A_2
  rw [View.read_writes_eq_canon _ _ _ (cover1_A_2 c i arg1 harg1 arg2 harg2 arg3 harg3 arg4 harg4 arg5 harg5 hc0 x0 x1)]
  unfold kernelRun1_A
  dsimp only
  rw [View.canon_unit_zero hz]
  simp only [View.readAt_eq_ld, harg1.read_unread, harg2.read_unread, View.ld_unit_zero (S := S4000x128) hz,
    View.ld_unit_zero (S := S1x128) hz]

/-- First point, the accumulator of column sums: zero plus the block's column sums. -/
theorem outA3 (c : Dev nD) (i : grid1.Coords) (arg1 : Memref sig .tc .vmem S4000x128 .f32) (harg1 : arg1.IsWhole) (arg2 : Memref sig .tc .vmem S1x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (hc0 : cond1_0 i)
    (x0 : Vec F S4000x128 .f32) (x1 : Vec F S1x128 .f32) :
    out1_A_3 c i arg1 harg1 arg2 harg2 arg3 harg3 arg4 harg4 arg5 harg5 hc0 x0 x1 = k1_pay4 x0 x1 k1_pay1 := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero (S := S1x128) hz, View.readCov_unit_zero (S := S1x128) _ hz]
  simp only [View.readAt_eq_ld, harg1.read_unread, harg2.read_unread, View.ld_unit_zero (S := S4000x128) hz,
    View.ld_unit_zero (S := S1x128) hz]

/-- First point, the accumulator of column sums of squares: zero plus the block's column sums of squares. -/
theorem outA4 (c : Dev nD) (i : grid1.Coords) (arg1 : Memref sig .tc .vmem S4000x128 .f32) (harg1 : arg1.IsWhole) (arg2 : Memref sig .tc .vmem S1x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (hc0 : cond1_0 i)
    (x0 : Vec F S4000x128 .f32) (x1 : Vec F S1x128 .f32) :
    out1_A_4 c i arg1 harg1 arg2 harg2 arg3 harg3 arg4 harg4 arg5 harg5 hc0 x0 x1 = k1_pay5 x0 x1 k1_pay2 := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero (S := S1x128) hz, View.readCov_unit_zero (S := S1x128) _ hz]
  simp only [View.readAt_eq_ld, harg1.read_unread, harg2.read_unread, View.ld_unit_zero (S := S4000x128) hz,
    View.ld_unit_zero (S := S1x128) hz]

/-- Later points, third window: the positive part of the block plus the bias row. -/
theorem outB2 (c : Dev nD) (i : grid1.Coords) (arg1 : Memref sig .tc .vmem S4000x128 .f32) (harg1 : arg1.IsWhole) (arg2 : Memref sig .tc .vmem S1x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i)
    (x0 : Vec F S4000x128 .f32) (x1 : Vec F S1x128 .f32) (xo3 xo4 : Vec F S1x128 .f32) :
    out1_B_2 c i arg1 harg1 arg2 harg2 arg3 harg3 arg4 harg4 arg5 harg5 hc0 x0 x1 xo3 xo4 = k1_pay3 x0 x1 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  rw [View.canon_unit_zero hz]
  simp only [View.readAt_eq_ld, harg1.read_unread, harg2.read_unread, View.ld_unit_zero (S := S4000x128) hz,
    View.ld_unit_zero (S := S1x128) hz]

/-- Later points, the accumulator of column sums: what it held plus the block's column sums. -/
theorem outB3 (c : Dev nD) (i : grid1.Coords) (arg1 : Memref sig .tc .vmem S4000x128 .f32) (harg1 : arg1.IsWhole) (arg2 : Memref sig .tc .vmem S1x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i)
    (x0 : Vec F S4000x128 .f32) (x1 : Vec F S1x128 .f32) (xo3 xo4 : Vec F S1x128 .f32) :
    out1_B_3 c i arg1 harg1 arg2 harg2 arg3 harg3 arg4 harg4 arg5 harg5 hc0 x0 x1 xo3 xo4 = k1_pay4 x0 x1 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  rw [View.canon_unit_zero hz]
  simp only [View.readAt_eq_ld, harg1.read_unread, harg2.read_unread, harg4.read_unread, View.ld_unit_zero (S := S4000x128) hz,
    View.ld_unit_zero (S := S1x128) hz]

/-- Later points, the accumulator of column sums of squares: what it held plus the block's column sums of squares. -/
theorem outB4 (c : Dev nD) (i : grid1.Coords) (arg1 : Memref sig .tc .vmem S4000x128 .f32) (harg1 : arg1.IsWhole) (arg2 : Memref sig .tc .vmem S1x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i)
    (x0 : Vec F S4000x128 .f32) (x1 : Vec F S1x128 .f32) (xo3 xo4 : Vec F S1x128 .f32) :
    out1_B_4 c i arg1 harg1 arg2 harg2 arg3 harg3 arg4 harg4 arg5 harg5 hc0 x0 x1 xo3 xo4 = k1_pay5 x0 x1 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  rw [View.canon_unit_zero hz]
  simp only [View.readAt_eq_ld, harg1.read_unread, harg2.read_unread, harg5.read_unread, View.ld_unit_zero (S := S4000x128) hz,
    View.ld_unit_zero (S := S1x128) hz]

/-! ## The payloads at an entry, over the extended reals -/

section AtIdeal

open Idealize.ShloMosaic.ValueIdx

/-- The positive part of (block + bias row) at entry (r, q). -/
theorem pay3_apply (x0 : Vec Ideal S4000x128 .f32) (x1 : Vec Ideal S1x128 .f32) (r : Fin 4000) (q : Fin 128) :
    k1_pay3 (F := Ideal) x0 x1 (ix2 r q) = max (x0 (ix2 r q) + x1 (ix2 (0 : Fin 1) q)) 0 := by
  have e1 : shapeCast S4000x128 x0 shapeCasts_S4000x128_S4000x128 = x0 := shapeCast_self _ _
  have e2 : shapeCast S1x128 x1 shapeCasts_S1x128_S1x128 = x1 := shapeCast_self _ _
  have e3 : broadcastTo S4000x128 x1 broadcasts_S1x128_S4000x128 (ix2 r q) = x1 (ix2 (0 : Fin 1) q) :=
    broadcastTo_1b_ab_apply x1 _ r q
  unfold k1_pay3
  show max (shapeCast S4000x128 x0 shapeCasts_S4000x128_S4000x128 (ix2 r q)
      + broadcastTo S4000x128 (shapeCast S1x128 x1 shapeCasts_S1x128_S1x128) broadcasts_S1x128_S4000x128 (ix2 r q))
      (Ideal.ofBits .f32 0x00000000#32) = _
  rw [e1, e2, e3, Ideal.ofBits_zero_f32]

/-- The sum of a matrix [a, b] along its first axis, at column q: the sum of column q. -/
theorem sum_rows_col_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec (FTy.f32).bits) = FKind.add.neutral .f32 hφ) (q : Fin b) :
    multiReduction .add [0] ⟨1, ![b]⟩ src 0x00000000#32 h hφ hacc (ix1 q) = ∑ r : Fin a, src (ix2 r q) := by
  refine (Ideal.multiReduction_add_single src 0x00000000#32 h hφ hacc (ix1 q)).trans ?_
  refine Finset.sum_congr rfl fun r _ => congrArg src ?_
  funext d
  apply Fin.ext
  match d with
  | ⟨0, _⟩ => rfl
  | ⟨1, _⟩ => rfl

/-- The accumulator of column sums after the body: what it held plus the block's column sum. -/
theorem pay4_apply (x0 : Vec Ideal S4000x128 .f32) (x1 : Vec Ideal S1x128 .f32) (acc : Vec Ideal S1x128 .f32) (q : Fin 128) :
    k1_pay4 (F := Ideal) x0 x1 acc (ix2 (0 : Fin 1) q)
      = acc (ix2 (0 : Fin 1) q) + ∑ r : Fin 4000, k1_pay3 (F := Ideal) x0 x1 (ix2 r q) := by
  have e1 : shapeCast S1x128 acc shapeCasts_S1x128_S1x128 = acc := shapeCast_self _ _
  unfold k1_pay4
  show shapeCast S1x128 acc shapeCasts_S1x128_S1x128 (ix2 (0 : Fin 1) q)
      + shapeCast S1x128 (multiReduction .add [0] S128 (k1_pay3 (F := Ideal) x0 x1) 0x00000000#32 reduces_S4000x128_S128 (.inl rfl) rfl)
          shapeCasts_S128_S1x128 (ix2 (0 : Fin 1) q) = _
  rw [e1]
  refine congrArg (acc (ix2 (0 : Fin 1) q) + ·) ?_
  refine (shapeCast_a_1a_apply _ shapeCasts_S128_S1x128 (0 : Fin 1) q).trans ?_
  exact sum_rows_col_apply (k1_pay3 (F := Ideal) x0 x1) reduces_S4000x128_S128 (.inl rfl) rfl q

/-- The accumulator of column sums of squares after the body: what it held plus the block's column sum of squares. -/
theorem pay5_apply (x0 : Vec Ideal S4000x128 .f32) (x1 : Vec Ideal S1x128 .f32) (acc : Vec Ideal S1x128 .f32) (q : Fin 128) :
    k1_pay5 (F := Ideal) x0 x1 acc (ix2 (0 : Fin 1) q)
      = acc (ix2 (0 : Fin 1) q)
        + ∑ r : Fin 4000, k1_pay3 (F := Ideal) x0 x1 (ix2 r q) * k1_pay3 (F := Ideal) x0 x1 (ix2 r q) := by
  have e1 : shapeCast S1x128 acc shapeCasts_S1x128_S1x128 = acc := shapeCast_self _ _
  unfold k1_pay5
  show shapeCast S1x128 acc shapeCasts_S1x128_S1x128 (ix2 (0 : Fin 1) q)
      + shapeCast S1x128 (multiReduction .add [0] S128 (mulf (k1_pay3 (F := Ideal) x0 x1) (k1_pay3 (F := Ideal) x0 x1)) 0x00000000#32 reduces_S4000x128_S128 (.inl rfl) rfl)
          shapeCasts_S128_S1x128 (ix2 (0 : Fin 1) q) = _
  rw [e1]
  refine congrArg (acc (ix2 (0 : Fin 1) q) + ·) ?_
  refine (shapeCast_a_1a_apply _ shapeCasts_S128_S1x128 (0 : Fin 1) q).trans ?_
  exact sum_rows_col_apply (mulf (k1_pay3 (F := Ideal) x0 x1) (k1_pay3 (F := Ideal) x0 x1)) reduces_S4000x128_S128 (.inl rfl) rfl q

/-- The zero rows the first point stores into the accumulators. -/
theorem pay1_apply (j : S1x128.Idx) : k1_pay1 (F := Ideal) j = 0 := Ideal.ofBits_zero_f32
theorem pay2_apply (j : S1x128.Idx) : k1_pay2 (F := Ideal) j = 0 := Ideal.ofBits_zero_f32

end AtIdeal

/-! ## The blocks of the windows, as entries of the arrays the region finds -/

section Region

open Idealize.ShloMosaic.ValueIdx

variable (V : (c : Dev nD) → (b : Ref sig .tc) → Buf (Elt Ideal) ((c : Thread nD τ).loc b))

/-- The matrix the region is entered with (100000 rows of 128), and the bias row. -/
abbrev aggIn (c : Dev nD) : Cert.Spec.Mat 100000 128 := V c (Pipeline.arrRef spec1 0)
abbrev biasIn (c : Dev nD) : Cert.Spec.Mat 1 128 := V c (Pipeline.arrRef spec1 1)

/-- The positive part of (matrix + bias row): what the third window's array ends holding. -/
abbrev hOut (c : Dev nD) : Cert.Spec.Mat 100000 128 := Cert.Spec.reluBias (n := 100000) (c := 128) (aggIn V c) (biasIn V c)

/-- The printed index maps over the 25 grid points: windows 0 and 2 take the point's own block of 4000 rows,
    the one-row windows always their only block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (r, q) of the first window's block at point t is entry (4000 t + r, q) of the matrix. -/
theorem iblk_agg_apply (c : Dev nD) (t : Fin cfg1.N) (r : Fin 4000) (q : Fin 128) (k : Fin 100000)
    (hk : k.val = t.val * 4000 + r.val) :
    (iblk1 V c 0 t : Vec Ideal S4000x128 .f32) (ix2 r q) = aggIn V c (ix2 k q) := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 4000 + 1 * r.val = k.val; rw [e0, hk]; omega
  | ⟨1, _⟩ => show win1_0.index t (1 : Fin 2) * 128 + 1 * q.val = q.val; rw [e1]; omega

/-- The second window's block is the bias row, at every point. -/
theorem iblk_bias_apply (c : Dev nD) (t : Fin cfg1.N) (q : Fin 128) :
    (iblk1 V c 1 t : Vec Ideal S1x128 .f32) (ix2 (0 : Fin 1) q) = biasIn V c (ix2 (0 : Fin 1) q) := by
  obtain ⟨-, -, e0, e1, -⟩ := idx_facts t
  unfold iblk1
  rw [View.read_apply]
  show V c main_v46 _ = V c main_v46 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The body's third output at point t, entry (r, q): the positive part of (matrix + bias) at row 4000 t + r. -/
theorem pay3_blk_apply (c : Dev nD) (t : Fin cfg1.N) (r : Fin 4000) (q : Fin 128) (k : Fin 100000)
    (hk : k.val = t.val * 4000 + r.val) :
    k1_pay3 (F := Ideal) (iblk1 V c 0 t) (iblk1 V c 1 t) (ix2 r q) = hOut V c (ix2 k q) :=
  (pay3_apply (iblk1 V c 0 t) (iblk1 V c 1 t) r q).trans (by
    rw [iblk_agg_apply V c t r q k hk, iblk_bias_apply V c t q]; rfl)

/-! ## The third window: the positive part of (matrix + bias) -/

/-- What the third window's buffer holds after the body at point t. -/
theorem after2_eq (c : Dev nD) (t : Fin cfg1.N) :
    (outsAt1 V c t.val t.isLt).1 = k1_pay3 (F := Ideal) (iblk1 V c 0 t) (iblk1 V c 1 t) := by
  by_cases h0 : t.val % 25 = 0
  · rw [outsAt1_A V c t h0]
    dsimp only
    exact outA2 (F := Ideal) c (grid1.coords t) (ms1_0 t) (hs1_0 t) (ms1_1 t) (hs1_1 t) (ms1_2 t) (hs1_2 t) (ms1_3 t) (hs1_3 t)
      (ms1_4 t) (hs1_4 t) ((hcond1_0 t).mpr h0) (iblk1 V c 0 t) (iblk1 V c 1 t)
  · rw [outsAt1_B V c t h0]
    dsimp only
    exact outB2 (F := Ideal) c (grid1.coords t) (ms1_0 t) (hs1_0 t) (ms1_1 t) (hs1_1 t) (ms1_2 t) (hs1_2 t) (ms1_3 t) (hs1_3 t)
      (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2

/-- What point t writes back through the third window is block t of the positive part of (matrix + bias). -/
theorem flushed2_eq (c : Dev nD) (t : Fin cfg1.N) :
    (dat1 V c).flushed 2 t = ((cfg1.win 2).blk t).view.read (Elt Ideal) (hOut V c) := by
  show (cfg1.win 2).cut (grid1.coords t) ((dat1 V c).after 2 t) = _
  rw [after1_2, after2_eq]
  obtain ⟨-, -, -, -, e0, e1, -⟩ := idx_facts t
  have hN : t.val < 25 := lt_of_lt_of_eq t.isLt (show cfg1.N = 25 from N_1)
  funext j
  obtain ⟨r, q, rfl⟩ : ∃ (r : Fin 4000) (q : Fin 128), j = ix2 r q := ⟨j 0, j 1, eq_ix2 j⟩
  rw [View.read_apply]
  refine (pay3_blk_apply V c t r q ⟨t.val * 4000 + r.val, by have := r.isLt; omega⟩ rfl).trans ?_
  show hOut V c _ = hOut V c _
  congr 1
  funext a
  apply Fin.ext
  match a with
  | ⟨0, _⟩ => show t.val * 4000 + r.val = win1_2.index t (0 : Fin 2) * 4000 + 1 * r.val; rw [e0]; omega
  | ⟨1, _⟩ => show q.val = win1_2.index t (1 : Fin 2) * 128 + 1 * q.val; rw [e1]; omega

/-- An entry of the array is in point t's block of the third window iff each coordinate is in the block's range. -/
theorem mem_blk2 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v47_0).slice (win1_2.rect t)).set ↔ _
  rw [View.set_slice_whole, Rect.mem_set_unit]
  exact Iff.rfl

/-- THE THIRD WINDOW'S ARRAY after the region: the positive part of (matrix + bias row). -/
theorem arr2_eq (c : Dev nD) : (dat1 V c).arrAt 2 cfg1.N = hOut V c :=
  (dat1 V c).arrAt_eq_of_cover 2 (hOut V c) (fun t _ => flushed2_eq V c t) fun i => by
    have hi0 : (i 0).val < 100000 := (i 0).isLt
    have hi1 : (i 1).val < 128 := (i 1).isLt
    refine ⟨⟨(i 0).val / 4000, by rw [show cfg1.N = 25 from N_1]; omega⟩, flush1_2 _, ?_⟩
    rw [mem_blk2]
    obtain ⟨-, -, -, -, e0, e1, -⟩ := idx_facts ⟨(i 0).val / 4000, by rw [show cfg1.N = 25 from N_1]; omega⟩
    intro a
    match a with
    | ⟨0, _⟩ =>
      show win1_2.index _ (0 : Fin 2) * 4000 ≤ (i 0).val ∧ (i 0).val < win1_2.index _ (0 : Fin 2) * 4000 + 4000
      rw [e0]; dsimp only; omega
    | ⟨1, _⟩ =>
      show win1_2.index _ (1 : Fin 2) * 128 ≤ (i 1).val ∧ (i 1).val < win1_2.index _ (1 : Fin 2) * 128 + 128
      rw [e1]; omega

end Region

/-! ## The two accumulators: column sums and column sums of squares

After point n an accumulator holds zero plus the sum, over the points 0 … n, of that point's block sum; after the last
point that is the sum over all 100000 rows. -/

section Totals

/-- The sum of f over the 4000 indices of block j (zero past the last of the 25 blocks). -/
def blkSum (f : Fin 100000 → EReal) (j : ℕ) : EReal :=
  if h : j < 25 then ∑ r : Fin 4000, f ⟨j * 4000 + r.val, Cert.Spec.block_lt (b := 25) (n := 4000) ⟨j, h⟩ r⟩ else 0

/-- The running total after the last block is the sum over all 100000 indices. -/
theorem total_eq (f : Fin 100000 → EReal) : Cert.Spec.foldAcc 0 (blkSum f) 24 = ∑ i, f i := by
  rw [Cert.Spec.foldAcc_eq, zero_add]
  show ∑ j ∈ Finset.range 25, blkSum f j = _
  rw [Cert.Spec.sum_range_eq_sum_fin 25]
  refine Eq.trans ?_ (Cert.Spec.sum_blocks 25 4000 f).symm
  refine Finset.sum_congr rfl fun k _ => ?_
  unfold blkSum
  rw [dif_pos k.isLt]

end Totals

section Accumulators

open Idealize.ShloMosaic.ValueIdx

variable (V : (c : Dev nD) → (b : Ref sig .tc) → Buf (Elt Ideal) ((c : Thread nD τ).loc b))

/-- What the accumulator of column sums holds after the body at the first point … -/
theorem after3_A (c : Dev nD) (t : Fin cfg1.N) (h0 : t.val % 25 = 0) :
    (outsAt1 V c t.val t.isLt).2.1 = k1_pay4 (F := Ideal) (iblk1 V c 0 t) (iblk1 V c 1 t) (k1_pay1 (F := Ideal)) := by
  rw [outsAt1_A V c t h0]
  dsimp only
  exact outA3 (F := Ideal) c (grid1.coords t) (ms1_0 t) (hs1_0 t) (ms1_1 t) (hs1_1 t) (ms1_2 t) (hs1_2 t) (ms1_3 t) (hs1_3 t)
    (ms1_4 t) (hs1_4 t) ((hcond1_0 t).mpr h0) (iblk1 V c 0 t) (iblk1 V c 1 t)

/-- … and at a later point, over what the point before left. -/
theorem after3_B (c : Dev nD) (t : Fin cfg1.N) (h0 : ¬t.val % 25 = 0) :
    (outsAt1 V c t.val t.isLt).2.1 = k1_pay4 (F := Ideal) (iblk1 V c 0 t) (iblk1 V c 1 t)
      (outsAt1 V c (t.val - 1) (Nat.lt_of_le_of_lt (Nat.sub_le _ _) t.isLt)).2.1 := by
  rw [outsAt1_B V c t h0]
  dsimp only
  exact outB3 (F := Ideal) c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (iblk1 V c 0 t) (iblk1 V c 1 t)
    (outsAt1 V c (t.val - 1) (Nat.lt_of_le_of_lt (Nat.sub_le _ _) t.isLt)).2.1
    (outsAt1 V c (t.val - 1) (Nat.lt_of_le_of_lt (Nat.sub_le _ _) t.isLt)).2.2

/-- The same for the accumulator of column sums of squares. -/
theorem after4_A (c : Dev nD) (t : Fin cfg1.N) (h0 : t.val % 25 = 0) :
    (outsAt1 V c t.val t.isLt).2.2 = k1_pay5 (F := Ideal) (iblk1 V c 0 t) (iblk1 V c 1 t) (k1_pay2 (F := Ideal)) := by
  rw [outsAt1_A V c t h0]
  dsimp only
  exact outA4 (F := Ideal) c (grid1.coords t) (ms1_0 t) (hs1_0 t) (ms1_1 t) (hs1_1 t) (ms1_2 t) (hs1_2 t) (ms1_3 t) (hs1_3 t)
    (ms1_4 t) (hs1_4 t) ((hcond1_0 t).mpr h0) (iblk1 V c 0 t) (iblk1 V c 1 t)

theorem after4_B (c : Dev nD) (t : Fin cfg1.N) (h0 : ¬t.val % 25 = 0) :
    (outsAt1 V c t.val t.isLt).2.2 = k1_pay5 (F := Ideal) (iblk1 V c 0 t) (iblk1 V c 1 t)
      (outsAt1 V c (t.val - 1) (Nat.lt_of_le_of_lt (Nat.sub_le _ _) t.isLt)).2.2 := by
  rw [outsAt1_B V c t h0]
  dsimp only
  exact outB4 (F := Ideal) c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (iblk1 V c 0 t) (iblk1 V c 1 t)
    (outsAt1 V c (t.val - 1) (Nat.lt_of_le_of_lt (Nat.sub_le _ _) t.isLt)).2.1
    (outsAt1 V c (t.val - 1) (Nat.lt_of_le_of_lt (Nat.sub_le _ _) t.isLt)).2.2

/-- The column sum of the body's third output at point t is the sum of column q over block t's rows. -/
theorem blk_colsum (c : Dev nD) (t : Fin cfg1.N) (q : Fin 128) :
    ∑ r : Fin 4000, k1_pay3 (F := Ideal) (iblk1 V c 0 t) (iblk1 V c 1 t) (ix2 r q)
      = blkSum (fun i => hOut V c (ix2 i q)) t.val := by
  have hN : t.val < 25 := lt_of_lt_of_eq t.isLt (show cfg1.N = 25 from N_1)
  unfold blkSum
  rw [dif_pos hN]
  exact Finset.sum_congr rfl fun r _ =>
    pay3_blk_apply V c t r q ⟨t.val * 4000 + r.val, Cert.Spec.block_lt (b := 25) (n := 4000) ⟨t.val, hN⟩ r⟩ rfl

/-- and the same for the squares. -/
theorem blk_colsumsq (c : Dev nD) (t : Fin cfg1.N) (q : Fin 128) :
    ∑ r : Fin 4000, k1_pay3 (F := Ideal) (iblk1 V c 0 t) (iblk1 V c 1 t) (ix2 r q)
        * k1_pay3 (F := Ideal) (iblk1 V c 0 t) (iblk1 V c 1 t) (ix2 r q)
      = blkSum (fun i => hOut V c (ix2 i q) * hOut V c (ix2 i q)) t.val := by
  have hN : t.val < 25 := lt_of_lt_of_eq t.isLt (show cfg1.N = 25 from N_1)
  unfold blkSum
  rw [dif_pos hN]
  exact Finset.sum_congr rfl fun r _ => by
    rw [pay3_blk_apply V c t r q ⟨t.val * 4000 + r.val, Cert.Spec.block_lt (b := 25) (n := 4000) ⟨t.val, hN⟩ r⟩ rfl]

/-- THE RUNNING COLUMN SUM: after point n the accumulator holds, at column q, zero plus the block sums of the points 0 … n. -/
theorem acc3_eq (c : Dev nD) (q : Fin 128) : ∀ (n : ℕ) (hn : n < cfg1.N),
    (outsAt1 V c n hn).2.1 (ix2 (0 : Fin 1) q) = Cert.Spec.foldAcc 0 (blkSum fun i => hOut V c (ix2 i q)) n
  | 0, hn =>
    (congrFun (after3_A V c ⟨0, hn⟩ rfl) (ix2 (0 : Fin 1) q)).trans
      ((pay4_apply _ _ _ q).trans (by rw [pay1_apply, blk_colsum V c ⟨0, hn⟩ q]; rfl))
  | n + 1, hn => by
    have hN : cfg1.N = 25 := N_1
    have hB : ¬(⟨n + 1, hn⟩ : Fin cfg1.N).val % 25 = 0 := by dsimp only; omega
    refine (congrFun (after3_B V c ⟨n + 1, hn⟩ hB) (ix2 (0 : Fin 1) q)).trans ((pay4_apply _ _ _ q).trans ?_)
    rw [blk_colsum V c ⟨n + 1, hn⟩ q, Cert.Spec.foldAcc_succ]
    show (outsAt1 V c n _).2.1 (ix2 (0 : Fin 1) q) + _ = _
    rw [acc3_eq c q n]

/-- THE RUNNING COLUMN SUM OF SQUARES, likewise. -/
theorem acc4_eq (c : Dev nD) (q : Fin 128) : ∀ (n : ℕ) (hn : n < cfg1.N),
    (outsAt1 V c n hn).2.2 (ix2 (0 : Fin 1) q)
      = Cert.Spec.foldAcc 0 (blkSum fun i => hOut V c (ix2 i q) * hOut V c (ix2 i q)) n
  | 0, hn =>
    (congrFun (after4_A V c ⟨0, hn⟩ rfl) (ix2 (0 : Fin 1) q)).trans
      ((pay5_apply _ _ _ q).trans (by rw [pay2_apply, blk_colsumsq V c ⟨0, hn⟩ q]; rfl))
  | n + 1, hn => by
    have hN : cfg1.N = 25 := N_1
    have hB : ¬(⟨n + 1, hn⟩ : Fin cfg1.N).val % 25 = 0 := by dsimp only; omega
    refine (congrFun (after4_B V c ⟨n + 1, hn⟩ hB) (ix2 (0 : Fin 1) q)).trans ((pay5_apply _ _ _ q).trans ?_)
    rw [blk_colsumsq V c ⟨n + 1, hn⟩ q, Cert.Spec.foldAcc_succ]
    show (outsAt1 V c n _).2.2 (ix2 (0 : Fin 1) q) + _ = _
    rw [acc4_eq c q n]

/-- The one block of a one-row window is the whole row: its entry (0, q) sits at column q of the array. -/
theorem emb3_col (t : Fin cfg1.N) (q : Fin 128) :
    (((cfg1.win 3).blk t).view.emb (ix2 (0 : Fin 1) q)) 1 = q := by
  obtain ⟨-, -, -, -, -, -, -, e1, -⟩ := idx_facts t
  apply Fin.ext
  show win1_3.index t (1 : Fin 2) * 128 + 1 * q.val = q.val
  rw [e1]; omega

theorem emb4_col (t : Fin cfg1.N) (q : Fin 128) :
    (((cfg1.win 4).blk t).view.emb (ix2 (0 : Fin 1) q)) 1 = q := by
  obtain ⟨-, -, -, -, -, -, -, -, -, e1⟩ := idx_facts t
  apply Fin.ext
  show win1_4.index t (1 : Fin 2) * 128 + 1 * q.val = q.val
  rw [e1]; omega

/-- The one write-back of the fourth window, after the last point, writes the column sums. -/
theorem flushed3_eq (c : Dev nD) (t : Fin cfg1.N) (hf : (cfg1.win 3).flush t = true) :
    (dat1 V c).flushed 3 t = ((cfg1.win 3).blk t).view.read (Elt Ideal) (Cert.Spec.colSum (hOut V c)) := by
  have hN : cfg1.N = 25 := N_1
  have ht : t.val = 24 := by have := (flush1_3 t).mp hf; have := t.isLt; omega
  show (cfg1.win 3).cut (grid1.coords t) ((dat1 V c).after 3 t) = _
  rw [after1_3]
  funext j
  obtain ⟨u, q, rfl⟩ : ∃ (u : Fin 1) (q : Fin 128), j = ix2 u q := ⟨j 0, j 1, eq_ix2 j⟩
  obtain rfl : u = 0 := Subsingleton.elim _ _
  rw [View.read_apply]
  refine (acc3_eq V c q t.val t.isLt).trans ?_
  have hcol : Cert.Spec.colSum (hOut V c) (((cfg1.win 3).blk t).view.emb (ix2 (0 : Fin 1) q))
      = ∑ r : Fin 100000, hOut V c (ix2 r q) := by
    unfold Cert.Spec.colSum
    rw [emb3_col]
  rw [ht, total_eq, hcol]
  exact (cast_eq _ _).symm

/-- The one write-back of the fifth window, after the last point, writes the column sums of squares. -/
theorem flushed4_eq (c : Dev nD) (t : Fin cfg1.N) (hf : (cfg1.win 4).flush t = true) :
    (dat1 V c).flushed 4 t = ((cfg1.win 4).blk t).view.read (Elt Ideal) (Cert.Spec.colSumSq (hOut V c)) := by
  have hN : cfg1.N = 25 := N_1
  have ht : t.val = 24 := by have := (flush1_4 t).mp hf; have := t.isLt; omega
  show (cfg1.win 4).cut (grid1.coords t) ((dat1 V c).after 4 t) = _
  rw [after1_4]
  funext j
  obtain ⟨u, q, rfl⟩ : ∃ (u : Fin 1) (q : Fin 128), j = ix2 u q := ⟨j 0, j 1, eq_ix2 j⟩
  obtain rfl : u = 0 := Subsingleton.elim _ _
  rw [View.read_apply]
  refine (acc4_eq V c q t.val t.isLt).trans ?_
  have hcol : Cert.Spec.colSumSq (hOut V c) (((cfg1.win 4).blk t).view.emb (ix2 (0 : Fin 1) q))
      = ∑ r : Fin 100000, hOut V c (ix2 r q) * hOut V c (ix2 r q) := by
    unfold Cert.Spec.colSumSq
    rw [emb4_col]
  rw [ht, total_eq, hcol]
  exact (cast_eq _ _).symm

/-- The last point. -/
abbrev tLast : Fin cfg1.N := ⟨24, by rw [show cfg1.N = 25 from N_1]; decide⟩

/-- Every entry of a one-row array is in the last point's block of its window. -/
theorem cover3 (i : S1x128.Idx) : i ∈ ((cfg1.win 3).blk tLast).view.set := by
  show i ∈ ((View.whole main_v47_1).slice (win1_3.rect tLast)).set
  rw [View.set_slice_whole, Rect.mem_set_unit]
  obtain ⟨-, -, -, -, -, -, e0, e1, -⟩ := idx_facts tLast
  have hi0 : (i 0).val < 1 := (i 0).isLt
  have hi1 : (i 1).val < 128 := (i 1).isLt
  intro a
  match a with
  | ⟨0, _⟩ =>
    show win1_3.index tLast (0 : Fin 2) * 1 ≤ (i 0).val ∧ (i 0).val < win1_3.index tLast (0 : Fin 2) * 1 + 1
    rw [e0]; omega
  | ⟨1, _⟩ =>
    show win1_3.index tLast (1 : Fin 2) * 128 ≤ (i 1).val ∧ (i 1).val < win1_3.index tLast (1 : Fin 2) * 128 + 128
    rw [e1]; omega

theorem cover4 (i : S1x128.Idx) : i ∈ ((cfg1.win 4).blk tLast).view.set := by
  show i ∈ ((View.whole main_v47_2).slice (win1_4.rect tLast)).set
  rw [View.set_slice_whole, Rect.mem_set_unit]
  obtain ⟨-, -, -, -, -, -, -, -, e0, e1⟩ := idx_facts tLast
  have hi0 : (i 0).val < 1 := (i 0).isLt
  have hi1 : (i 1).val < 128 := (i 1).isLt
  intro a
  match a with
  | ⟨0, _⟩ =>
    show win1_4.index tLast (0 : Fin 2) * 1 ≤ (i 0).val ∧ (i 0).val < win1_4.index tLast (0 : Fin 2) * 1 + 1
    rw [e0]; omega
  | ⟨1, _⟩ =>
    show win1_4.index tLast (1 : Fin 2) * 128 ≤ (i 1).val ∧ (i 1).val < win1_4.index tLast (1 : Fin 2) * 128 + 128
    rw [e1]; omega

/-- THE FOURTH WINDOW'S ARRAY after the region: the column sums of the positive part of (matrix + bias row). -/
theorem arr3_eq (c : Dev nD) : (dat1 V c).arrAt 3 cfg1.N = Cert.Spec.colSum (hOut V c) :=
  (dat1 V c).arrAt_eq_of_cover 3 (Cert.Spec.colSum (hOut V c)) (flushed3_eq V c) fun i =>
    ⟨tLast, (flush1_3 tLast).mpr rfl, cover3 i⟩

/-- THE FIFTH WINDOW'S ARRAY after the region: the column sums of its squares. -/
theorem arr4_eq (c : Dev nD) : (dat1 V c).arrAt 4 cfg1.N = Cert.Spec.colSumSq (hOut V c) :=
  (dat1 V c).arrAt_eq_of_cover 4 (Cert.Spec.colSumSq (hOut V c)) (flushed4_eq V c) fun i =>
    ⟨tLast, (flush1_4 tLast).mpr rfl, cover4 i⟩

end Accumulators

/-! ## The arrays after the region, stated over the arrays the region is entered with -/

section Stated

variable (V : (c : Dev nD) → (b : Ref sig .tc) → Buf (Elt Ideal) ((c : Thread nD τ).loc b))

/-- The third window's array ends holding the positive part of (matrix + bias row). -/
theorem final1_2 (c : Dev nD) : (Gen.dat1 (F := Ideal) V c).arrAt 2 cfg1.N
    = Cert.Spec.reluBias (n := 100000) (c := 128) (V c (Pipeline.arrRef spec1 0)) (V c (Pipeline.arrRef spec1 1)) :=
  arr2_eq V c

/-- The fourth window's array ends holding its column sums. -/
theorem final1_3 (c : Dev nD) : (Gen.dat1 (F := Ideal) V c).arrAt 3 cfg1.N
    = Cert.Spec.colSum (Cert.Spec.reluBias (n := 100000) (c := 128) (V c (Pipeline.arrRef spec1 0)) (V c (Pipeline.arrRef spec1 1))) :=
  arr3_eq V c

/-- The fifth window's array ends holding the column sums of its squares. -/
theorem final1_4 (c : Dev nD) : (Gen.dat1 (F := Ideal) V c).arrAt 4 cfg1.N
    = Cert.Spec.colSumSq (Cert.Spec.reluBias (n := 100000) (c := 128) (V c (Pipeline.arrRef spec1 0)) (V c (Pipeline.arrRef spec1 1))) :=
  arr4_eq V c

end Stated

end Cert.KernelIdeal.KStats

/-! ## The reference's bias and positive part -/

namespace Cert.ReferenceIdeal.StatsRead

open Idealize.ShloMosaic Idealize.ShloMosaic.ValueIdx Cert.ReferenceIdeal Cert.ReferenceIdeal.Facts₀

/-- A 128-vector repeated along 100000 rows reads, at (r, q), the vector at q. -/
theorem rows128_apply (v : FVec Ideal Cert.ReferenceIdeal.S128 .f32) (r : Fin 100000) (q : Fin 128) :
    Cert.ReferenceIdeal.Stages.rows128 v (ix2 r q) = v (ix1 q) := by
  unfold Cert.ReferenceIdeal.Stages.rows128
  refine (broadcastInDim_apply _ bcast_S1x128_S100000x128_0_1 _ (ix2 r q) (ix2 (0 : Fin 1) q) fun a => ?_).trans
    (Cert.LibLayout.broadcastInDim_row_apply v bcast_S128_S1x128_1 q)
  match a with
  | ⟨0, _⟩ => rfl
  | ⟨1, _⟩ => rfl

/-- The zero matrix reads 0 everywhere. -/
theorem zeros_apply (j : Cert.ReferenceIdeal.S100000x128.Idx) :
    broadcastInDim Cert.ReferenceIdeal.S100000x128 ![] bcast_S_S100000x128
      (constant (F := Ideal) Cert.ReferenceIdeal.S_ .f32 0x00000000#32) j = 0 :=
  (broadcastInDim_apply _ bcast_S_S100000x128 _ j ix0 fun a => a.elim0).trans Ideal.ofBits_zero_f32

/-- The reference's bias and positive part is the positive part of (matrix + bias row), the bias vector carried as a
    one-row matrix. -/
theorem ref_hrelu (A : FVec Ideal Cert.ReferenceIdeal.S100000x128 .f32) (b1 : FVec Ideal Cert.ReferenceIdeal.S128 .f32) :
    Cert.ReferenceIdeal.Stages.hrelu A b1 = Cert.Spec.reluBias A (Cert.Spec.row b1) := by
  funext i
  obtain ⟨r, q, rfl⟩ : ∃ (r : Fin 100000) (q : Fin 128), i = ix2 r q := ⟨i 0, i 1, eq_ix2 i⟩
  unfold Cert.ReferenceIdeal.Stages.hrelu
  show max (A (ix2 r q) + Cert.ReferenceIdeal.Stages.rows128 b1 (ix2 r q))
      (broadcastInDim Cert.ReferenceIdeal.S100000x128 ![] bcast_S_S100000x128
        (constant (F := Ideal) Cert.ReferenceIdeal.S_ .f32 0x00000000#32) (ix2 r q)) = _
  rw [rows128_apply, zeros_apply]
  rfl

end Cert.ReferenceIdeal.StatsRead

end
-- ==== Proof.KSoftmax.lean ====
/-
  The last kernel region: a bias added to every row of a [100000, 40] matrix and the row-wise log-softmax of the sum,
  computed on blocks of 4000 whole rows.

  Because the maximum and the sum run along a row, and a block holds whole rows, what a block computes is the
  log-softmax of the biased matrix restricted to the block's rows; the 25 blocks tile the rows, so the result array
  is the log-softmax of the whole biased matrix.
-/
import proofs.«130976_j31610959298975_1_alg».proof.Proof.Gen.KernelIdeal.Frame
import proofs.«130976_j31610959298975_1_alg».proof.Proof.Spec
import proofs.«130976_j31610959298975_1_alg».proof.Proof.LibKeepdims
import proofs.«130976_j31610959298975_1_alg».proof.Proof.LibLayout
import Idealize.ShloMosaic.Lib.ValueLayout
import Idealize.ShloMosaic.Lib.Pipeline.Value

open scoped BigOperators

noncomputable section

namespace Cert.KernelIdeal.KSoftmax

open Cert.KernelIdeal Cert.KernelIdeal.Gen
open Idealize.ShloMosaic Idealize.ShloMosaic.TcCoe Idealize.ShloMosaic.ValueIdx
open Idealize.ShloMosaic.Pipeline (Dat Cfg Window)

/-- The f32 word of minus infinity is the bottom element. -/
theorem ofBits_neg_inf : Ideal.ofBits .f32 0xFF800000#32 = (⊥ : EReal) := by
  simp [Ideal.ofBits, Ideal.ieee]

/-- The body's arithmetic on a block of 4000 rows, at row p and column q: the log-softmax of the biased block. -/
theorem pay_apply (x0 : FVec Ideal S4000x40 .f32) (x1 : FVec Ideal S1x40 .f32) (p : Fin 4000) (q : Fin 40) :
    k4_pay1 (F := Ideal) x0 x1 (ix2 p q)
      = Cert.Spec.logSoftmax (Cert.Spec.addBias (n := 4000) (c := 40) x0 x1) (ix2 p q) := by
  -- the biased block, entry by entry
  have hz : ∀ (p : Fin 4000) (q : Fin 40),
      addf (shapeCast S4000x40 x0 shapeCasts_S4000x40_S4000x40)
        (broadcastTo S4000x40 (shapeCast S1x40 x1 shapeCasts_S1x40_S1x40) broadcasts_S1x40_S4000x40) (ix2 p q)
        = Cert.Spec.addBias (n := 4000) (c := 40) x0 x1 (ix2 p q) := by
    intro p q
    rw [shapeCast_self, shapeCast_self]
    show x0 (ix2 p q) + broadcastTo S4000x40 x1 broadcasts_S1x40_S4000x40 (ix2 p q) = _
    rw [broadcastTo_1b_ab_apply]
    rfl
  unfold k4_pay1
  dsimp only
  generalize addf (shapeCast S4000x40 x0 shapeCasts_S4000x40_S4000x40)
    (broadcastTo S4000x40 (shapeCast S1x40 x1 shapeCasts_S1x40_S1x40) broadcasts_S1x40_S4000x40) = Z at hz ⊢
  -- the row maxima
  have hM : ∀ p : Fin 4000,
      multiReduction .maximumf [1] S4000 Z 0xFF800000#32 reduces_S4000x40_S4000 (.inl rfl) rfl (ix1 p)
        = Cert.Spec.rowMax (Cert.Spec.addBias (n := 4000) (c := 40) x0 x1) p := by
    intro p
    refine (Ideal.multiReduction_maximumf_single Z _ reduces_S4000x40_S4000 _ _ (ix1 p)).trans ?_
    unfold Cert.Spec.rowMax
    rw [show FloatOps.ofBits (F := Ideal) .f32 0xFF800000#32 = (⊥ : EReal) from ofBits_neg_inf]
    refine congrArg (fun f => (Finset.univ : Finset (Fin 40)).fold max ⊥ f) (funext fun k => ?_)
    show Z (reduces_S4000x40_S4000.lift (ix1 p) k) = _
    rw [← hz p k]
    refine congrArg Z (funext fun d => Fin.ext ?_)
    match d with
    | ⟨0, _⟩ => rfl
    | ⟨1, _⟩ => rfl
  have hB : ∀ (p : Fin 4000) (q : Fin 40),
      broadcastTo S4000x40 (shapeCast S4000x1
          (multiReduction .maximumf [1] S4000 Z 0xFF800000#32 reduces_S4000x40_S4000 (.inl rfl) rfl)
          shapeCasts_S4000_S4000x1) broadcasts_S4000x1_S4000x40 (ix2 p q)
        = Cert.Spec.rowMax (Cert.Spec.addBias (n := 4000) (c := 40) x0 x1) p := by
    intro p q
    refine (Cert.LibKeepdims.broadcastTo_col_apply _ _ p q).trans ?_
    exact (Cert.LibLayout.shapeCast_col_apply _ _ p).trans (hM p)
  generalize broadcastTo S4000x40 (shapeCast S4000x1
      (multiReduction .maximumf [1] S4000 Z 0xFF800000#32 reduces_S4000x40_S4000 (.inl rfl) rfl)
      shapeCasts_S4000_S4000x1) broadcasts_S4000x1_S4000x40 = B at hB ⊢
  -- the row sums of the exponentials
  have hS : ∀ p : Fin 4000,
      multiReduction .add [1] S4000 (exp (subf Z B)) 0x00000000#32 reduces_S4000x40_S4000 (.inl rfl) rfl (ix1 p)
        = ∑ q' : Fin 40, Ideal.exp (Cert.Spec.addBias (n := 4000) (c := 40) x0 x1 (ix2 p q')
            - Cert.Spec.rowMax (Cert.Spec.addBias (n := 4000) (c := 40) x0 x1) p) := by
    intro p
    refine (Cert.LibKeepdims.sum_lanes_apply (exp (subf Z B)) reduces_S4000x40_S4000 _ _ p).trans ?_
    refine Finset.sum_congr rfl fun q' _ => ?_
    show Ideal.exp (Z (ix2 p q') - B (ix2 p q')) = _
    rw [hz, hB]
  show (Z (ix2 p q) - B (ix2 p q)) - broadcastTo S4000x40 (log (shapeCast S4000x1
      (multiReduction .add [1] S4000 (exp (subf Z B)) 0x00000000#32 reduces_S4000x40_S4000 (.inl rfl) rfl)
      shapeCasts_S4000_S4000x1)) broadcasts_S4000x1_S4000x40 (ix2 p q) = _
  rw [hz, hB]
  refine congrArg (fun t : EReal => (Cert.Spec.addBias (n := 4000) (c := 40) x0 x1 (ix2 p q) - Cert.Spec.rowMax (Cert.Spec.addBias (n := 4000) (c := 40) x0 x1) p) - t) ?_
  refine (Cert.LibKeepdims.broadcastTo_col_apply _ _ p q).trans ?_
  exact congrArg Ideal.log ((Cert.LibLayout.shapeCast_col_apply _ _ p).trans (hS p))

/-- The log-softmax at a row depends on that row only. -/
theorem logSoftmax_row {n n' c : ℕ} (z : Cert.Spec.Mat n c) (z' : Cert.Spec.Mat n' c) (r : Fin n) (r' : Fin n')
    (h : ∀ q, z (ix2 r q) = z' (ix2 r' q)) (q : Fin c) :
    Cert.Spec.logSoftmax z (ix2 r q) = Cert.Spec.logSoftmax z' (ix2 r' q) := by
  have hm : Cert.Spec.rowMax z r = Cert.Spec.rowMax z' r' := by
    unfold Cert.Spec.rowMax
    exact congrArg (fun f => (Finset.univ : Finset (Fin c)).fold max ⊥ f) (funext h)
  show (z (ix2 r q) - Cert.Spec.rowMax z r) - Ideal.log (∑ q', Ideal.exp (z (ix2 r q') - Cert.Spec.rowMax z r))
    = (z' (ix2 r' q) - Cert.Spec.rowMax z' r') - Ideal.log (∑ q', Ideal.exp (z' (ix2 r' q') - Cert.Spec.rowMax z' r'))
  rw [hm, h q]
  exact congrArg (fun s => (z' (ix2 r' q) - Cert.Spec.rowMax z' r') - Ideal.log s)
    (Finset.sum_congr rfl fun q' _ => by rw [h q'])

/-- The result array: the log-softmax of the biased input array. -/
def G (A : S100000x40.Idx → EReal) (B : S1x40.Idx → EReal) : S100000x40.Idx → EReal :=
  Cert.Spec.logSoftmax (Cert.Spec.addBias (n := 100000) (c := 40) A B)

/-- A block whose row p is row r of the array computes row r of the result. -/
theorem block_eq (A : S100000x40.Idx → EReal) (B : S1x40.Idx → EReal) (x0 : FVec Ideal S4000x40 .f32)
    (x1 : FVec Ideal S1x40 .f32) (r : Fin 100000) (p : Fin 4000) (q : Fin 40)
    (h0 : ∀ q' : Fin 40, x0 (ix2 p q') = A (ix2 r q')) (h1 : ∀ q' : Fin 40, x1 (ix2 (0 : Fin 1) q') = B (ix2 (0 : Fin 1) q')) :
    k4_pay1 (F := Ideal) x0 x1 (ix2 p q) = G A B (ix2 r q) := by
  rw [pay_apply]
  unfold G
  refine logSoftmax_row _ _ p r (fun q' => ?_) q
  show x0 (ix2 p q') + x1 (ix2 (0 : Fin 1) q') = A (ix2 r q') + B (ix2 (0 : Fin 1) q')
  rw [h0, h1]

variable (V : (c : Dev nD) → (b : Ref sig .tc) → Buf (Elt Ideal) ((c : Thread nD τ).loc b))

theorem zeros2 : (![0, 0] : Fin 2 → Nat) = fun _ => 0 := funext fun a => by
  match a with
  | ⟨0, _⟩ => rfl
  | ⟨1, _⟩ => rfl

/-- The printed index maps over the grid: the row blocks follow the point, the bias block stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the result array. -/
theorem flushed_eq (c : Dev nD) (t : Fin cfg4.N) :
    (dat4 (F := Ideal) V c).flushed 2 t
      = ((cfg4.win 2).blk t).view.read (Elt Ideal) (G (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zeros2]
  simp only [View.ld_unit_zero (S := S4000x40) zeros2, View.ld_unit_zero (S := S1x40) zeros2]
  obtain ⟨e0, e1, e2, e3, e4, e5⟩ := idx_facts t
  have ht : t.val < 25 := by
    have h := t.isLt
    have hN : cfg4.N = 25 := N_4
    omega
  funext j
  obtain ⟨p, q, rfl⟩ : ∃ (p : Fin 4000) (q : Fin 40), j = ix2 p q := ⟨j 0, j 1, eq_ix2 j⟩
  have hemb : ((cfg4.win 2).blk t).view.emb (ix2 p q) = ix2 (⟨t.val * 4000 + p.val, by have := p.isLt; omega⟩ : Fin 100000) q := by
    funext a; apply Fin.ext
    match a with
    | ⟨0, _⟩ => show win4_2.index t (0 : Fin 2) * 4000 + 1 * p.val = t.val * 4000 + p.val; rw [e4]; omega
    | ⟨1, _⟩ => show win4_2.index t (1 : Fin 2) * 40 + 1 * q.val = q.val; rw [e5]; omega
  show k4_pay1 (F := Ideal) (iblk4 V c 0 t) (iblk4 V c 1 t) (ix2 p q)
    = G (V c (Pipeline.arrRef spec4 0)) (V c (Pipeline.arrRef spec4 1)) (((cfg4.win 2).blk t).view.emb (ix2 p q))
  rw [hemb]
  refine block_eq _ _ _ _ _ p q (fun q' => ?_) (fun q' => ?_)
  · show V c (Pipeline.arrRef spec4 0) (((cfg4.win 0).blk t).view.emb (ix2 p q')) = _
    refine congrArg _ (funext fun a => Fin.ext ?_)
    match a with
    | ⟨0, _⟩ => show win4_0.index t (0 : Fin 2) * 4000 + 1 * p.val = t.val * 4000 + p.val; rw [e0]; omega
    | ⟨1, _⟩ => show win4_0.index t (1 : Fin 2) * 40 + 1 * q'.val = q'.val; rw [e1]; omega
  · show V c (Pipeline.arrRef spec4 1) (((cfg4.win 1).blk t).view.emb (ix2 (0 : Fin 1) q')) = _
    refine congrArg _ (funext fun a => Fin.ext ?_)
    match a with
    | ⟨0, _⟩ => show win4_1.index t (0 : Fin 2) * 1 + 1 * 0 = 0; rw [e2]
    | ⟨1, _⟩ => show win4_1.index t (1 : Fin 2) * 40 + 1 * q'.val = q'.val; rw [e3]; omega

/-- An index of the result array is in point t's block iff each coordinate is in the block's range on its axis. -/
theorem mem_blk (t : Fin cfg4.N) (i : S100000x40.Idx) :
    i ∈ ((cfg4.win 2).blk t).view.set ↔ ∀ a : Fin 2, win4_2.index t a * S4000x40.size a ≤ (i a).val
      ∧ (i a).val < win4_2.index t a * S4000x40.size a + S4000x40.size a := by
  show i ∈ ((View.whole main_v76).slice (win4_2.rect t)).set ↔ _
  rw [View.set_slice_whole, Rect.mem_set_unit]
  exact Iff.rfl

/-- Row r lies in the block of point r / 4000: the 25 blocks tile the rows. -/
theorem cover (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 25 := N_4
  let t : Fin cfg4.N := ⟨(i 0).val / 4000, by omega⟩
  have htv : t.val = (i 0).val / 4000 := rfl
  obtain ⟨e0, e1, e2, e3, e4, e5⟩ := idx_facts t
  refine ⟨t, flush4_2 t, ?_⟩
  rw [mem_blk]
  intro a
  match a with
  | ⟨0, _⟩ =>
    show win4_2.index t (0 : Fin 2) * 4000 ≤ (i 0).val ∧ (i 0).val < win4_2.index t (0 : Fin 2) * 4000 + 4000
    rw [e4, htv]; omega
  | ⟨1, _⟩ =>
    show win4_2.index t (1 : Fin 2) * 40 ≤ (i 1).val ∧ (i 1).val < win4_2.index t (1 : Fin 2) * 40 + 40
    rw [e5]; omega

/-- THE RESULT ARRAY after the last region: the row-wise log-softmax of the biased input array. -/
theorem final4 (c : Dev nD) :
    (dat4 (F := Ideal) V c).arrAt 2 cfg4.N = G (V c (Pipeline.arrRef spec4 0)) (V c (Pipeline.arrRef spec4 1)) :=
  (dat4 (F := Ideal) V c).arrAt_eq_of_cover 2 _ (fun t _ => flushed_eq V c t) cover

end Cert.KernelIdeal.KSoftmax

end
-- ==== Proof.KValue.lean ====
/-
  The idealized kernel program's result as one function of its arguments.

  The program alternates host stretches with five kernel regions. Reading each boundary's buffers back to the launch:
  the first region multiplies the node features by the first weights; the host aggregates the product over the edges;
  the second region adds the bias, takes the positive part and sums each column and its squares; the host divides the
  sums by the number of nodes into the mean and the variance; the third region normalises; the fourth multiplies by the
  second weights; the host aggregates again; and the fifth adds the last bias and takes the row-wise log-softmax.
-/
import proofs.«130976_j31610959298975_1_alg».proof.Proof.Gen.KernelIdeal.Frame
import proofs.«130976_j31610959298975_1_alg».proof.Proof.KHost
import proofs.«130976_j31610959298975_1_alg».proof.Proof.KBridge
import proofs.«130976_j31610959298975_1_alg».proof.Proof.KDense0
import proofs.«130976_j31610959298975_1_alg».proof.Proof.KDense2
import proofs.«130976_j31610959298975_1_alg».proof.Proof.KDense3
import proofs.«130976_j31610959298975_1_alg».proof.Proof.KStats
import proofs.«130976_j31610959298975_1_alg».proof.Proof.KSoftmax

set_option maxRecDepth 16384

noncomputable section

namespace Cert.KernelIdeal.KValue

open Cert.KernelIdeal Cert.KernelIdeal.Gen
open Idealize.ShloMosaic Idealize.ShloMosaic.TcCoe Idealize.ShloMosaic.StableHlo
open Cert.ReferenceIdeal (Stages.agg128 Stages.agg40)

variable (m : (ℓ : Loc nD τ sig) → Buf (Elt Ideal) ℓ) (ρ : Dev nD → PrngReg) (c : Dev nD)

/-! ## The arguments, wherever a region or a stretch reads them -/

theorem rd_arg0 : W3 m ρ c (Proc.devRef .tc main_arg0) = m ((c : Thread nD τ).loc main_arg0) := ((KHost.pass_hostOps0_2_main_arg0 (W2 m ρ c)).trans ((KHost.pass_hostOps0_1_main_arg0 (W1 m ρ c)).trans (KHost.pass_hostOps0_main_arg0 (W0 m ρ c))))
theorem rd_arg2 : W3 m ρ c (Proc.devRef .tc main_arg2) = m ((c : Thread nD τ).loc main_arg2) := ((KHost.pass_hostOps0_2_main_arg2 (W2 m ρ c)).trans ((KHost.pass_hostOps0_1_main_arg2 (W1 m ρ c)).trans (KHost.pass_hostOps0_main_arg2 (W0 m ρ c))))
theorem rd_arg3 : W4 m ρ c (Proc.devRef .tc main_arg3) = m ((c : Thread nD τ).loc main_arg3) := ((W4_of_ne m ρ c main_arg3 (by decide)).trans ((KHost.pass_hostOps0_2_main_arg3 (W2 m ρ c)).trans ((KHost.pass_hostOps0_1_main_arg3 (W1 m ρ c)).trans (KHost.pass_hostOps0_main_arg3 (W0 m ρ c)))))
theorem rd_arg4 : W6 m ρ c (Proc.devRef .tc main_arg4) = m ((c : Thread nD τ).loc main_arg4) := ((W6_of_ne m ρ c main_arg4 (by decide)).trans ((KHost.pass_hostOps1_main_arg4 (W4 m ρ c)).trans ((W4_of_ne m ρ c main_arg4 (by decide)).trans ((KHost.pass_hostOps0_2_main_arg4 (W2 m ρ c)).trans ((KHost.pass_hostOps0_1_main_arg4 (W1 m ρ c)).trans (KHost.pass_hostOps0_main_arg4 (W0 m ρ c)))))))
theorem rd_arg5 : W6 m ρ c (Proc.devRef .tc main_arg5) = m ((c : Thread nD τ).loc main_arg5) := ((W6_of_ne m ρ c main_arg5 (by decide)).trans ((KHost.pass_hostOps1_main_arg5 (W4 m ρ c)).trans ((W4_of_ne m ρ c main_arg5 (by decide)).trans ((KHost.pass_hostOps0_2_main_arg5 (W2 m ρ c)).trans ((KHost.pass_hostOps0_1_main_arg5 (W1 m ρ c)).trans (KHost.pass_hostOps0_main_arg5 (W0 m ρ c)))))))
theorem rd_arg6 : W8 m ρ c (Proc.devRef .tc main_arg6) = m ((c : Thread nD τ).loc main_arg6) := ((W8_of_ne m ρ c main_arg6 (by decide)).trans ((KHost.pass_hostOps2_main_arg6 (W6 m ρ c)).trans ((W6_of_ne m ρ c main_arg6 (by decide)).trans ((KHost.pass_hostOps1_main_arg6 (W4 m ρ c)).trans ((W4_of_ne m ρ c main_arg6 (by decide)).trans ((KHost.pass_hostOps0_2_main_arg6 (W2 m ρ c)).trans ((KHost.pass_hostOps0_1_main_arg6 (W1 m ρ c)).trans (KHost.pass_hostOps0_main_arg6 (W0 m ρ c)))))))))
theorem rd_arg7 : W9 m ρ c (Proc.devRef .tc main_arg7) = m ((c : Thread nD τ).loc main_arg7) := ((W9_of_ne m ρ c main_arg7 (by decide)).trans ((W8_of_ne m ρ c main_arg7 (by decide)).trans ((KHost.pass_hostOps2_main_arg7 (W6 m ρ c)).trans ((W6_of_ne m ρ c main_arg7 (by decide)).trans ((KHost.pass_hostOps1_main_arg7 (W4 m ρ c)).trans ((W4_of_ne m ρ c main_arg7 (by decide)).trans ((KHost.pass_hostOps0_2_main_arg7 (W2 m ρ c)).trans ((KHost.pass_hostOps0_1_main_arg7 (W1 m ρ c)).trans (KHost.pass_hostOps0_main_arg7 (W0 m ρ c))))))))))

/-! ## The index vectors and the per-edge scale, computed before the first region -/

theorem rd3_v3 : W3 m ρ c (Proc.devRef .tc main_v3) = KStages.srcIdx (m ((c : Thread nD τ).loc main_arg1)) :=
  ((KHost.pass_hostOps0_2_main_v3 (W2 m ρ c)).trans (KHost.pass_hostOps0_1_main_v3 (W1 m ρ c))).trans (KHost.s0_v3 (W0 m ρ c))
theorem rd3_v6 : W3 m ρ c (Proc.devRef .tc main_v6) = KStages.dstIdx (m ((c : Thread nD τ).loc main_arg1)) :=
  ((KHost.pass_hostOps0_2_main_v6 (W2 m ρ c)).trans (KHost.pass_hostOps0_1_main_v6 (W1 m ρ c))).trans (KHost.s0_v6 (W0 m ρ c))
theorem rd3_v31 : W3 m ρ c (Proc.devRef .tc main_v31) = Cert.KBridge.normK (m ((c : Thread nD τ).loc main_arg1)) := by
  have h16 : W2 m ρ c (Proc.devRef .tc main_v16) = KStages.disOf (W1 m ρ c (Proc.devRef .tc main_v12))
      (W1 m ρ c (Proc.devRef .tc main_v15)) (W1 m ρ c (Proc.devRef .tc main_cst_3)) := KHost.s01_v16 (W1 m ρ c)
  have h12 : W1 m ρ c (Proc.devRef .tc main_v12) = KStages.posOf (KStages.dstIdx (m ((c : Thread nD τ).loc main_arg1))) :=
    KHost.s0_v12 (W0 m ρ c)
  have h15 : W1 m ρ c (Proc.devRef .tc main_v15) = KStages.rsOf (KStages.dstIdx (m ((c : Thread nD τ).loc main_arg1))) :=
    KHost.s0_v15 (W0 m ρ c)
  have hc3 : W1 m ρ c (Proc.devRef .tc main_cst_3) = constant (F := Ideal) S_ .f32 0x00000000#32 := KHost.s0_cst3 (W0 m ρ c)
  have h3 : W2 m ρ c (Proc.devRef .tc main_v3) = KStages.srcIdx (m ((c : Thread nD τ).loc main_arg1)) :=
    (KHost.pass_hostOps0_1_main_v3 (W1 m ρ c)).trans (KHost.s0_v3 (W0 m ρ c))
  have h6 : W2 m ρ c (Proc.devRef .tc main_v6) = KStages.dstIdx (m ((c : Thread nD τ).loc main_arg1)) :=
    (KHost.pass_hostOps0_1_main_v6 (W1 m ρ c)).trans (KHost.s0_v6 (W0 m ρ c))
  refine (KHost.s02_v31 (W2 m ρ c)).trans ?_
  rw [h16, h12, h15, hc3, h3, h6]
  rfl

/-! ## The stages' values as functions of the launch contents -/

/-- The edge list. -/
abbrev edges : IVec Cert.ReferenceIdeal.S2x1600000 32 := m ((c : Thread nD τ).loc main_arg1)
/-- The first product. -/
def H0 : Cert.Spec.Mat 100000 128 := Cert.Spec.mm (n := 100000) (k := 128) (c := 128) (m ((c : Thread nD τ).loc main_arg0)) (m ((c : Thread nD τ).loc main_arg2))
/-- The first layer's activations: aggregation, bias, positive part. -/
def H1 : Cert.Spec.Mat 100000 128 :=
  Cert.Spec.reluBias (n := 100000) (c := 128) (Cert.ReferenceIdeal.Stages.agg128 (edges m c) (H0 m c)) (Cert.Spec.row (c := 128) (m ((c : Thread nD τ).loc main_arg3)))
/-- The normalised activations. -/
def H2 : Cert.Spec.Mat 100000 128 :=
  Cert.Spec.bn (n := 100000) (c := 128) (H1 m c) (Cert.Spec.meanOf (Cert.Spec.colSum (H1 m c)))
    (Cert.Spec.varOfSums (Cert.Spec.colSum (H1 m c)) (Cert.Spec.colSumSq (H1 m c)))
    (Cert.Spec.row (c := 128) (m ((c : Thread nD τ).loc main_arg4))) (Cert.Spec.row (c := 128) (m ((c : Thread nD τ).loc main_arg5)))
/-- The second product. -/
def H3 : Cert.Spec.Mat 100000 40 := Cert.Spec.mm (n := 100000) (k := 128) (c := 40) (H2 m c) (m ((c : Thread nD τ).loc main_arg6))
/-- The program's result. -/
def out : Cert.Spec.Mat 100000 40 :=
  Cert.Spec.logSoftmax (Cert.Spec.addBias (n := 100000) (c := 40) (Cert.ReferenceIdeal.Stages.agg40 (edges m c) (H3 m c))
    (Cert.Spec.row (c := 40) (m ((c : Thread nD τ).loc main_arg7))))

theorem v32_eq : W4 m ρ c (Proc.devRef .tc main_v32) = H0 m c := by
  refine (W4_arr m ρ c 2).trans ?_
  refine (Cert.KernelIdeal.KDense.final0 (V3 m ρ) c).trans ?_
  show Cert.Spec.mm (n := 100000) (k := 128) (c := 128) (W3 m ρ c (Proc.devRef .tc main_arg0)) (W3 m ρ c (Proc.devRef .tc main_arg2)) = _
  rw [rd_arg0, rd_arg2]
  rfl

theorem v45_eq : W5 m ρ c (Proc.devRef .tc main_v45) = Cert.ReferenceIdeal.Stages.agg128 (edges m c) (H0 m c) := by
  refine (KHost.s1_v45 (W4 m ρ c)).trans ?_
  rw [(W4_of_ne m ρ c main_v3 (by decide)), rd3_v3, (W4_of_ne m ρ c main_v6 (by decide)), rd3_v6, (W4_of_ne m ρ c main_v31 (by decide)), rd3_v31, v32_eq]
  exact Cert.KBridge.agg128_eq _ _

theorem v46_eq : W5 m ρ c (Proc.devRef .tc main_v46) = Cert.Spec.row (c := 128) (m ((c : Thread nD τ).loc main_arg3)) := by
  refine (KHost.s1_v46 (W4 m ρ c)).trans ?_
  rw [rd_arg3]
  exact Cert.KBridge.row128_eq _

theorem v47_0_eq : W6 m ρ c (Proc.devRef .tc main_v47_0) = H1 m c := by
  refine (W6_arr m ρ c 2).trans ?_
  refine (Cert.KernelIdeal.KStats.final1_2 (V5 m ρ) c).trans ?_
  show Cert.Spec.reluBias (n := 100000) (c := 128) (W5 m ρ c (Proc.devRef .tc main_v45)) (W5 m ρ c (Proc.devRef .tc main_v46)) = _
  rw [v45_eq, v46_eq]
  rfl

theorem v47_1_eq : W6 m ρ c (Proc.devRef .tc main_v47_1) = Cert.Spec.colSum (H1 m c) := by
  refine (W6_arr m ρ c 3).trans ?_
  refine (Cert.KernelIdeal.KStats.final1_3 (V5 m ρ) c).trans ?_
  show Cert.Spec.colSum (Cert.Spec.reluBias (n := 100000) (c := 128) (W5 m ρ c (Proc.devRef .tc main_v45)) (W5 m ρ c (Proc.devRef .tc main_v46))) = _
  rw [v45_eq, v46_eq]
  rfl

theorem v47_2_eq : W6 m ρ c (Proc.devRef .tc main_v47_2) = Cert.Spec.colSumSq (H1 m c) := by
  refine (W6_arr m ρ c 4).trans ?_
  refine (Cert.KernelIdeal.KStats.final1_4 (V5 m ρ) c).trans ?_
  show Cert.Spec.colSumSq (Cert.Spec.reluBias (n := 100000) (c := 128) (W5 m ρ c (Proc.devRef .tc main_v45)) (W5 m ρ c (Proc.devRef .tc main_v46))) = _
  rw [v45_eq, v46_eq]
  rfl

theorem v56_eq : W7 m ρ c (Proc.devRef .tc main_v56) = Cert.Spec.meanOf (Cert.Spec.colSum (H1 m c)) := by
  refine (KHost.s2_v56 (W6 m ρ c)).trans ?_
  rw [v47_1_eq]
  exact Cert.KBridge.mean2d_eq _

theorem v57_eq : W7 m ρ c (Proc.devRef .tc main_v57) = Cert.Spec.varOfSums (Cert.Spec.colSum (H1 m c)) (Cert.Spec.colSumSq (H1 m c)) := by
  refine (KHost.s2_v57 (W6 m ρ c)).trans ?_
  rw [v47_1_eq, v47_2_eq]
  exact Cert.KBridge.var2d_eq _ _

theorem v58_eq : W7 m ρ c (Proc.devRef .tc main_v58) = Cert.Spec.row (c := 128) (m ((c : Thread nD τ).loc main_arg4)) := by
  refine (KHost.s2_v58 (W6 m ρ c)).trans ?_
  rw [rd_arg4]
  exact Cert.KBridge.row128_eq _

theorem v59_eq : W7 m ρ c (Proc.devRef .tc main_v59) = Cert.Spec.row (c := 128) (m ((c : Thread nD τ).loc main_arg5)) := by
  refine (KHost.s2_v59 (W6 m ρ c)).trans ?_
  rw [rd_arg5]
  exact Cert.KBridge.row128_eq _

theorem v47_0_at7 : W7 m ρ c (Proc.devRef .tc main_v47_0) = H1 m c :=
  (KHost.pass_hostOps2_main_v47_0 (W6 m ρ c)).trans (v47_0_eq m ρ c)

theorem v60_eq : W8 m ρ c (Proc.devRef .tc main_v60) = H2 m c := by
  refine (W8_arr m ρ c 5).trans ?_
  refine (Cert.KernelIdeal.KDense.final2 (V7 m ρ) c).trans ?_
  show Cert.Spec.bn (n := 100000) (c := 128) (W7 m ρ c (Proc.devRef .tc main_v47_0)) (W7 m ρ c (Proc.devRef .tc main_v56)) (W7 m ρ c (Proc.devRef .tc main_v57)) (W7 m ρ c (Proc.devRef .tc main_v58)) (W7 m ρ c (Proc.devRef .tc main_v59)) = _
  rw [v47_0_at7, v56_eq, v57_eq, v58_eq, v59_eq]
  rfl

theorem v61_eq : W9 m ρ c (Proc.devRef .tc main_v61) = H3 m c := by
  refine (W9_arr m ρ c 2).trans ?_
  refine (Cert.KernelIdeal.KDense.final3 (V8 m ρ) c).trans ?_
  show Cert.Spec.mm (n := 100000) (k := 128) (c := 40) (W8 m ρ c (Proc.devRef .tc main_v60)) (W8 m ρ c (Proc.devRef .tc main_arg6)) = _
  rw [v60_eq, rd_arg6]
  rfl

theorem v74_eq : W10 m ρ c (Proc.devRef .tc main_v74) = Cert.ReferenceIdeal.Stages.agg40 (edges m c) (H3 m c) := by
  refine (KHost.s4_v74 (W9 m ρ c)).trans ?_
  rw [((W9_of_ne m ρ c main_v3 (by decide)).trans ((W8_of_ne m ρ c main_v3 (by decide)).trans ((KHost.pass_hostOps2_main_v3 (W6 m ρ c)).trans ((W6_of_ne m ρ c main_v3 (by decide)).trans ((KHost.pass_hostOps1_main_v3 (W4 m ρ c)).trans (W4_of_ne m ρ c main_v3 (by decide))))))), rd3_v3, ((W9_of_ne m ρ c main_v6 (by decide)).trans ((W8_of_ne m ρ c main_v6 (by decide)).trans ((KHost.pass_hostOps2_main_v6 (W6 m ρ c)).trans ((W6_of_ne m ρ c main_v6 (by decide)).trans ((KHost.pass_hostOps1_main_v6 (W4 m ρ c)).trans (W4_of_ne m ρ c main_v6 (by decide))))))), rd3_v6, ((W9_of_ne m ρ c main_v31 (by decide)).trans ((W8_of_ne m ρ c main_v31 (by decide)).trans ((KHost.pass_hostOps2_main_v31 (W6 m ρ c)).trans ((W6_of_ne m ρ c main_v31 (by decide)).trans ((KHost.pass_hostOps1_main_v31 (W4 m ρ c)).trans (W4_of_ne m ρ c main_v31 (by decide))))))), rd3_v31, v61_eq]
  exact Cert.KBridge.agg40_eq _ _

theorem v75_eq : W10 m ρ c (Proc.devRef .tc main_v75) = Cert.Spec.row (c := 40) (m ((c : Thread nD τ).loc main_arg7)) := by
  refine (KHost.s4_v75 (W9 m ρ c)).trans ?_
  rw [rd_arg7]
  exact Cert.KBridge.row40_eq _

/-- THE RESULT ARRAY after the last region, as a function of the launch contents of the arguments. -/
theorem result_eq : W11 m ρ c (Proc.devRef .tc main_v76) = out m c := by
  refine (W11_arr m ρ c 2).trans ?_
  refine (Cert.KernelIdeal.KSoftmax.final4 (V10 m ρ) c).trans ?_
  show Cert.KernelIdeal.KSoftmax.G (W10 m ρ c (Proc.devRef .tc main_v74)) (W10 m ρ c (Proc.devRef .tc main_v75)) = _
  rw [v74_eq, v75_eq]
  rfl

end Cert.KernelIdeal.KValue

end
-- ==== Proof.RefRun.lean ====
/-
  The reference program's run, written by hand.

  The reference is a straight line of host operations, four of them calls of outlined functions (one of which
  calls another). Inlining each callee's operations at its call site, over the buffers that call names, gives one
  list of 145 operations; the program is that list run in order, so every weakly fair execution terminates with each
  buffer at the fold of the operations' results over the launch contents. Read back at the result buffer, the fold
  is the composition of the stages (edge scales, two aggregations, the dense layers, the batch normalisation and the
  final log-softmax); read back at an argument buffer, which no operation writes, it is the launch contents.
-/
import proofs.«130976_j31610959298975_1_alg».proof.Proof.RefStages
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Facts₀

variable {F : FTy → Type} [FloatOps F]
/-- The program's 145 operations in order, each callee's operations inline at its call site over the buffers that
    call names: the edge scale's guard (3), the positive part (3), the variance (19, and its own guard's 3), the
    log-softmax (15), around the program's own 102. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32 : (⟨S_, .f32⟩ : BufTy).Contents (Elt F)),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v48 main_call1_v0 main_v49 (maximumf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v49 main_cst_10 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.nullary main_call2_cst (constant S_ .f32 0x00000000#32 : (⟨S_, .f32⟩ : BufTy).Contents (Elt F)),
    StableHlo.binary main_v49 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47C35000#32 : (⟨S_, .f32⟩ : BufTy).Contents (Elt F)),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S100000x128 ![0, 1] bcast_S1x128_S100000x128_0_1 : (⟨S1x128, .f32⟩ : BufTy).Contents (Elt F) → (⟨S100000x128, .f32⟩ : BufTy).Contents (Elt F)),
    StableHlo.binary main_v49 main_call2_v4 main_call2_v5 (subf : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    StableHlo.unary main_c_12 main_call2_v7 (sitofp .f32 : (⟨S_, .i32⟩ : BufTy).Contents (Elt F) → (⟨S_, .f32⟩ : BufTy).Contents (Elt F)),
    StableHlo.nullary main_call2_cst_1 (constant S_ .f32 0x47C35000#32 : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32 : (⟨S_, .f32⟩ : BufTy).Contents (Elt F)),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32 : (⟨S_, .f32⟩ : BufTy).Contents (Elt F)),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32 : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v53 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v57 (broadcastInDim S128 ![] bcast_S_S128 : (⟨S_, .f32⟩ : BufTy).Contents (Elt F) → (⟨S128, .f32⟩ : BufTy).Contents (Elt F)),
    StableHlo.binary main_v53 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg4 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg5 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.binary main_v68 main_arg6 main_v69 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.nullary main_c_14 (constantI S_ 32 0#32),
    StableHlo.unary main_c_14 main_v70 (broadcastInDim S1700000 ![] bcast_S_S1700000 : (⟨S_, .i32⟩ : BufTy).Contents (Elt F) → (⟨S1700000, .i32⟩ : BufTy).Contents (Elt F)),
    StableHlo.binary main_v3 main_v70 main_v71 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v72 (broadcastInDim S1700000 ![] bcast_S_S1700000 : (⟨S_, .i32⟩ : BufTy).Contents (Elt F) → (⟨S1700000, .i32⟩ : BufTy).Contents (Elt F)),
    StableHlo.binary main_v3 main_v72 main_v73 (addi : (⟨S1700000, .i32⟩ : BufTy).Contents (Elt F) → (⟨S1700000, .i32⟩ : BufTy).Contents (Elt F) → (⟨S1700000, .i32⟩ : BufTy).Contents (Elt F)),
    StableHlo.ternary main_v71 main_v73 main_v3 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v74 main_v75 (broadcastInDim S1700000x1 ![0] bcast_S1700000_S1700000x1_0 : (⟨S1700000, .i32⟩ : BufTy).Contents (Elt F) → (⟨S1700000x1, .i32⟩ : BufTy).Contents (Elt F)),
    StableHlo.binary main_v69 main_v75 main_v76 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v31 main_v77 (broadcastInDim S1700000x1 ![0] bcast_S1700000_S1700000x1_0 : (⟨S1700000, .f32⟩ : BufTy).Contents (Elt F) → (⟨S1700000x1, .f32⟩ : BufTy).Contents (Elt F)),
    StableHlo.unary main_v77 main_v78 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v76 main_v78 main_v79 (mulf : (⟨S1700000x40, .f32⟩ : BufTy).Contents (Elt F) → (⟨S1700000x40, .f32⟩ : BufTy).Contents (Elt F) → (⟨S1700000x40, .f32⟩ : BufTy).Contents (Elt F)),
    StableHlo.nullary main_cst_16 (constant S_ .f32 0x00000000#32),
    StableHlo.unary main_cst_16 main_v80 (broadcastInDim S100000x40 ![] bcast_S_S100000x40 : (⟨S_, .f32⟩ : BufTy).Contents (Elt F) → (⟨S100000x40, .f32⟩ : BufTy).Contents (Elt F)),
    StableHlo.unary main_v6 main_v81 (broadcastInDim S1700000x1 ![0] bcast_S1700000_S1700000x1_0 : (⟨S1700000, .i32⟩ : BufTy).Contents (Elt F) → (⟨S1700000x1, .i32⟩ : BufTy).Contents (Elt F)),
    StableHlo.ternary main_v80 main_v81 main_v79 main_v82 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_arg7 main_v83 (broadcastInDim S1x40 ![1] bcast_S40_S1x40_1 : (⟨S40, .f32⟩ : BufTy).Contents (Elt F) → (⟨S1x40, .f32⟩ : BufTy).Contents (Elt F)),
    StableHlo.unary main_v83 main_v84 (broadcastInDim S100000x40 ![0, 1] bcast_S1x40_S100000x40_0_1 : (⟨S1x40, .f32⟩ : BufTy).Contents (Elt F) → (⟨S100000x40, .f32⟩ : BufTy).Contents (Elt F)),
    StableHlo.binary main_v82 main_v84 main_v85 (addf : (⟨S100000x40, .f32⟩ : BufTy).Contents (Elt F) → (⟨S100000x40, .f32⟩ : BufTy).Contents (Elt F) → (⟨S100000x40, .f32⟩ : BufTy).Contents (Elt F)),
    StableHlo.nullary main_call3_cst (constant S_ .f32 0xFF800000#32 : (⟨S_, .f32⟩ : BufTy).Contents (Elt F)),
    StableHlo.binary main_v85 main_call3_cst main_call3_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.nullary main_call3_cst_0 (constant S_ .f32 0xFF800000#32 : (⟨S_, .f32⟩ : BufTy).Contents (Elt F)),
    StableHlo.unary main_call3_cst_0 main_call3_v1 (broadcastInDim S100000 ![] bcast_S_S100000 : (⟨S_, .f32⟩ : BufTy).Contents (Elt F) → (⟨S100000, .f32⟩ : BufTy).Contents (Elt F)),
    StableHlo.binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    StableHlo.unary main_call3_v2 main_call3_v3 (broadcastInDim S100000x1 ![0] bcast_S100000_S100000x1_0 : (⟨S100000, .f32⟩ : BufTy).Contents (Elt F) → (⟨S100000x1, .f32⟩ : BufTy).Contents (Elt F)),
    StableHlo.unary main_call3_v3 main_call3_v4 (broadcastInDim S100000x40 ![0, 1] bcast_S100000x1_S100000x40_0_1 : (⟨S100000x1, .f32⟩ : BufTy).Contents (Elt F) → (⟨S100000x40, .f32⟩ : BufTy).Contents (Elt F)),
    StableHlo.binary main_v85 main_call3_v4 main_call3_v5 (subf : (⟨S100000x40, .f32⟩ : BufTy).Contents (Elt F) → (⟨S100000x40, .f32⟩ : BufTy).Contents (Elt F) → (⟨S100000x40, .f32⟩ : BufTy).Contents (Elt F)),
    StableHlo.unary main_call3_v5 main_call3_v6 (Host.exp : (⟨S100000x40, .f32⟩ : BufTy).Contents (Elt F) → (⟨S100000x40, .f32⟩ : BufTy).Contents (Elt F)),
    StableHlo.nullary main_call3_cst_1 (constant S_ .f32 0x00000000#32 : (⟨S_, .f32⟩ : BufTy).Contents (Elt F)),
    StableHlo.binary main_call3_v6 main_call3_cst_1 main_call3_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.unary main_call3_v7 main_call3_v8 (broadcastInDim S100000x1 ![0] bcast_S100000_S100000x1_0 : (⟨S100000, .f32⟩ : BufTy).Contents (Elt F) → (⟨S100000x1, .f32⟩ : BufTy).Contents (Elt F)),
    StableHlo.unary main_call3_v8 main_call3_v9 (Host.log : (⟨S100000x1, .f32⟩ : BufTy).Contents (Elt F) → (⟨S100000x1, .f32⟩ : BufTy).Contents (Elt F)),
    StableHlo.unary main_call3_v9 main_call3_v10 (broadcastInDim S100000x40 ![0, 1] bcast_S100000x1_S100000x40_0_1 : (⟨S100000x1, .f32⟩ : BufTy).Contents (Elt F) → (⟨S100000x40, .f32⟩ : BufTy).Contents (Elt F)),
    StableHlo.binary main_call3_v5 main_call3_v10 main_v86 (subf : (⟨S100000x40, .f32⟩ : BufTy).Contents (Elt F) → (⟨S100000x40, .f32⟩ : BufTy).Contents (Elt F) → (⟨S100000x40, .f32⟩ : BufTy).Contents (Elt F)) ]
/-- The same 145 operations as the program spells them: a callee's operation over the typed references of the call's
    record. -/
abbrev opsTyped : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (TRef.of main_cst_3 : TRef sig ⟨S_, .f32⟩) main_call0.v0 id,
    StableHlo.TRef.unary main_call0.v0 main_call0.v1 (broadcastInDim S100000 ![] bcast_S_S100000),
    StableHlo.TRef.ternary (TRef.of main_v12 : TRef sig ⟨S100000, .i1⟩) (TRef.of main_v15 : TRef sig ⟨S100000, .f32⟩) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (TRef.of main_v48 : TRef sig ⟨S100000x128, .f32⟩) main_call1.v0 main_call1.v1 maximumf,
    StableHlo.nullary main_cst_10 (constant S_ .f32 0x00000000#32),
    StableHlo.binary main_v49 main_cst_10 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (TRef.of main_v49 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v49 : TRef sig ⟨S100000x128, .f32⟩) main_call2.v4 main_call2.v5 subf,
    StableHlo.TRef.binary main_call2.v5 main_call2.v5 main_call2.v6 mulf,
    StableHlo.TRef.unary (TRef.of main_c_12 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v57 (broadcastInDim S128 ![] bcast_S_S128 : (⟨S_, .f32⟩ : BufTy).Contents (Elt F) → (⟨S128, .f32⟩ : BufTy).Contents (Elt F)),
    StableHlo.binary main_v53 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg4 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg5 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.binary main_v68 main_arg6 main_v69 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.nullary main_c_14 (constantI S_ 32 0#32),
    StableHlo.unary main_c_14 main_v70 (broadcastInDim S1700000 ![] bcast_S_S1700000 : (⟨S_, .i32⟩ : BufTy).Contents (Elt F) → (⟨S1700000, .i32⟩ : BufTy).Contents (Elt F)),
    StableHlo.binary main_v3 main_v70 main_v71 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v72 (broadcastInDim S1700000 ![] bcast_S_S1700000 : (⟨S_, .i32⟩ : BufTy).Contents (Elt F) → (⟨S1700000, .i32⟩ : BufTy).Contents (Elt F)),
    StableHlo.binary main_v3 main_v72 main_v73 (addi : (⟨S1700000, .i32⟩ : BufTy).Contents (Elt F) → (⟨S1700000, .i32⟩ : BufTy).Contents (Elt F) → (⟨S1700000, .i32⟩ : BufTy).Contents (Elt F)),
    StableHlo.ternary main_v71 main_v73 main_v3 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v74 main_v75 (broadcastInDim S1700000x1 ![0] bcast_S1700000_S1700000x1_0 : (⟨S1700000, .i32⟩ : BufTy).Contents (Elt F) → (⟨S1700000x1, .i32⟩ : BufTy).Contents (Elt F)),
    StableHlo.binary main_v69 main_v75 main_v76 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v31 main_v77 (broadcastInDim S1700000x1 ![0] bcast_S1700000_S1700000x1_0 : (⟨S1700000, .f32⟩ : BufTy).Contents (Elt F) → (⟨S1700000x1, .f32⟩ : BufTy).Contents (Elt F)),
    StableHlo.unary main_v77 main_v78 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v76 main_v78 main_v79 (mulf : (⟨S1700000x40, .f32⟩ : BufTy).Contents (Elt F) → (⟨S1700000x40, .f32⟩ : BufTy).Contents (Elt F) → (⟨S1700000x40, .f32⟩ : BufTy).Contents (Elt F)),
    StableHlo.nullary main_cst_16 (constant S_ .f32 0x00000000#32),
    StableHlo.unary main_cst_16 main_v80 (broadcastInDim S100000x40 ![] bcast_S_S100000x40 : (⟨S_, .f32⟩ : BufTy).Contents (Elt F) → (⟨S100000x40, .f32⟩ : BufTy).Contents (Elt F)),
    StableHlo.unary main_v6 main_v81 (broadcastInDim S1700000x1 ![0] bcast_S1700000_S1700000x1_0 : (⟨S1700000, .i32⟩ : BufTy).Contents (Elt F) → (⟨S1700000x1, .i32⟩ : BufTy).Contents (Elt F)),
    StableHlo.ternary main_v80 main_v81 main_v79 main_v82 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_arg7 main_v83 (broadcastInDim S1x40 ![1] bcast_S40_S1x40_1 : (⟨S40, .f32⟩ : BufTy).Contents (Elt F) → (⟨S1x40, .f32⟩ : BufTy).Contents (Elt F)),
    StableHlo.unary main_v83 main_v84 (broadcastInDim S100000x40 ![0, 1] bcast_S1x40_S100000x40_0_1 : (⟨S1x40, .f32⟩ : BufTy).Contents (Elt F) → (⟨S100000x40, .f32⟩ : BufTy).Contents (Elt F)),
    StableHlo.binary main_v82 main_v84 main_v85 (addf : (⟨S100000x40, .f32⟩ : BufTy).Contents (Elt F) → (⟨S100000x40, .f32⟩ : BufTy).Contents (Elt F) → (⟨S100000x40, .f32⟩ : BufTy).Contents (Elt F)),
    StableHlo.TRef.nullary main_call3.cst (constant S_ .f32 0xFF800000#32),
    StableHlo.TRef.binary (TRef.of main_v85 : TRef sig ⟨S100000x40, .f32⟩) main_call3.cst main_call3.v0 (fun x v => Host.reduce FloatOps.maximumf x v reducesTo_S100000x40_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x40 ![0, 1] bcast_S100000x1_S100000x40_0_1),
    StableHlo.TRef.binary (TRef.of main_v85 : TRef sig ⟨S100000x40, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x40_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x40 ![0, 1] bcast_S100000x1_S100000x40_0_1),
    StableHlo.TRef.binary main_call3.v5 main_call3.v10 main_call3.v11 subf ]

-- the chain has one bind per operation, and re-associating it recurses once per bind
set_option maxRecDepth 8192 in
set_option maxHeartbeats 4000000 in
/-- The program is the straight line of its operations: the two windows and the four callees' definitions unfolded at
    their calls, both sides are one chain of steps once sequencing is re-associated. -/
theorem main_eq_typed (c : Dev nD) : main (F := F) c = seq opsTyped := by
  simp only [main, main_part0, main_part1, fn_where.body, fn_relu.body, fn_var.body, fn_where_0.body, fn_log_softmax.body,
    seq, bind_assoc, pure_bind]

attribute [local irreducible] Host.reduce Host.gather Host.scatterAdd Host.reduceAdd in
set_option maxRecDepth 16384 in
set_option maxHeartbeats 4000000 in
/-- A callee's operation over a call's typed references is the same operation over the buffers named directly: at a
    literal buffer the transport along the buffer's type is the identity. -/
theorem opsTyped_eq : (opsTyped : List (HloOp τ sig (Elt F))) = ops := by
  repeat' (first | refine congrArg₂ List.cons ?_ ?_ | rfl)

theorem main_eq (c : Dev nD) : main (F := F) c = seq ops := (main_eq_typed c).trans (congrArg seq opsTyped_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The read-back, stretch by stretch -/

/-- Operations 1 … 7: the two index vectors: sources and destinations, each followed by the self loops. -/
def opsC1 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 8 … 24: the destination counts and the per-node scale 1/√deg, zero where the count is zero. -/
def opsC2 : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- Operations 25 … 43: the per-edge scale: the source's scale times the destination's. -/
def opsC3 : List (HloOp τ sig (Elt F)) :=
  [ StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Operations 44 … 66: the first product, its aggregation over the edges, the bias and the positive part. -/
def opsC4 : List (HloOp τ sig (Elt F)) :=
  [ StableHlo.binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32 : (⟨S_, .f32⟩ : BufTy).Contents (Elt F)),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v48 main_call1_v0 main_v49 (maximumf : (⟨S100000x128, .f32⟩ : BufTy).Contents (Elt F) → (⟨S100000x128, .f32⟩ : BufTy).Contents (Elt F) → (⟨S100000x128, .f32⟩ : BufTy).Contents (Elt F)) ]

/-- Operations 67 … 94: the column means and the column variances of the hidden layer. -/
def opsC5 : List (HloOp τ sig (Elt F)) :=
  [ StableHlo.nullary main_cst_10 (constant S_ .f32 0x00000000#32),
    StableHlo.binary main_v49 main_cst_10 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.nullary main_call2_cst (constant S_ .f32 0x00000000#32 : (⟨S_, .f32⟩ : BufTy).Contents (Elt F)),
    StableHlo.binary main_v49 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47C35000#32 : (⟨S_, .f32⟩ : BufTy).Contents (Elt F)),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S100000x128 ![0, 1] bcast_S1x128_S100000x128_0_1 : (⟨S1x128, .f32⟩ : BufTy).Contents (Elt F) → (⟨S100000x128, .f32⟩ : BufTy).Contents (Elt F)),
    StableHlo.binary main_v49 main_call2_v4 main_call2_v5 (subf : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    StableHlo.unary main_c_12 main_call2_v7 (sitofp .f32 : (⟨S_, .i32⟩ : BufTy).Contents (Elt F) → (⟨S_, .f32⟩ : BufTy).Contents (Elt F)),
    StableHlo.nullary main_call2_cst_1 (constant S_ .f32 0x47C35000#32 : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32 : (⟨S_, .f32⟩ : BufTy).Contents (Elt F)),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32 : (⟨S_, .f32⟩ : BufTy).Contents (Elt F)),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32 : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v53 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations 95 … 110: the normalisation with those statistics, the scale and the shift. -/
def opsC6 : List (HloOp τ sig (Elt F)) :=
  [ StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v57 (broadcastInDim S128 ![] bcast_S_S128 : (⟨S_, .f32⟩ : BufTy).Contents (Elt F) → (⟨S128, .f32⟩ : BufTy).Contents (Elt F)),
    StableHlo.binary main_v53 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg4 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg5 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)) ]

/-- Operations 111 … 130: the second product, its aggregation over the edges, and the bias. -/
def opsC7 : List (HloOp τ sig (Elt F)) :=
  [ StableHlo.binary main_v68 main_arg6 main_v69 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.nullary main_c_14 (constantI S_ 32 0#32),
    StableHlo.unary main_c_14 main_v70 (broadcastInDim S1700000 ![] bcast_S_S1700000 : (⟨S_, .i32⟩ : BufTy).Contents (Elt F) → (⟨S1700000, .i32⟩ : BufTy).Contents (Elt F)),
    StableHlo.binary main_v3 main_v70 main_v71 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v72 (broadcastInDim S1700000 ![] bcast_S_S1700000 : (⟨S_, .i32⟩ : BufTy).Contents (Elt F) → (⟨S1700000, .i32⟩ : BufTy).Contents (Elt F)),
    StableHlo.binary main_v3 main_v72 main_v73 (addi : (⟨S1700000, .i32⟩ : BufTy).Contents (Elt F) → (⟨S1700000, .i32⟩ : BufTy).Contents (Elt F) → (⟨S1700000, .i32⟩ : BufTy).Contents (Elt F)),
    StableHlo.ternary main_v71 main_v73 main_v3 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v74 main_v75 (broadcastInDim S1700000x1 ![0] bcast_S1700000_S1700000x1_0 : (⟨S1700000, .i32⟩ : BufTy).Contents (Elt F) → (⟨S1700000x1, .i32⟩ : BufTy).Contents (Elt F)),
    StableHlo.binary main_v69 main_v75 main_v76 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v31 main_v77 (broadcastInDim S1700000x1 ![0] bcast_S1700000_S1700000x1_0 : (⟨S1700000, .f32⟩ : BufTy).Contents (Elt F) → (⟨S1700000x1, .f32⟩ : BufTy).Contents (Elt F)),
    StableHlo.unary main_v77 main_v78 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v76 main_v78 main_v79 (mulf : (⟨S1700000x40, .f32⟩ : BufTy).Contents (Elt F) → (⟨S1700000x40, .f32⟩ : BufTy).Contents (Elt F) → (⟨S1700000x40, .f32⟩ : BufTy).Contents (Elt F)),
    StableHlo.nullary main_cst_16 (constant S_ .f32 0x00000000#32),
    StableHlo.unary main_cst_16 main_v80 (broadcastInDim S100000x40 ![] bcast_S_S100000x40 : (⟨S_, .f32⟩ : BufTy).Contents (Elt F) → (⟨S100000x40, .f32⟩ : BufTy).Contents (Elt F)),
    StableHlo.unary main_v6 main_v81 (broadcastInDim S1700000x1 ![0] bcast_S1700000_S1700000x1_0 : (⟨S1700000, .i32⟩ : BufTy).Contents (Elt F) → (⟨S1700000x1, .i32⟩ : BufTy).Contents (Elt F)),
    StableHlo.ternary main_v80 main_v81 main_v79 main_v82 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_arg7 main_v83 (broadcastInDim S1x40 ![1] bcast_S40_S1x40_1 : (⟨S40, .f32⟩ : BufTy).Contents (Elt F) → (⟨S1x40, .f32⟩ : BufTy).Contents (Elt F)),
    StableHlo.unary main_v83 main_v84 (broadcastInDim S100000x40 ![0, 1] bcast_S1x40_S100000x40_0_1 : (⟨S1x40, .f32⟩ : BufTy).Contents (Elt F) → (⟨S100000x40, .f32⟩ : BufTy).Contents (Elt F)),
    StableHlo.binary main_v82 main_v84 main_v85 (addf : (⟨S100000x40, .f32⟩ : BufTy).Contents (Elt F) → (⟨S100000x40, .f32⟩ : BufTy).Contents (Elt F) → (⟨S100000x40, .f32⟩ : BufTy).Contents (Elt F)) ]

/-- Operations 131 … 145: the row-wise log-softmax. -/
def opsC8 : List (HloOp τ sig (Elt F)) :=
  [ StableHlo.nullary main_call3_cst (constant S_ .f32 0xFF800000#32 : (⟨S_, .f32⟩ : BufTy).Contents (Elt F)),
    StableHlo.binary main_v85 main_call3_cst main_call3_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.nullary main_call3_cst_0 (constant S_ .f32 0xFF800000#32 : (⟨S_, .f32⟩ : BufTy).Contents (Elt F)),
    StableHlo.unary main_call3_cst_0 main_call3_v1 (broadcastInDim S100000 ![] bcast_S_S100000 : (⟨S_, .f32⟩ : BufTy).Contents (Elt F) → (⟨S100000, .f32⟩ : BufTy).Contents (Elt F)),
    StableHlo.binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    StableHlo.unary main_call3_v2 main_call3_v3 (broadcastInDim S100000x1 ![0] bcast_S100000_S100000x1_0 : (⟨S100000, .f32⟩ : BufTy).Contents (Elt F) → (⟨S100000x1, .f32⟩ : BufTy).Contents (Elt F)),
    StableHlo.unary main_call3_v3 main_call3_v4 (broadcastInDim S100000x40 ![0, 1] bcast_S100000x1_S100000x40_0_1 : (⟨S100000x1, .f32⟩ : BufTy).Contents (Elt F) → (⟨S100000x40, .f32⟩ : BufTy).Contents (Elt F)),
    StableHlo.binary main_v85 main_call3_v4 main_call3_v5 (subf : (⟨S100000x40, .f32⟩ : BufTy).Contents (Elt F) → (⟨S100000x40, .f32⟩ : BufTy).Contents (Elt F) → (⟨S100000x40, .f32⟩ : BufTy).Contents (Elt F)),
    StableHlo.unary main_call3_v5 main_call3_v6 (Host.exp : (⟨S100000x40, .f32⟩ : BufTy).Contents (Elt F) → (⟨S100000x40, .f32⟩ : BufTy).Contents (Elt F)),
    StableHlo.nullary main_call3_cst_1 (constant S_ .f32 0x00000000#32 : (⟨S_, .f32⟩ : BufTy).Contents (Elt F)),
    StableHlo.binary main_call3_v6 main_call3_cst_1 main_call3_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.unary main_call3_v7 main_call3_v8 (broadcastInDim S100000x1 ![0] bcast_S100000_S100000x1_0 : (⟨S100000, .f32⟩ : BufTy).Contents (Elt F) → (⟨S100000x1, .f32⟩ : BufTy).Contents (Elt F)),
    StableHlo.unary main_call3_v8 main_call3_v9 (Host.log : (⟨S100000x1, .f32⟩ : BufTy).Contents (Elt F) → (⟨S100000x1, .f32⟩ : BufTy).Contents (Elt F)),
    StableHlo.unary main_call3_v9 main_call3_v10 (broadcastInDim S100000x40 ![0, 1] bcast_S100000x1_S100000x40_0_1 : (⟨S100000x1, .f32⟩ : BufTy).Contents (Elt F) → (⟨S100000x40, .f32⟩ : BufTy).Contents (Elt F)),
    StableHlo.binary main_call3_v5 main_call3_v10 main_v86 (subf : (⟨S100000x40, .f32⟩ : BufTy).Contents (Elt F) → (⟨S100000x40, .f32⟩ : BufTy).Contents (Elt F) → (⟨S100000x40, .f32⟩ : BufTy).Contents (Elt F)) ]

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The 145 operations are the eight stretches in order. -/
theorem ops_split : (ops : List (HloOp τ sig (Elt Ideal))) = ((((((((opsC1 (F := Ideal)) ++ opsC2) ++ opsC3) ++ opsC4) ++ opsC5) ++ opsC6) ++ opsC7) ++ opsC8) := rfl

/-! For each stretch k and each buffer b that a later stretch or the result reads: `ck_b` says the stretch leaves b alone,
    and `pk_b` says that after the first k stretches b holds the named stage's value of the arguments' contents — by
    the previous stretches' values where the stretch reads them, and then by comparing two compositions of the same
    operations with the reductions, gathers, scatters and host functions kept closed. -/

/-- The hidden layer after the bias and the positive part, as a function of the arguments. -/
def hid (x : FVec Ideal S100000x128 .f32) (e : IVec S2x1600000 32) (W1 : FVec Ideal S128x128 .f32)
    (b1 : FVec Ideal S128 .f32) : FVec Ideal S100000x128 .f32 :=
  Stages.hrelu (Stages.agg128 e (Host.dotGeneral (F := Ideal) dot_S100000x128_S128x128_S100000x128_1_0_0_1_n_n none x W1)) b1

/-- The second aggregation, of the normalised hidden layer times the second weight matrix: the logits before their bias. -/
def logits (x : FVec Ideal S100000x128 .f32) (e : IVec S2x1600000 32) (W1 : FVec Ideal S128x128 .f32)
    (b1 g be : FVec Ideal S128 .f32) (W2 : FVec Ideal S128x40 .f32) : FVec Ideal S100000x40 .f32 :=
  Stages.agg40 e (Host.dotGeneral (F := Ideal) dot_S100000x128_S128x40_S100000x40_1_0_0_1_n_n none
    (Stages.bnR (hid x e W1 b1) g be) W2)

/-- The whole reference is the biased log-softmax of the logits. -/
theorem refOut_eq (x : FVec Ideal S100000x128 .f32) (e : IVec S2x1600000 32) (W1 : FVec Ideal S128x128 .f32)
    (b1 g be : FVec Ideal S128 .f32) (W2 : FVec Ideal S128x40 .f32) (b2 : FVec Ideal S40 .f32) :
    Stages.refOut x e W1 b1 g be W2 b2 = Stages.outR (logits x e W1 b1 g be W2) b2 := rfl

theorem c1_main_arg0 (W : Valuation τ sig (Elt Ideal)) :
    after (opsC1 (F := Ideal)) W (main_arg0 : DevRef τ sig) = W (main_arg0 : DevRef τ sig) := by
  simp only [opsC1]; after_results_simp
theorem c1_main_arg2 (W : Valuation τ sig (Elt Ideal)) :
    after (opsC1 (F := Ideal)) W (main_arg2 : DevRef τ sig) = W (main_arg2 : DevRef τ sig) := by
  simp only [opsC1]; after_results_simp
theorem c1_main_arg3 (W : Valuation τ sig (Elt Ideal)) :
    after (opsC1 (F := Ideal)) W (main_arg3 : DevRef τ sig) = W (main_arg3 : DevRef τ sig) := by
  simp only [opsC1]; after_results_simp
theorem c1_main_arg4 (W : Valuation τ sig (Elt Ideal)) :
    after (opsC1 (F := Ideal)) W (main_arg4 : DevRef τ sig) = W (main_arg4 : DevRef τ sig) := by
  simp only [opsC1]; after_results_simp
theorem c1_main_arg5 (W : Valuation τ sig (Elt Ideal)) :
    after (opsC1 (F := Ideal)) W (main_arg5 : DevRef τ sig) = W (main_arg5 : DevRef τ sig) := by
  simp only [opsC1]; after_results_simp
theorem c1_main_arg6 (W : Valuation τ sig (Elt Ideal)) :
    after (opsC1 (F := Ideal)) W (main_arg6 : DevRef τ sig) = W (main_arg6 : DevRef τ sig) := by
  simp only [opsC1]; after_results_simp
theorem c1_main_arg7 (W : Valuation τ sig (Elt Ideal)) :
    after (opsC1 (F := Ideal)) W (main_arg7 : DevRef τ sig) = W (main_arg7 : DevRef τ sig) := by
  simp only [opsC1]; after_results_simp
theorem c1_main_arg1 (W : Valuation τ sig (Elt Ideal)) :
    after (opsC1 (F := Ideal)) W (main_arg1 : DevRef τ sig) = W (main_arg1 : DevRef τ sig) := by
  simp only [opsC1]; after_results_simp

attribute [local irreducible] Host.reduce Host.gather Host.scatterAdd Host.reduceAdd Host.rsqrt Host.divf Host.exp Host.log in
set_option maxRecDepth 16384 in
set_option maxHeartbeats 2000000 in
theorem p1_main_v6 (V : Valuation τ sig (Elt Ideal)) :
    after (opsC1 (F := Ideal)) V (main_v6 : DevRef τ sig) = Stages.dstIdx (V (main_arg1 : DevRef τ sig)) := by
  simp only [opsC1]; after_results_simp
  rfl
attribute [local irreducible] Host.reduce Host.gather Host.scatterAdd Host.reduceAdd Host.rsqrt Host.divf Host.exp Host.log in
set_option maxRecDepth 16384 in
set_option maxHeartbeats 2000000 in
theorem p1_main_v3 (V : Valuation τ sig (Elt Ideal)) :
    after (opsC1 (F := Ideal)) V (main_v3 : DevRef τ sig) = Stages.srcIdx (V (main_arg1 : DevRef τ sig)) := by
  simp only [opsC1]; after_results_simp
  rfl
theorem p1_main_arg0 (V : Valuation τ sig (Elt Ideal)) :
    after (opsC1 (F := Ideal)) V (main_arg0 : DevRef τ sig) = V (main_arg0 : DevRef τ sig) := by
  exact c1_main_arg0 V
theorem p1_main_arg2 (V : Valuation τ sig (Elt Ideal)) :
    after (opsC1 (F := Ideal)) V (main_arg2 : DevRef τ sig) = V (main_arg2 : DevRef τ sig) := by
  exact c1_main_arg2 V
theorem p1_main_arg3 (V : Valuation τ sig (Elt Ideal)) :
    after (opsC1 (F := Ideal)) V (main_arg3 : DevRef τ sig) = V (main_arg3 : DevRef τ sig) := by
  exact c1_main_arg3 V
theorem p1_main_arg4 (V : Valuation τ sig (Elt Ideal)) :
    after (opsC1 (F := Ideal)) V (main_arg4 : DevRef τ sig) = V (main_arg4 : DevRef τ sig) := by
  exact c1_main_arg4 V
theorem p1_main_arg5 (V : Valuation τ sig (Elt Ideal)) :
    after (opsC1 (F := Ideal)) V (main_arg5 : DevRef τ sig) = V (main_arg5 : DevRef τ sig) := by
  exact c1_main_arg5 V
theorem p1_main_arg6 (V : Valuation τ sig (Elt Ideal)) :
    after (opsC1 (F := Ideal)) V (main_arg6 : DevRef τ sig) = V (main_arg6 : DevRef τ sig) := by
  exact c1_main_arg6 V
theorem p1_main_arg7 (V : Valuation τ sig (Elt Ideal)) :
    after (opsC1 (F := Ideal)) V (main_arg7 : DevRef τ sig) = V (main_arg7 : DevRef τ sig) := by
  exact c1_main_arg7 V
theorem p1_main_arg1 (V : Valuation τ sig (Elt Ideal)) :
    after (opsC1 (F := Ideal)) V (main_arg1 : DevRef τ sig) = V (main_arg1 : DevRef τ sig) := by
  exact c1_main_arg1 V

theorem c2_main_v3 (W : Valuation τ sig (Elt Ideal)) :
    after (opsC2 (F := Ideal)) W (main_v3 : DevRef τ sig) = W (main_v3 : DevRef τ sig) := by
  simp only [opsC2]; after_results_simp
theorem c2_main_v6 (W : Valuation τ sig (Elt Ideal)) :
    after (opsC2 (F := Ideal)) W (main_v6 : DevRef τ sig) = W (main_v6 : DevRef τ sig) := by
  simp only [opsC2]; after_results_simp
theorem c2_main_arg0 (W : Valuation τ sig (Elt Ideal)) :
    after (opsC2 (F := Ideal)) W (main_arg0 : DevRef τ sig) = W (main_arg0 : DevRef τ sig) := by
  simp only [opsC2]; after_results_simp
theorem c2_main_arg2 (W : Valuation τ sig (Elt Ideal)) :
    after (opsC2 (F := Ideal)) W (main_arg2 : DevRef τ sig) = W (main_arg2 : DevRef τ sig) := by
  simp only [opsC2]; after_results_simp
theorem c2_main_arg3 (W : Valuation τ sig (Elt Ideal)) :
    after (opsC2 (F := Ideal)) W (main_arg3 : DevRef τ sig) = W (main_arg3 : DevRef τ sig) := by
  simp only [opsC2]; after_results_simp
theorem c2_main_arg4 (W : Valuation τ sig (Elt Ideal)) :
    after (opsC2 (F := Ideal)) W (main_arg4 : DevRef τ sig) = W (main_arg4 : DevRef τ sig) := by
  simp only [opsC2]; after_results_simp
theorem c2_main_arg5 (W : Valuation τ sig (Elt Ideal)) :
    after (opsC2 (F := Ideal)) W (main_arg5 : DevRef τ sig) = W (main_arg5 : DevRef τ sig) := by
  simp only [opsC2]; after_results_simp
theorem c2_main_arg6 (W : Valuation τ sig (Elt Ideal)) :
    after (opsC2 (F := Ideal)) W (main_arg6 : DevRef τ sig) = W (main_arg6 : DevRef τ sig) := by
  simp only [opsC2]; after_results_simp
theorem c2_main_arg7 (W : Valuation τ sig (Elt Ideal)) :
    after (opsC2 (F := Ideal)) W (main_arg7 : DevRef τ sig) = W (main_arg7 : DevRef τ sig) := by
  simp only [opsC2]; after_results_simp
theorem c2_main_arg1 (W : Valuation τ sig (Elt Ideal)) :
    after (opsC2 (F := Ideal)) W (main_arg1 : DevRef τ sig) = W (main_arg1 : DevRef τ sig) := by
  simp only [opsC2]; after_results_simp

theorem p2_main_v3 (V : Valuation τ sig (Elt Ideal)) :
    after ((opsC1 (F := Ideal)) ++ opsC2) V (main_v3 : DevRef τ sig) = Stages.srcIdx (V (main_arg1 : DevRef τ sig)) := by
  rw [after_append, c2_main_v3]; exact p1_main_v3 V
attribute [local irreducible] Host.reduce Host.gather Host.scatterAdd Host.reduceAdd Host.rsqrt Host.divf Host.exp Host.log in
set_option maxRecDepth 16384 in
set_option maxHeartbeats 2000000 in
theorem p2_main_v16 (V : Valuation τ sig (Elt Ideal)) :
    after ((opsC1 (F := Ideal)) ++ opsC2) V (main_v16 : DevRef τ sig) = Stages.dis (V (main_arg1 : DevRef τ sig)) := by
  rw [after_append]
  have h_main_v6 := p1_main_v6 V
  generalize after (opsC1 (F := Ideal)) V = W at h_main_v6 ⊢
  simp only [opsC2]; after_results_simp
  rw [h_main_v6]
  rfl
theorem p2_main_v6 (V : Valuation τ sig (Elt Ideal)) :
    after ((opsC1 (F := Ideal)) ++ opsC2) V (main_v6 : DevRef τ sig) = Stages.dstIdx (V (main_arg1 : DevRef τ sig)) := by
  rw [after_append, c2_main_v6]; exact p1_main_v6 V
theorem p2_main_arg0 (V : Valuation τ sig (Elt Ideal)) :
    after ((opsC1 (F := Ideal)) ++ opsC2) V (main_arg0 : DevRef τ sig) = V (main_arg0 : DevRef τ sig) := by
  rw [after_append, c2_main_arg0]; exact p1_main_arg0 V
theorem p2_main_arg2 (V : Valuation τ sig (Elt Ideal)) :
    after ((opsC1 (F := Ideal)) ++ opsC2) V (main_arg2 : DevRef τ sig) = V (main_arg2 : DevRef τ sig) := by
  rw [after_append, c2_main_arg2]; exact p1_main_arg2 V
theorem p2_main_arg3 (V : Valuation τ sig (Elt Ideal)) :
    after ((opsC1 (F := Ideal)) ++ opsC2) V (main_arg3 : DevRef τ sig) = V (main_arg3 : DevRef τ sig) := by
  rw [after_append, c2_main_arg3]; exact p1_main_arg3 V
theorem p2_main_arg4 (V : Valuation τ sig (Elt Ideal)) :
    after ((opsC1 (F := Ideal)) ++ opsC2) V (main_arg4 : DevRef τ sig) = V (main_arg4 : DevRef τ sig) := by
  rw [after_append, c2_main_arg4]; exact p1_main_arg4 V
theorem p2_main_arg5 (V : Valuation τ sig (Elt Ideal)) :
    after ((opsC1 (F := Ideal)) ++ opsC2) V (main_arg5 : DevRef τ sig) = V (main_arg5 : DevRef τ sig) := by
  rw [after_append, c2_main_arg5]; exact p1_main_arg5 V
theorem p2_main_arg6 (V : Valuation τ sig (Elt Ideal)) :
    after ((opsC1 (F := Ideal)) ++ opsC2) V (main_arg6 : DevRef τ sig) = V (main_arg6 : DevRef τ sig) := by
  rw [after_append, c2_main_arg6]; exact p1_main_arg6 V
theorem p2_main_arg7 (V : Valuation τ sig (Elt Ideal)) :
    after ((opsC1 (F := Ideal)) ++ opsC2) V (main_arg7 : DevRef τ sig) = V (main_arg7 : DevRef τ sig) := by
  rw [after_append, c2_main_arg7]; exact p1_main_arg7 V
theorem p2_main_arg1 (V : Valuation τ sig (Elt Ideal)) :
    after ((opsC1 (F := Ideal)) ++ opsC2) V (main_arg1 : DevRef τ sig) = V (main_arg1 : DevRef τ sig) := by
  rw [after_append, c2_main_arg1]; exact p1_main_arg1 V

theorem c3_main_arg0 (W : Valuation τ sig (Elt Ideal)) :
    after (opsC3 (F := Ideal)) W (main_arg0 : DevRef τ sig) = W (main_arg0 : DevRef τ sig) := by
  simp only [opsC3]; after_results_simp
theorem c3_main_arg2 (W : Valuation τ sig (Elt Ideal)) :
    after (opsC3 (F := Ideal)) W (main_arg2 : DevRef τ sig) = W (main_arg2 : DevRef τ sig) := by
  simp only [opsC3]; after_results_simp
theorem c3_main_v3 (W : Valuation τ sig (Elt Ideal)) :
    after (opsC3 (F := Ideal)) W (main_v3 : DevRef τ sig) = W (main_v3 : DevRef τ sig) := by
  simp only [opsC3]; after_results_simp
theorem c3_main_v6 (W : Valuation τ sig (Elt Ideal)) :
    after (opsC3 (F := Ideal)) W (main_v6 : DevRef τ sig) = W (main_v6 : DevRef τ sig) := by
  simp only [opsC3]; after_results_simp
theorem c3_main_arg3 (W : Valuation τ sig (Elt Ideal)) :
    after (opsC3 (F := Ideal)) W (main_arg3 : DevRef τ sig) = W (main_arg3 : DevRef τ sig) := by
  simp only [opsC3]; after_results_simp
theorem c3_main_arg4 (W : Valuation τ sig (Elt Ideal)) :
    after (opsC3 (F := Ideal)) W (main_arg4 : DevRef τ sig) = W (main_arg4 : DevRef τ sig) := by
  simp only [opsC3]; after_results_simp
theorem c3_main_arg5 (W : Valuation τ sig (Elt Ideal)) :
    after (opsC3 (F := Ideal)) W (main_arg5 : DevRef τ sig) = W (main_arg5 : DevRef τ sig) := by
  simp only [opsC3]; after_results_simp
theorem c3_main_arg6 (W : Valuation τ sig (Elt Ideal)) :
    after (opsC3 (F := Ideal)) W (main_arg6 : DevRef τ sig) = W (main_arg6 : DevRef τ sig) := by
  simp only [opsC3]; after_results_simp
theorem c3_main_arg7 (W : Valuation τ sig (Elt Ideal)) :
    after (opsC3 (F := Ideal)) W (main_arg7 : DevRef τ sig) = W (main_arg7 : DevRef τ sig) := by
  simp only [opsC3]; after_results_simp
theorem c3_main_arg1 (W : Valuation τ sig (Elt Ideal)) :
    after (opsC3 (F := Ideal)) W (main_arg1 : DevRef τ sig) = W (main_arg1 : DevRef τ sig) := by
  simp only [opsC3]; after_results_simp

theorem p3_main_arg0 (V : Valuation τ sig (Elt Ideal)) :
    after (((opsC1 (F := Ideal)) ++ opsC2) ++ opsC3) V (main_arg0 : DevRef τ sig) = V (main_arg0 : DevRef τ sig) := by
  rw [after_append, c3_main_arg0]; exact p2_main_arg0 V
theorem p3_main_arg2 (V : Valuation τ sig (Elt Ideal)) :
    after (((opsC1 (F := Ideal)) ++ opsC2) ++ opsC3) V (main_arg2 : DevRef τ sig) = V (main_arg2 : DevRef τ sig) := by
  rw [after_append, c3_main_arg2]; exact p2_main_arg2 V
theorem p3_main_v3 (V : Valuation τ sig (Elt Ideal)) :
    after (((opsC1 (F := Ideal)) ++ opsC2) ++ opsC3) V (main_v3 : DevRef τ sig) = Stages.srcIdx (V (main_arg1 : DevRef τ sig)) := by
  rw [after_append, c3_main_v3]; exact p2_main_v3 V
attribute [local irreducible] Host.reduce Host.gather Host.scatterAdd Host.reduceAdd Host.rsqrt Host.divf Host.exp Host.log in
set_option maxRecDepth 16384 in
set_option maxHeartbeats 2000000 in
theorem p3_main_v31 (V : Valuation τ sig (Elt Ideal)) :
    after (((opsC1 (F := Ideal)) ++ opsC2) ++ opsC3) V (main_v31 : DevRef τ sig) = Stages.normE (V (main_arg1 : DevRef τ sig)) := by
  rw [after_append]
  have h_main_v6 := p2_main_v6 V
  have h_main_v16 := p2_main_v16 V
  have h_main_v3 := p2_main_v3 V
  generalize after ((opsC1 (F := Ideal)) ++ opsC2) V = W at h_main_v6 h_main_v16 h_main_v3 ⊢
  simp only [opsC3]; after_results_simp
  rw [h_main_v6, h_main_v16, h_main_v3]
  rfl
theorem p3_main_v6 (V : Valuation τ sig (Elt Ideal)) :
    after (((opsC1 (F := Ideal)) ++ opsC2) ++ opsC3) V (main_v6 : DevRef τ sig) = Stages.dstIdx (V (main_arg1 : DevRef τ sig)) := by
  rw [after_append, c3_main_v6]; exact p2_main_v6 V
theorem p3_main_arg3 (V : Valuation τ sig (Elt Ideal)) :
    after (((opsC1 (F := Ideal)) ++ opsC2) ++ opsC3) V (main_arg3 : DevRef τ sig) = V (main_arg3 : DevRef τ sig) := by
  rw [after_append, c3_main_arg3]; exact p2_main_arg3 V
theorem p3_main_arg4 (V : Valuation τ sig (Elt Ideal)) :
    after (((opsC1 (F := Ideal)) ++ opsC2) ++ opsC3) V (main_arg4 : DevRef τ sig) = V (main_arg4 : DevRef τ sig) := by
  rw [after_append, c3_main_arg4]; exact p2_main_arg4 V
theorem p3_main_arg5 (V : Valuation τ sig (Elt Ideal)) :
    after (((opsC1 (F := Ideal)) ++ opsC2) ++ opsC3) V (main_arg5 : DevRef τ sig) = V (main_arg5 : DevRef τ sig) := by
  rw [after_append, c3_main_arg5]; exact p2_main_arg5 V
theorem p3_main_arg6 (V : Valuation τ sig (Elt Ideal)) :
    after (((opsC1 (F := Ideal)) ++ opsC2) ++ opsC3) V (main_arg6 : DevRef τ sig) = V (main_arg6 : DevRef τ sig) := by
  rw [after_append, c3_main_arg6]; exact p2_main_arg6 V
theorem p3_main_arg7 (V : Valuation τ sig (Elt Ideal)) :
    after (((opsC1 (F := Ideal)) ++ opsC2) ++ opsC3) V (main_arg7 : DevRef τ sig) = V (main_arg7 : DevRef τ sig) := by
  rw [after_append, c3_main_arg7]; exact p2_main_arg7 V
theorem p3_main_arg1 (V : Valuation τ sig (Elt Ideal)) :
    after (((opsC1 (F := Ideal)) ++ opsC2) ++ opsC3) V (main_arg1 : DevRef τ sig) = V (main_arg1 : DevRef τ sig) := by
  rw [after_append, c3_main_arg1]; exact p2_main_arg1 V

theorem c4_main_arg4 (W : Valuation τ sig (Elt Ideal)) :
    after (opsC4 (F := Ideal)) W (main_arg4 : DevRef τ sig) = W (main_arg4 : DevRef τ sig) := by
  simp only [opsC4]; after_results_simp
theorem c4_main_arg5 (W : Valuation τ sig (Elt Ideal)) :
    after (opsC4 (F := Ideal)) W (main_arg5 : DevRef τ sig) = W (main_arg5 : DevRef τ sig) := by
  simp only [opsC4]; after_results_simp
theorem c4_main_arg6 (W : Valuation τ sig (Elt Ideal)) :
    after (opsC4 (F := Ideal)) W (main_arg6 : DevRef τ sig) = W (main_arg6 : DevRef τ sig) := by
  simp only [opsC4]; after_results_simp
theorem c4_main_v3 (W : Valuation τ sig (Elt Ideal)) :
    after (opsC4 (F := Ideal)) W (main_v3 : DevRef τ sig) = W (main_v3 : DevRef τ sig) := by
  simp only [opsC4]; after_results_simp
theorem c4_main_v31 (W : Valuation τ sig (Elt Ideal)) :
    after (opsC4 (F := Ideal)) W (main_v31 : DevRef τ sig) = W (main_v31 : DevRef τ sig) := by
  simp only [opsC4]; after_results_simp
theorem c4_main_v6 (W : Valuation τ sig (Elt Ideal)) :
    after (opsC4 (F := Ideal)) W (main_v6 : DevRef τ sig) = W (main_v6 : DevRef τ sig) := by
  simp only [opsC4]; after_results_simp
theorem c4_main_arg7 (W : Valuation τ sig (Elt Ideal)) :
    after (opsC4 (F := Ideal)) W (main_arg7 : DevRef τ sig) = W (main_arg7 : DevRef τ sig) := by
  simp only [opsC4]; after_results_simp
theorem c4_main_arg0 (W : Valuation τ sig (Elt Ideal)) :
    after (opsC4 (F := Ideal)) W (main_arg0 : DevRef τ sig) = W (main_arg0 : DevRef τ sig) := by
  simp only [opsC4]; after_results_simp
theorem c4_main_arg1 (W : Valuation τ sig (Elt Ideal)) :
    after (opsC4 (F := Ideal)) W (main_arg1 : DevRef τ sig) = W (main_arg1 : DevRef τ sig) := by
  simp only [opsC4]; after_results_simp
theorem c4_main_arg2 (W : Valuation τ sig (Elt Ideal)) :
    after (opsC4 (F := Ideal)) W (main_arg2 : DevRef τ sig) = W (main_arg2 : DevRef τ sig) := by
  simp only [opsC4]; after_results_simp
theorem c4_main_arg3 (W : Valuation τ sig (Elt Ideal)) :
    after (opsC4 (F := Ideal)) W (main_arg3 : DevRef τ sig) = W (main_arg3 : DevRef τ sig) := by
  simp only [opsC4]; after_results_simp

attribute [local irreducible] Host.reduce Host.gather Host.scatterAdd Host.reduceAdd Host.rsqrt Host.divf Host.exp Host.log in
set_option maxRecDepth 16384 in
set_option maxHeartbeats 2000000 in
theorem p4_main_v49 (V : Valuation τ sig (Elt Ideal)) :
    after ((((opsC1 (F := Ideal)) ++ opsC2) ++ opsC3) ++ opsC4) V (main_v49 : DevRef τ sig) = hid (V (main_arg0 : DevRef τ sig)) (V (main_arg1 : DevRef τ sig)) (V (main_arg2 : DevRef τ sig)) (V (main_arg3 : DevRef τ sig)) := by
  rw [after_append]
  have h_main_arg3 := p3_main_arg3 V
  have h_main_v31 := p3_main_v31 V
  have h_main_v3 := p3_main_v3 V
  have h_main_arg2 := p3_main_arg2 V
  have h_main_arg0 := p3_main_arg0 V
  have h_main_v6 := p3_main_v6 V
  generalize after (((opsC1 (F := Ideal)) ++ opsC2) ++ opsC3) V = W at h_main_arg3 h_main_v31 h_main_v3 h_main_arg2 h_main_arg0 h_main_v6 ⊢
  simp only [opsC4]; after_results_simp
  rw [h_main_arg3, h_main_v31, h_main_v3, h_main_arg2, h_main_arg0, h_main_v6]
  rfl
theorem p4_main_arg4 (V : Valuation τ sig (Elt Ideal)) :
    after ((((opsC1 (F := Ideal)) ++ opsC2) ++ opsC3) ++ opsC4) V (main_arg4 : DevRef τ sig) = V (main_arg4 : DevRef τ sig) := by
  rw [after_append, c4_main_arg4]; exact p3_main_arg4 V
theorem p4_main_arg5 (V : Valuation τ sig (Elt Ideal)) :
    after ((((opsC1 (F := Ideal)) ++ opsC2) ++ opsC3) ++ opsC4) V (main_arg5 : DevRef τ sig) = V (main_arg5 : DevRef τ sig) := by
  rw [after_append, c4_main_arg5]; exact p3_main_arg5 V
theorem p4_main_arg6 (V : Valuation τ sig (Elt Ideal)) :
    after ((((opsC1 (F := Ideal)) ++ opsC2) ++ opsC3) ++ opsC4) V (main_arg6 : DevRef τ sig) = V (main_arg6 : DevRef τ sig) := by
  rw [after_append, c4_main_arg6]; exact p3_main_arg6 V
theorem p4_main_v3 (V : Valuation τ sig (Elt Ideal)) :
    after ((((opsC1 (F := Ideal)) ++ opsC2) ++ opsC3) ++ opsC4) V (main_v3 : DevRef τ sig) = Stages.srcIdx (V (main_arg1 : DevRef τ sig)) := by
  rw [after_append, c4_main_v3]; exact p3_main_v3 V
theorem p4_main_v31 (V : Valuation τ sig (Elt Ideal)) :
    after ((((opsC1 (F := Ideal)) ++ opsC2) ++ opsC3) ++ opsC4) V (main_v31 : DevRef τ sig) = Stages.normE (V (main_arg1 : DevRef τ sig)) := by
  rw [after_append, c4_main_v31]; exact p3_main_v31 V
theorem p4_main_v6 (V : Valuation τ sig (Elt Ideal)) :
    after ((((opsC1 (F := Ideal)) ++ opsC2) ++ opsC3) ++ opsC4) V (main_v6 : DevRef τ sig) = Stages.dstIdx (V (main_arg1 : DevRef τ sig)) := by
  rw [after_append, c4_main_v6]; exact p3_main_v6 V
theorem p4_main_arg7 (V : Valuation τ sig (Elt Ideal)) :
    after ((((opsC1 (F := Ideal)) ++ opsC2) ++ opsC3) ++ opsC4) V (main_arg7 : DevRef τ sig) = V (main_arg7 : DevRef τ sig) := by
  rw [after_append, c4_main_arg7]; exact p3_main_arg7 V
theorem p4_main_arg0 (V : Valuation τ sig (Elt Ideal)) :
    after ((((opsC1 (F := Ideal)) ++ opsC2) ++ opsC3) ++ opsC4) V (main_arg0 : DevRef τ sig) = V (main_arg0 : DevRef τ sig) := by
  rw [after_append, c4_main_arg0]; exact p3_main_arg0 V
theorem p4_main_arg1 (V : Valuation τ sig (Elt Ideal)) :
    after ((((opsC1 (F := Ideal)) ++ opsC2) ++ opsC3) ++ opsC4) V (main_arg1 : DevRef τ sig) = V (main_arg1 : DevRef τ sig) := by
  rw [after_append, c4_main_arg1]; exact p3_main_arg1 V
theorem p4_main_arg2 (V : Valuation τ sig (Elt Ideal)) :
    after ((((opsC1 (F := Ideal)) ++ opsC2) ++ opsC3) ++ opsC4) V (main_arg2 : DevRef τ sig) = V (main_arg2 : DevRef τ sig) := by
  rw [after_append, c4_main_arg2]; exact p3_main_arg2 V
theorem p4_main_arg3 (V : Valuation τ sig (Elt Ideal)) :
    after ((((opsC1 (F := Ideal)) ++ opsC2) ++ opsC3) ++ opsC4) V (main_arg3 : DevRef τ sig) = V (main_arg3 : DevRef τ sig) := by
  rw [after_append, c4_main_arg3]; exact p3_main_arg3 V

theorem c5_main_v49 (W : Valuation τ sig (Elt Ideal)) :
    after (opsC5 (F := Ideal)) W (main_v49 : DevRef τ sig) = W (main_v49 : DevRef τ sig) := by
  simp only [opsC5]; after_results_simp
theorem c5_main_arg4 (W : Valuation τ sig (Elt Ideal)) :
    after (opsC5 (F := Ideal)) W (main_arg4 : DevRef τ sig) = W (main_arg4 : DevRef τ sig) := by
  simp only [opsC5]; after_results_simp
theorem c5_main_arg5 (W : Valuation τ sig (Elt Ideal)) :
    after (opsC5 (F := Ideal)) W (main_arg5 : DevRef τ sig) = W (main_arg5 : DevRef τ sig) := by
  simp only [opsC5]; after_results_simp
theorem c5_main_arg6 (W : Valuation τ sig (Elt Ideal)) :
    after (opsC5 (F := Ideal)) W (main_arg6 : DevRef τ sig) = W (main_arg6 : DevRef τ sig) := by
  simp only [opsC5]; after_results_simp
theorem c5_main_v3 (W : Valuation τ sig (Elt Ideal)) :
    after (opsC5 (F := Ideal)) W (main_v3 : DevRef τ sig) = W (main_v3 : DevRef τ sig) := by
  simp only [opsC5]; after_results_simp
theorem c5_main_v31 (W : Valuation τ sig (Elt Ideal)) :
    after (opsC5 (F := Ideal)) W (main_v31 : DevRef τ sig) = W (main_v31 : DevRef τ sig) := by
  simp only [opsC5]; after_results_simp
theorem c5_main_v6 (W : Valuation τ sig (Elt Ideal)) :
    after (opsC5 (F := Ideal)) W (main_v6 : DevRef τ sig) = W (main_v6 : DevRef τ sig) := by
  simp only [opsC5]; after_results_simp
theorem c5_main_arg7 (W : Valuation τ sig (Elt Ideal)) :
    after (opsC5 (F := Ideal)) W (main_arg7 : DevRef τ sig) = W (main_arg7 : DevRef τ sig) := by
  simp only [opsC5]; after_results_simp
theorem c5_main_arg0 (W : Valuation τ sig (Elt Ideal)) :
    after (opsC5 (F := Ideal)) W (main_arg0 : DevRef τ sig) = W (main_arg0 : DevRef τ sig) := by
  simp only [opsC5]; after_results_simp
theorem c5_main_arg1 (W : Valuation τ sig (Elt Ideal)) :
    after (opsC5 (F := Ideal)) W (main_arg1 : DevRef τ sig) = W (main_arg1 : DevRef τ sig) := by
  simp only [opsC5]; after_results_simp
theorem c5_main_arg2 (W : Valuation τ sig (Elt Ideal)) :
    after (opsC5 (F := Ideal)) W (main_arg2 : DevRef τ sig) = W (main_arg2 : DevRef τ sig) := by
  simp only [opsC5]; after_results_simp
theorem c5_main_arg3 (W : Valuation τ sig (Elt Ideal)) :
    after (opsC5 (F := Ideal)) W (main_arg3 : DevRef τ sig) = W (main_arg3 : DevRef τ sig) := by
  simp only [opsC5]; after_results_simp

attribute [local irreducible] Host.reduce Host.gather Host.scatterAdd Host.reduceAdd Host.rsqrt Host.divf Host.exp Host.log in
set_option maxRecDepth 16384 in
set_option maxHeartbeats 2000000 in
theorem p5_main_v52 (V : Valuation τ sig (Elt Ideal)) :
    after (((((opsC1 (F := Ideal)) ++ opsC2) ++ opsC3) ++ opsC4) ++ opsC5) V (main_v52 : DevRef τ sig) = Stages.meanR (hid (V (main_arg0 : DevRef τ sig)) (V (main_arg1 : DevRef τ sig)) (V (main_arg2 : DevRef τ sig)) (V (main_arg3 : DevRef τ sig))) := by
  rw [after_append]
  have h_main_v49 := p4_main_v49 V
  generalize after ((((opsC1 (F := Ideal)) ++ opsC2) ++ opsC3) ++ opsC4) V = W at h_main_v49 ⊢
  simp only [opsC5]; after_results_simp
  rw [h_main_v49]
  rfl
theorem p5_main_v49 (V : Valuation τ sig (Elt Ideal)) :
    after (((((opsC1 (F := Ideal)) ++ opsC2) ++ opsC3) ++ opsC4) ++ opsC5) V (main_v49 : DevRef τ sig) = hid (V (main_arg0 : DevRef τ sig)) (V (main_arg1 : DevRef τ sig)) (V (main_arg2 : DevRef τ sig)) (V (main_arg3 : DevRef τ sig)) := by
  rw [after_append, c5_main_v49]; exact p4_main_v49 V
attribute [local irreducible] Host.reduce Host.gather Host.scatterAdd Host.reduceAdd Host.rsqrt Host.divf Host.exp Host.log in
set_option maxRecDepth 16384 in
set_option maxHeartbeats 2000000 in
theorem p5_main_v53 (V : Valuation τ sig (Elt Ideal)) :
    after (((((opsC1 (F := Ideal)) ++ opsC2) ++ opsC3) ++ opsC4) ++ opsC5) V (main_v53 : DevRef τ sig) = Stages.varR (hid (V (main_arg0 : DevRef τ sig)) (V (main_arg1 : DevRef τ sig)) (V (main_arg2 : DevRef τ sig)) (V (main_arg3 : DevRef τ sig))) := by
  rw [after_append]
  have h_main_v49 := p4_main_v49 V
  generalize after ((((opsC1 (F := Ideal)) ++ opsC2) ++ opsC3) ++ opsC4) V = W at h_main_v49 ⊢
  simp only [opsC5]; after_results_simp
  rw [h_main_v49]
  rfl
theorem p5_main_arg4 (V : Valuation τ sig (Elt Ideal)) :
    after (((((opsC1 (F := Ideal)) ++ opsC2) ++ opsC3) ++ opsC4) ++ opsC5) V (main_arg4 : DevRef τ sig) = V (main_arg4 : DevRef τ sig) := by
  rw [after_append, c5_main_arg4]; exact p4_main_arg4 V
theorem p5_main_arg5 (V : Valuation τ sig (Elt Ideal)) :
    after (((((opsC1 (F := Ideal)) ++ opsC2) ++ opsC3) ++ opsC4) ++ opsC5) V (main_arg5 : DevRef τ sig) = V (main_arg5 : DevRef τ sig) := by
  rw [after_append, c5_main_arg5]; exact p4_main_arg5 V
theorem p5_main_arg6 (V : Valuation τ sig (Elt Ideal)) :
    after (((((opsC1 (F := Ideal)) ++ opsC2) ++ opsC3) ++ opsC4) ++ opsC5) V (main_arg6 : DevRef τ sig) = V (main_arg6 : DevRef τ sig) := by
  rw [after_append, c5_main_arg6]; exact p4_main_arg6 V
theorem p5_main_v3 (V : Valuation τ sig (Elt Ideal)) :
    after (((((opsC1 (F := Ideal)) ++ opsC2) ++ opsC3) ++ opsC4) ++ opsC5) V (main_v3 : DevRef τ sig) = Stages.srcIdx (V (main_arg1 : DevRef τ sig)) := by
  rw [after_append, c5_main_v3]; exact p4_main_v3 V
theorem p5_main_v31 (V : Valuation τ sig (Elt Ideal)) :
    after (((((opsC1 (F := Ideal)) ++ opsC2) ++ opsC3) ++ opsC4) ++ opsC5) V (main_v31 : DevRef τ sig) = Stages.normE (V (main_arg1 : DevRef τ sig)) := by
  rw [after_append, c5_main_v31]; exact p4_main_v31 V
theorem p5_main_v6 (V : Valuation τ sig (Elt Ideal)) :
    after (((((opsC1 (F := Ideal)) ++ opsC2) ++ opsC3) ++ opsC4) ++ opsC5) V (main_v6 : DevRef τ sig) = Stages.dstIdx (V (main_arg1 : DevRef τ sig)) := by
  rw [after_append, c5_main_v6]; exact p4_main_v6 V
theorem p5_main_arg7 (V : Valuation τ sig (Elt Ideal)) :
    after (((((opsC1 (F := Ideal)) ++ opsC2) ++ opsC3) ++ opsC4) ++ opsC5) V (main_arg7 : DevRef τ sig) = V (main_arg7 : DevRef τ sig) := by
  rw [after_append, c5_main_arg7]; exact p4_main_arg7 V
theorem p5_main_arg0 (V : Valuation τ sig (Elt Ideal)) :
    after (((((opsC1 (F := Ideal)) ++ opsC2) ++ opsC3) ++ opsC4) ++ opsC5) V (main_arg0 : DevRef τ sig) = V (main_arg0 : DevRef τ sig) := by
  rw [after_append, c5_main_arg0]; exact p4_main_arg0 V
theorem p5_main_arg1 (V : Valuation τ sig (Elt Ideal)) :
    after (((((opsC1 (F := Ideal)) ++ opsC2) ++ opsC3) ++ opsC4) ++ opsC5) V (main_arg1 : DevRef τ sig) = V (main_arg1 : DevRef τ sig) := by
  rw [after_append, c5_main_arg1]; exact p4_main_arg1 V
theorem p5_main_arg2 (V : Valuation τ sig (Elt Ideal)) :
    after (((((opsC1 (F := Ideal)) ++ opsC2) ++ opsC3) ++ opsC4) ++ opsC5) V (main_arg2 : DevRef τ sig) = V (main_arg2 : DevRef τ sig) := by
  rw [after_append, c5_main_arg2]; exact p4_main_arg2 V
theorem p5_main_arg3 (V : Valuation τ sig (Elt Ideal)) :
    after (((((opsC1 (F := Ideal)) ++ opsC2) ++ opsC3) ++ opsC4) ++ opsC5) V (main_arg3 : DevRef τ sig) = V (main_arg3 : DevRef τ sig) := by
  rw [after_append, c5_main_arg3]; exact p4_main_arg3 V

theorem c6_main_arg6 (W : Valuation τ sig (Elt Ideal)) :
    after (opsC6 (F := Ideal)) W (main_arg6 : DevRef τ sig) = W (main_arg6 : DevRef τ sig) := by
  simp only [opsC6]; after_results_simp
theorem c6_main_v3 (W : Valuation τ sig (Elt Ideal)) :
    after (opsC6 (F := Ideal)) W (main_v3 : DevRef τ sig) = W (main_v3 : DevRef τ sig) := by
  simp only [opsC6]; after_results_simp
theorem c6_main_v31 (W : Valuation τ sig (Elt Ideal)) :
    after (opsC6 (F := Ideal)) W (main_v31 : DevRef τ sig) = W (main_v31 : DevRef τ sig) := by
  simp only [opsC6]; after_results_simp
theorem c6_main_v6 (W : Valuation τ sig (Elt Ideal)) :
    after (opsC6 (F := Ideal)) W (main_v6 : DevRef τ sig) = W (main_v6 : DevRef τ sig) := by
  simp only [opsC6]; after_results_simp
theorem c6_main_arg7 (W : Valuation τ sig (Elt Ideal)) :
    after (opsC6 (F := Ideal)) W (main_arg7 : DevRef τ sig) = W (main_arg7 : DevRef τ sig) := by
  simp only [opsC6]; after_results_simp
theorem c6_main_arg0 (W : Valuation τ sig (Elt Ideal)) :
    after (opsC6 (F := Ideal)) W (main_arg0 : DevRef τ sig) = W (main_arg0 : DevRef τ sig) := by
  simp only [opsC6]; after_results_simp
theorem c6_main_arg1 (W : Valuation τ sig (Elt Ideal)) :
    after (opsC6 (F := Ideal)) W (main_arg1 : DevRef τ sig) = W (main_arg1 : DevRef τ sig) := by
  simp only [opsC6]; after_results_simp
theorem c6_main_arg2 (W : Valuation τ sig (Elt Ideal)) :
    after (opsC6 (F := Ideal)) W (main_arg2 : DevRef τ sig) = W (main_arg2 : DevRef τ sig) := by
  simp only [opsC6]; after_results_simp
theorem c6_main_arg3 (W : Valuation τ sig (Elt Ideal)) :
    after (opsC6 (F := Ideal)) W (main_arg3 : DevRef τ sig) = W (main_arg3 : DevRef τ sig) := by
  simp only [opsC6]; after_results_simp
theorem c6_main_arg4 (W : Valuation τ sig (Elt Ideal)) :
    after (opsC6 (F := Ideal)) W (main_arg4 : DevRef τ sig) = W (main_arg4 : DevRef τ sig) := by
  simp only [opsC6]; after_results_simp
theorem c6_main_arg5 (W : Valuation τ sig (Elt Ideal)) :
    after (opsC6 (F := Ideal)) W (main_arg5 : DevRef τ sig) = W (main_arg5 : DevRef τ sig) := by
  simp only [opsC6]; after_results_simp

attribute [local irreducible] Host.reduce Host.gather Host.scatterAdd Host.reduceAdd Host.rsqrt Host.divf Host.exp Host.log in
set_option maxRecDepth 16384 in
set_option maxHeartbeats 2000000 in
theorem p6_main_v68 (V : Valuation τ sig (Elt Ideal)) :
    after ((((((opsC1 (F := Ideal)) ++ opsC2) ++ opsC3) ++ opsC4) ++ opsC5) ++ opsC6) V (main_v68 : DevRef τ sig) = Stages.bnR (hid (V (main_arg0 : DevRef τ sig)) (V (main_arg1 : DevRef τ sig)) (V (main_arg2 : DevRef τ sig)) (V (main_arg3 : DevRef τ sig))) (V (main_arg4 : DevRef τ sig)) (V (main_arg5 : DevRef τ sig)) := by
  rw [after_append]
  have h_main_arg5 := p5_main_arg5 V
  have h_main_arg4 := p5_main_arg4 V
  have h_main_v53 := p5_main_v53 V
  have h_main_v52 := p5_main_v52 V
  have h_main_v49 := p5_main_v49 V
  generalize after (((((opsC1 (F := Ideal)) ++ opsC2) ++ opsC3) ++ opsC4) ++ opsC5) V = W at h_main_arg5 h_main_arg4 h_main_v53 h_main_v52 h_main_v49 ⊢
  simp only [opsC6]; after_results_simp
  rw [h_main_arg5, h_main_arg4, h_main_v53, h_main_v52, h_main_v49]
  rfl
theorem p6_main_arg6 (V : Valuation τ sig (Elt Ideal)) :
    after ((((((opsC1 (F := Ideal)) ++ opsC2) ++ opsC3) ++ opsC4) ++ opsC5) ++ opsC6) V (main_arg6 : DevRef τ sig) = V (main_arg6 : DevRef τ sig) := by
  rw [after_append, c6_main_arg6]; exact p5_main_arg6 V
theorem p6_main_v3 (V : Valuation τ sig (Elt Ideal)) :
    after ((((((opsC1 (F := Ideal)) ++ opsC2) ++ opsC3) ++ opsC4) ++ opsC5) ++ opsC6) V (main_v3 : DevRef τ sig) = Stages.srcIdx (V (main_arg1 : DevRef τ sig)) := by
  rw [after_append, c6_main_v3]; exact p5_main_v3 V
theorem p6_main_v31 (V : Valuation τ sig (Elt Ideal)) :
    after ((((((opsC1 (F := Ideal)) ++ opsC2) ++ opsC3) ++ opsC4) ++ opsC5) ++ opsC6) V (main_v31 : DevRef τ sig) = Stages.normE (V (main_arg1 : DevRef τ sig)) := by
  rw [after_append, c6_main_v31]; exact p5_main_v31 V
theorem p6_main_v6 (V : Valuation τ sig (Elt Ideal)) :
    after ((((((opsC1 (F := Ideal)) ++ opsC2) ++ opsC3) ++ opsC4) ++ opsC5) ++ opsC6) V (main_v6 : DevRef τ sig) = Stages.dstIdx (V (main_arg1 : DevRef τ sig)) := by
  rw [after_append, c6_main_v6]; exact p5_main_v6 V
theorem p6_main_arg7 (V : Valuation τ sig (Elt Ideal)) :
    after ((((((opsC1 (F := Ideal)) ++ opsC2) ++ opsC3) ++ opsC4) ++ opsC5) ++ opsC6) V (main_arg7 : DevRef τ sig) = V (main_arg7 : DevRef τ sig) := by
  rw [after_append, c6_main_arg7]; exact p5_main_arg7 V
theorem p6_main_arg0 (V : Valuation τ sig (Elt Ideal)) :
    after ((((((opsC1 (F := Ideal)) ++ opsC2) ++ opsC3) ++ opsC4) ++ opsC5) ++ opsC6) V (main_arg0 : DevRef τ sig) = V (main_arg0 : DevRef τ sig) := by
  rw [after_append, c6_main_arg0]; exact p5_main_arg0 V
theorem p6_main_arg1 (V : Valuation τ sig (Elt Ideal)) :
    after ((((((opsC1 (F := Ideal)) ++ opsC2) ++ opsC3) ++ opsC4) ++ opsC5) ++ opsC6) V (main_arg1 : DevRef τ sig) = V (main_arg1 : DevRef τ sig) := by
  rw [after_append, c6_main_arg1]; exact p5_main_arg1 V
theorem p6_main_arg2 (V : Valuation τ sig (Elt Ideal)) :
    after ((((((opsC1 (F := Ideal)) ++ opsC2) ++ opsC3) ++ opsC4) ++ opsC5) ++ opsC6) V (main_arg2 : DevRef τ sig) = V (main_arg2 : DevRef τ sig) := by
  rw [after_append, c6_main_arg2]; exact p5_main_arg2 V
theorem p6_main_arg3 (V : Valuation τ sig (Elt Ideal)) :
    after ((((((opsC1 (F := Ideal)) ++ opsC2) ++ opsC3) ++ opsC4) ++ opsC5) ++ opsC6) V (main_arg3 : DevRef τ sig) = V (main_arg3 : DevRef τ sig) := by
  rw [after_append, c6_main_arg3]; exact p5_main_arg3 V
theorem p6_main_arg4 (V : Valuation τ sig (Elt Ideal)) :
    after ((((((opsC1 (F := Ideal)) ++ opsC2) ++ opsC3) ++ opsC4) ++ opsC5) ++ opsC6) V (main_arg4 : DevRef τ sig) = V (main_arg4 : DevRef τ sig) := by
  rw [after_append, c6_main_arg4]; exact p5_main_arg4 V
theorem p6_main_arg5 (V : Valuation τ sig (Elt Ideal)) :
    after ((((((opsC1 (F := Ideal)) ++ opsC2) ++ opsC3) ++ opsC4) ++ opsC5) ++ opsC6) V (main_arg5 : DevRef τ sig) = V (main_arg5 : DevRef τ sig) := by
  rw [after_append, c6_main_arg5]; exact p5_main_arg5 V

theorem c7_main_arg0 (W : Valuation τ sig (Elt Ideal)) :
    after (opsC7 (F := Ideal)) W (main_arg0 : DevRef τ sig) = W (main_arg0 : DevRef τ sig) := by
  simp only [opsC7]; after_results_simp
theorem c7_main_arg1 (W : Valuation τ sig (Elt Ideal)) :
    after (opsC7 (F := Ideal)) W (main_arg1 : DevRef τ sig) = W (main_arg1 : DevRef τ sig) := by
  simp only [opsC7]; after_results_simp
theorem c7_main_arg2 (W : Valuation τ sig (Elt Ideal)) :
    after (opsC7 (F := Ideal)) W (main_arg2 : DevRef τ sig) = W (main_arg2 : DevRef τ sig) := by
  simp only [opsC7]; after_results_simp
theorem c7_main_arg3 (W : Valuation τ sig (Elt Ideal)) :
    after (opsC7 (F := Ideal)) W (main_arg3 : DevRef τ sig) = W (main_arg3 : DevRef τ sig) := by
  simp only [opsC7]; after_results_simp
theorem c7_main_arg4 (W : Valuation τ sig (Elt Ideal)) :
    after (opsC7 (F := Ideal)) W (main_arg4 : DevRef τ sig) = W (main_arg4 : DevRef τ sig) := by
  simp only [opsC7]; after_results_simp
theorem c7_main_arg5 (W : Valuation τ sig (Elt Ideal)) :
    after (opsC7 (F := Ideal)) W (main_arg5 : DevRef τ sig) = W (main_arg5 : DevRef τ sig) := by
  simp only [opsC7]; after_results_simp
theorem c7_main_arg6 (W : Valuation τ sig (Elt Ideal)) :
    after (opsC7 (F := Ideal)) W (main_arg6 : DevRef τ sig) = W (main_arg6 : DevRef τ sig) := by
  simp only [opsC7]; after_results_simp
theorem c7_main_arg7 (W : Valuation τ sig (Elt Ideal)) :
    after (opsC7 (F := Ideal)) W (main_arg7 : DevRef τ sig) = W (main_arg7 : DevRef τ sig) := by
  simp only [opsC7]; after_results_simp

attribute [local irreducible] Host.reduce Host.gather Host.scatterAdd Host.reduceAdd Host.rsqrt Host.divf Host.exp Host.log in
set_option maxRecDepth 16384 in
set_option maxHeartbeats 2000000 in
theorem p7_main_v85 (V : Valuation τ sig (Elt Ideal)) :
    after (((((((opsC1 (F := Ideal)) ++ opsC2) ++ opsC3) ++ opsC4) ++ opsC5) ++ opsC6) ++ opsC7) V (main_v85 : DevRef τ sig) = addf (logits (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (Stages.rows40 (V (main_arg7 : DevRef τ sig))) := by
  rw [after_append]
  have h_main_arg7 := p6_main_arg7 V
  have h_main_v31 := p6_main_v31 V
  have h_main_v3 := p6_main_v3 V
  have h_main_arg6 := p6_main_arg6 V
  have h_main_v68 := p6_main_v68 V
  have h_main_v6 := p6_main_v6 V
  generalize after ((((((opsC1 (F := Ideal)) ++ opsC2) ++ opsC3) ++ opsC4) ++ opsC5) ++ opsC6) V = W at h_main_arg7 h_main_v31 h_main_v3 h_main_arg6 h_main_v68 h_main_v6 ⊢
  simp only [opsC7]; after_results_simp
  rw [h_main_arg7, h_main_v31, h_main_v3, h_main_arg6, h_main_v68, h_main_v6]
  rfl
theorem p7_main_arg0 (V : Valuation τ sig (Elt Ideal)) :
    after (((((((opsC1 (F := Ideal)) ++ opsC2) ++ opsC3) ++ opsC4) ++ opsC5) ++ opsC6) ++ opsC7) V (main_arg0 : DevRef τ sig) = V (main_arg0 : DevRef τ sig) := by
  rw [after_append, c7_main_arg0]; exact p6_main_arg0 V
theorem p7_main_arg1 (V : Valuation τ sig (Elt Ideal)) :
    after (((((((opsC1 (F := Ideal)) ++ opsC2) ++ opsC3) ++ opsC4) ++ opsC5) ++ opsC6) ++ opsC7) V (main_arg1 : DevRef τ sig) = V (main_arg1 : DevRef τ sig) := by
  rw [after_append, c7_main_arg1]; exact p6_main_arg1 V
theorem p7_main_arg2 (V : Valuation τ sig (Elt Ideal)) :
    after (((((((opsC1 (F := Ideal)) ++ opsC2) ++ opsC3) ++ opsC4) ++ opsC5) ++ opsC6) ++ opsC7) V (main_arg2 : DevRef τ sig) = V (main_arg2 : DevRef τ sig) := by
  rw [after_append, c7_main_arg2]; exact p6_main_arg2 V
theorem p7_main_arg3 (V : Valuation τ sig (Elt Ideal)) :
    after (((((((opsC1 (F := Ideal)) ++ opsC2) ++ opsC3) ++ opsC4) ++ opsC5) ++ opsC6) ++ opsC7) V (main_arg3 : DevRef τ sig) = V (main_arg3 : DevRef τ sig) := by
  rw [after_append, c7_main_arg3]; exact p6_main_arg3 V
theorem p7_main_arg4 (V : Valuation τ sig (Elt Ideal)) :
    after (((((((opsC1 (F := Ideal)) ++ opsC2) ++ opsC3) ++ opsC4) ++ opsC5) ++ opsC6) ++ opsC7) V (main_arg4 : DevRef τ sig) = V (main_arg4 : DevRef τ sig) := by
  rw [after_append, c7_main_arg4]; exact p6_main_arg4 V
theorem p7_main_arg5 (V : Valuation τ sig (Elt Ideal)) :
    after (((((((opsC1 (F := Ideal)) ++ opsC2) ++ opsC3) ++ opsC4) ++ opsC5) ++ opsC6) ++ opsC7) V (main_arg5 : DevRef τ sig) = V (main_arg5 : DevRef τ sig) := by
  rw [after_append, c7_main_arg5]; exact p6_main_arg5 V
theorem p7_main_arg6 (V : Valuation τ sig (Elt Ideal)) :
    after (((((((opsC1 (F := Ideal)) ++ opsC2) ++ opsC3) ++ opsC4) ++ opsC5) ++ opsC6) ++ opsC7) V (main_arg6 : DevRef τ sig) = V (main_arg6 : DevRef τ sig) := by
  rw [after_append, c7_main_arg6]; exact p6_main_arg6 V
theorem p7_main_arg7 (V : Valuation τ sig (Elt Ideal)) :
    after (((((((opsC1 (F := Ideal)) ++ opsC2) ++ opsC3) ++ opsC4) ++ opsC5) ++ opsC6) ++ opsC7) V (main_arg7 : DevRef τ sig) = V (main_arg7 : DevRef τ sig) := by
  rw [after_append, c7_main_arg7]; exact p6_main_arg7 V

theorem c8_main_arg0 (W : Valuation τ sig (Elt Ideal)) :
    after (opsC8 (F := Ideal)) W (main_arg0 : DevRef τ sig) = W (main_arg0 : DevRef τ sig) := by
  simp only [opsC8]; after_results_simp
theorem c8_main_arg1 (W : Valuation τ sig (Elt Ideal)) :
    after (opsC8 (F := Ideal)) W (main_arg1 : DevRef τ sig) = W (main_arg1 : DevRef τ sig) := by
  simp only [opsC8]; after_results_simp
theorem c8_main_arg2 (W : Valuation τ sig (Elt Ideal)) :
    after (opsC8 (F := Ideal)) W (main_arg2 : DevRef τ sig) = W (main_arg2 : DevRef τ sig) := by
  simp only [opsC8]; after_results_simp
theorem c8_main_arg3 (W : Valuation τ sig (Elt Ideal)) :
    after (opsC8 (F := Ideal)) W (main_arg3 : DevRef τ sig) = W (main_arg3 : DevRef τ sig) := by
  simp only [opsC8]; after_results_simp
theorem c8_main_arg4 (W : Valuation τ sig (Elt Ideal)) :
    after (opsC8 (F := Ideal)) W (main_arg4 : DevRef τ sig) = W (main_arg4 : DevRef τ sig) := by
  simp only [opsC8]; after_results_simp
theorem c8_main_arg5 (W : Valuation τ sig (Elt Ideal)) :
    after (opsC8 (F := Ideal)) W (main_arg5 : DevRef τ sig) = W (main_arg5 : DevRef τ sig) := by
  simp only [opsC8]; after_results_simp
theorem c8_main_arg6 (W : Valuation τ sig (Elt Ideal)) :
    after (opsC8 (F := Ideal)) W (main_arg6 : DevRef τ sig) = W (main_arg6 : DevRef τ sig) := by
  simp only [opsC8]; after_results_simp
theorem c8_main_arg7 (W : Valuation τ sig (Elt Ideal)) :
    after (opsC8 (F := Ideal)) W (main_arg7 : DevRef τ sig) = W (main_arg7 : DevRef τ sig) := by
  simp only [opsC8]; after_results_simp

attribute [local irreducible] Host.reduce Host.gather Host.scatterAdd Host.reduceAdd Host.rsqrt Host.divf Host.exp Host.log in
set_option maxRecDepth 16384 in
set_option maxHeartbeats 2000000 in
theorem p8_main_v86 (V : Valuation τ sig (Elt Ideal)) :
    after ((((((((opsC1 (F := Ideal)) ++ opsC2) ++ opsC3) ++ opsC4) ++ opsC5) ++ opsC6) ++ opsC7) ++ opsC8) V (main_v86 : DevRef τ sig) = Stages.outR (logits (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig)) := by
  rw [after_append]
  have h_main_v85 := p7_main_v85 V
  generalize after (((((((opsC1 (F := Ideal)) ++ opsC2) ++ opsC3) ++ opsC4) ++ opsC5) ++ opsC6) ++ opsC7) V = W at h_main_v85 ⊢
  simp only [opsC8]; after_results_simp
  rw [h_main_v85]
  rfl
theorem p8_main_arg0 (V : Valuation τ sig (Elt Ideal)) :
    after ((((((((opsC1 (F := Ideal)) ++ opsC2) ++ opsC3) ++ opsC4) ++ opsC5) ++ opsC6) ++ opsC7) ++ opsC8) V (main_arg0 : DevRef τ sig) = V (main_arg0 : DevRef τ sig) := by
  rw [after_append, c8_main_arg0]; exact p7_main_arg0 V
theorem p8_main_arg1 (V : Valuation τ sig (Elt Ideal)) :
    after ((((((((opsC1 (F := Ideal)) ++ opsC2) ++ opsC3) ++ opsC4) ++ opsC5) ++ opsC6) ++ opsC7) ++ opsC8) V (main_arg1 : DevRef τ sig) = V (main_arg1 : DevRef τ sig) := by
  rw [after_append, c8_main_arg1]; exact p7_main_arg1 V
theorem p8_main_arg2 (V : Valuation τ sig (Elt Ideal)) :
    after ((((((((opsC1 (F := Ideal)) ++ opsC2) ++ opsC3) ++ opsC4) ++ opsC5) ++ opsC6) ++ opsC7) ++ opsC8) V (main_arg2 : DevRef τ sig) = V (main_arg2 : DevRef τ sig) := by
  rw [after_append, c8_main_arg2]; exact p7_main_arg2 V
theorem p8_main_arg3 (V : Valuation τ sig (Elt Ideal)) :
    after ((((((((opsC1 (F := Ideal)) ++ opsC2) ++ opsC3) ++ opsC4) ++ opsC5) ++ opsC6) ++ opsC7) ++ opsC8) V (main_arg3 : DevRef τ sig) = V (main_arg3 : DevRef τ sig) := by
  rw [after_append, c8_main_arg3]; exact p7_main_arg3 V
theorem p8_main_arg4 (V : Valuation τ sig (Elt Ideal)) :
    after ((((((((opsC1 (F := Ideal)) ++ opsC2) ++ opsC3) ++ opsC4) ++ opsC5) ++ opsC6) ++ opsC7) ++ opsC8) V (main_arg4 : DevRef τ sig) = V (main_arg4 : DevRef τ sig) := by
  rw [after_append, c8_main_arg4]; exact p7_main_arg4 V
theorem p8_main_arg5 (V : Valuation τ sig (Elt Ideal)) :
    after ((((((((opsC1 (F := Ideal)) ++ opsC2) ++ opsC3) ++ opsC4) ++ opsC5) ++ opsC6) ++ opsC7) ++ opsC8) V (main_arg5 : DevRef τ sig) = V (main_arg5 : DevRef τ sig) := by
  rw [after_append, c8_main_arg5]; exact p7_main_arg5 V
theorem p8_main_arg6 (V : Valuation τ sig (Elt Ideal)) :
    after ((((((((opsC1 (F := Ideal)) ++ opsC2) ++ opsC3) ++ opsC4) ++ opsC5) ++ opsC6) ++ opsC7) ++ opsC8) V (main_arg6 : DevRef τ sig) = V (main_arg6 : DevRef τ sig) := by
  rw [after_append, c8_main_arg6]; exact p7_main_arg6 V
theorem p8_main_arg7 (V : Valuation τ sig (Elt Ideal)) :
    after ((((((((opsC1 (F := Ideal)) ++ opsC2) ++ opsC3) ++ opsC4) ++ opsC5) ++ opsC6) ++ opsC7) ++ opsC8) V (main_arg7 : DevRef τ sig) = V (main_arg7 : DevRef τ sig) := by
  rw [after_append, c8_main_arg7]; exact p7_main_arg7 V

/-- The fold over all 145 operations read at the result buffer is the composition of the stages. -/
theorem out_eq (V : Valuation τ sig (Elt Ideal)) :
    after (ops (F := Ideal)) V (main_v86 : DevRef τ sig)
      = Stages.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_split, refOut_eq]; exact p8_main_v86 V

/-- No operation writes this argument's buffer. -/
theorem arg0_eq (V : Valuation τ sig (Elt Ideal)) :
    after (ops (F := Ideal)) V (main_arg0 : DevRef τ sig) = V (main_arg0 : DevRef τ sig) := by
  rw [ops_split]; exact p8_main_arg0 V

/-- No operation writes this argument's buffer. -/
theorem arg1_eq (V : Valuation τ sig (Elt Ideal)) :
    after (ops (F := Ideal)) V (main_arg1 : DevRef τ sig) = V (main_arg1 : DevRef τ sig) := by
  rw [ops_split]; exact p8_main_arg1 V

/-- No operation writes this argument's buffer. -/
theorem arg2_eq (V : Valuation τ sig (Elt Ideal)) :
    after (ops (F := Ideal)) V (main_arg2 : DevRef τ sig) = V (main_arg2 : DevRef τ sig) := by
  rw [ops_split]; exact p8_main_arg2 V

/-- No operation writes this argument's buffer. -/
theorem arg3_eq (V : Valuation τ sig (Elt Ideal)) :
    after (ops (F := Ideal)) V (main_arg3 : DevRef τ sig) = V (main_arg3 : DevRef τ sig) := by
  rw [ops_split]; exact p8_main_arg3 V

/-- No operation writes this argument's buffer. -/
theorem arg4_eq (V : Valuation τ sig (Elt Ideal)) :
    after (ops (F := Ideal)) V (main_arg4 : DevRef τ sig) = V (main_arg4 : DevRef τ sig) := by
  rw [ops_split]; exact p8_main_arg4 V

/-- No operation writes this argument's buffer. -/
theorem arg5_eq (V : Valuation τ sig (Elt Ideal)) :
    after (ops (F := Ideal)) V (main_arg5 : DevRef τ sig) = V (main_arg5 : DevRef τ sig) := by
  rw [ops_split]; exact p8_main_arg5 V

/-- No operation writes this argument's buffer. -/
theorem arg6_eq (V : Valuation τ sig (Elt Ideal)) :
    after (ops (F := Ideal)) V (main_arg6 : DevRef τ sig) = V (main_arg6 : DevRef τ sig) := by
  rw [ops_split]; exact p8_main_arg6 V

/-- No operation writes this argument's buffer. -/
theorem arg7_eq (V : Valuation τ sig (Elt Ideal)) :
    after (ops (F := Ideal)) V (main_arg7 : DevRef τ sig) = V (main_arg7 : DevRef τ sig) := by
  rw [ops_split]; exact p8_main_arg7 V

/-- On every device, from any memory with zero counters: every weakly fair execution of the reference terminates with
    the result buffer at the composition of the stages applied to the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86)
        = Stages.refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.Run

end
-- ==== Proof.VarLaw.lean ====
/-
  The two forms of the variance agree on real data.

  For a column of N real numbers with sum S and sum of squares Q, the "mean of squares minus square of the mean"
  Q/N − (S/N)² equals the mean of the squared deviations (1/N) Σ (h_r − S/N)²: expanding the square gives
  Q − 2 (S/N) S + N (S/N)², and N (S/N)² = (S/N) S.  Here N = 100000, the number of rows, which both programs
  spell as a binary32 word; the word denotes the real number 100000.  The law is proved over the reals and carried
  to the extended reals through the coercion, which commutes with finite sums, products and differences.
-/
import proofs.«130976_j31610959298975_1_alg».proof.Proof.Spec

open scoped BigOperators

noncomputable section

namespace Cert.Spec

open Idealize.ShloMosaic Idealize.ShloMosaic.ValueIdx

/-- The binary32 word for the number of rows denotes the real number 100000. -/
theorem cntN_eq : cntN = ((100000 : ℝ) : EReal) := by
  unfold cntN
  simp [Ideal.ofBits, Ideal.ieee, -EReal.coe_mul]; norm_num

/-- The coercion of the reals into the extended reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A matrix all of whose entries are real is the coercion of a real matrix. -/
theorem exists_real {ι : Type} {f : ι → EReal} (hf : AllReal f) : ∃ g : ι → ℝ, f = fun i => (g i : EReal) :=
  ⟨fun i => (f i).toReal, funext fun i => (EReal.coe_toReal (hf i).1 (hf i).2).symm⟩

/-- The second coordinate of an index built from two coordinates. -/
theorem ix2_one {n0 n1 : ℕ} (a : Fin n0) (b : Fin n1) : (ix2 a b) 1 = b := rfl

/-- A real number is neither infinity. -/
theorem coe_real (r : ℝ) : (r : EReal) ≠ ⊤ ∧ (r : EReal) ≠ ⊥ := ⟨EReal.coe_ne_top r, EReal.coe_ne_bot r⟩

/-- The column sums of a real matrix are real. -/
theorem colSum_real {n c : ℕ} (h : Mat n c) (hreal : AllReal h) : AllReal (colSum h) := by
  obtain ⟨g, rfl⟩ := exists_real hreal
  intro j
  unfold colSum
  rw [← coe_finsum]
  exact coe_real _

/-- The column sums of squares of a real matrix are real. -/
theorem colSumSq_real {n c : ℕ} (h : Mat n c) (hreal : AllReal h) : AllReal (colSumSq h) := by
  obtain ⟨g, rfl⟩ := exists_real hreal
  intro j
  unfold colSumSq
  simp only [← EReal.coe_mul]
  rw [← coe_finsum]
  exact coe_real _

/-- The law over the reals: for n numbers and N = n ≠ 0, mean of squares minus square of the mean is the mean of the
    squared deviations from the mean. -/
theorem real_var_forms {n : ℕ} (g : Fin n → ℝ) (N : ℝ) (hN : N = (n : ℝ)) (hn : N ≠ 0) :
    (∑ r, g r * g r) * (1 / N) - ((∑ r, g r) * (1 / N)) * ((∑ r, g r) * (1 / N))
      = (∑ r, (g r - (∑ r, g r) * (1 / N)) * (g r - (∑ r, g r) * (1 / N))) * (1 / N) := by
  set S : ℝ := ∑ r, g r with hS
  set Q : ℝ := ∑ r, g r * g r with hQ
  set m : ℝ := S * (1 / N) with hm
  have hexp : (∑ r, (g r - m) * (g r - m)) = Q - 2 * m * S + N * (m * m) := by
    have h1 : ∀ r, (g r - m) * (g r - m) = g r * g r - 2 * m * g r + m * m := fun r => by ring
    simp only [h1]
    rw [Finset.sum_add_distrib, Finset.sum_sub_distrib, ← Finset.mul_sum, Finset.sum_const, Finset.card_univ,
      Fintype.card_fin, nsmul_eq_mul, ← hN]
  rw [hexp, hm]
  field_simp
  ring

/-- The two forms of the variance agree on a real matrix with 100000 rows. -/
theorem var_forms_agree {c : ℕ} (h : Mat 100000 c) (hreal : AllReal h) :
    varOfSums (colSum h) (colSumSq h) = varOfDev h := by
  obtain ⟨g, rfl⟩ := exists_real hreal
  funext j
  have h0 : (100000 : ℝ) ≠ 0 := by norm_num
  unfold varOfSums varOfDev meanOf colSum colSumSq
  simp only [cntN_eq, Ideal.div_coe h0, ix2_one]
  simp only [← EReal.coe_mul, ← coe_finsum, ← EReal.coe_sub]
  congr 1
  exact real_var_forms (n := 100000) (fun r => g (ix2 (n0 := 100000) (n1 := c) r (j 1))) 100000 (by norm_num) h0

end Cert.Spec

end
-- ==== Proof.RefMath.lean ====
/-
  The reference's dense stages read as the mathematics of the specification.

  Each stage of the reference between the two aggregations — the column sums, the column means, the variance as the
  library computes it, the normalisation, and the final biased row-wise log-softmax — is, entry by entry, the
  function of the same name in the specification. A sum over the rows of a matrix is the initial value 0 plus the sum
  over the row coordinate; a broadcast of a row vector down the rows, of a column along the columns, or of a single
  number everywhere reads the matching entry; the variance's guard "N − 0 > 0" is true, N being 100000, so the select
  takes its first branch; a maximum over a row started from −∞ is the fold of max over the row's coordinates.
-/
import proofs.«130976_j31610959298975_1_alg».proof.Proof.RefStages
import proofs.«130976_j31610959298975_1_alg».proof.Proof.Spec
import proofs.«130976_j31610959298975_1_alg».proof.Proof.VarLaw
import proofs.«130976_j31610959298975_1_alg».proof.Proof.LibLayout
import Idealize.ShloMosaic.PureOps.Ideal.Laws

open scoped BigOperators

noncomputable section

namespace Cert.RefMath

open Idealize.ShloMosaic Idealize.ShloMosaic.ValueIdx Cert.Spec Cert.ReferenceIdeal Cert.ReferenceIdeal.Facts₀

/-! ## Sums along one axis of a matrix, and broadcasts, read at an entry -/

section Reads
variable {α : Type}

/-- The host's sum of a matrix [m, n] over its rows, started from the zero word, at column c: the sum of column c. -/
theorem hostSum_rows {m n : ℕ} (x : FVec Ideal ⟨2, ![m, n]⟩ .f32)
    (h' : (⟨2, ![m, n]⟩ : Shape).ReducesTo [0] ⟨1, ![n]⟩) (h : (⟨2, ![m, n]⟩ : Shape).Reduces [0] ⟨1, ![n]⟩)
    (hu : 0 < (⟨0, ![]⟩ : Shape).numel) (c : Fin n) :
    Host.reduceAdd x (constant (F := Ideal) ⟨0, ![]⟩ .f32 0x00000000#32) h' hu (ix1 c) = ∑ r : Fin m, x (ix2 r c) := by
  show Ideal.hostReduceAdd h' x (Ideal.ofBits .f32 0x00000000#32) (ix1 c) = _
  rw [Ideal.hostReduceAdd_single h' h, Ideal.ofBits_zero_f32, zero_add]
  refine Finset.sum_congr rfl fun k _ => congrArg x ?_
  funext d
  apply Fin.ext
  match d with
  | ⟨0, _⟩ => rfl
  | ⟨1, _⟩ => rfl

/-- The host's sum of a matrix [m, n] along its rows' entries, started from the zero word, at row r: the sum of row r. -/
theorem hostSum_cols {m n : ℕ} (x : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (r : Fin m) :
    Host.reduceAdd x (constant (F := Ideal) ⟨0, ![]⟩ .f32 0x00000000#32) h' hu (ix1 r) = ∑ c : Fin n, x (ix2 r c) := by
  show Ideal.hostReduceAdd h' x (Ideal.ofBits .f32 0x00000000#32) (ix1 r) = _
  rw [Ideal.hostReduceAdd_single h' h, Ideal.ofBits_zero_f32, zero_add]
  refine Finset.sum_congr rfl fun k _ => congrArg x ?_
  funext d
  apply Fin.ext
  match d with
  | ⟨0, _⟩ => rfl
  | ⟨1, _⟩ => rfl

/-- A single row [1, n] repeated down m rows, read at (r, c), is the row at (0, c). -/
theorem bcast_rows_apply {m n : ℕ} (X : (⟨2, ![1, n]⟩ : Shape).Idx → α)
    (hb : (⟨2, ![1, n]⟩ : Shape).BroadcastsInDim ⟨2, ![m, n]⟩ ![0, 1]) (r : Fin m) (c : Fin n) :
    broadcastInDim ⟨2, ![m, n]⟩ ![0, 1] hb X (ix2 r c) = X (ix2 0 c) := by
  refine broadcastInDim_apply _ hb X _ _ (fun a => ?_)
  match a with
  | ⟨0, _⟩ =>
    show (0 : ℕ) = if (1 : ℕ) = 1 then 0 else r.val
    rw [if_pos rfl]
  | ⟨1, _⟩ =>
    show c.val = if n = 1 then 0 else c.val
    have := c.isLt
    split <;> omega

/-- A single column [m, 1] repeated along n columns, read at (r, c), is the column at (r, 0). -/
theorem bcast_cols_apply {m n : ℕ} (X : (⟨2, ![m, 1]⟩ : Shape).Idx → α)
    (hb : (⟨2, ![m, 1]⟩ : Shape).BroadcastsInDim ⟨2, ![m, n]⟩ ![0, 1]) (r : Fin m) (c : Fin n) :
    broadcastInDim ⟨2, ![m, n]⟩ ![0, 1] hb X (ix2 r c) = X (ix2 r 0) := by
  refine broadcastInDim_apply _ hb X _ _ (fun a => ?_)
  match a with
  | ⟨0, _⟩ =>
    show r.val = if m = 1 then 0 else r.val
    have := r.isLt
    split <;> omega
  | ⟨1, _⟩ =>
    show (0 : ℕ) = if (1 : ℕ) = 1 then 0 else c.val
    rw [if_pos rfl]

/-- A single number repeated over any shape reads that number (the scalar shape has one index). -/
theorem bcast_scalar_apply {t : Shape} (X : (⟨0, ![]⟩ : Shape).Idx → α)
    (hb : (⟨0, ![]⟩ : Shape).BroadcastsInDim t (![] : Fin 0 → Fin t.rank)) (j : t.Idx) :
    broadcastInDim t ![] hb X j = X ix0 :=
  broadcastInDim_apply _ hb X j ix0 (fun a => a.elim0)

end Reads

/-- The host's quotient of two arrays, read at an index, is the quotient of the entries. -/
theorem hostDivf_apply {s : Shape} {φ : FTy} (a b : FVec Ideal s φ) (i : s.Idx) :
    Host.divf a b i = Ideal.div (a i) (b i) := rfl

/-- The number of rows is, by definition, the word both programs divide by. -/
theorem cntN_def : cntN = Ideal.ofBits .f32 0x47C35000#32 := rfl

/-- A vector repeated along the rows of a 100000 × 128 matrix, read at (r, c), is the vector at c. -/
theorem rows128_apply (v : FVec Ideal S128 .f32) (r : Fin 100000) (c : Fin 128) :
    Stages.rows128 v (ix2 r c) = v (ix1 c) := by
  unfold Stages.rows128
  rw [bcast_rows_apply, Cert.LibLayout.broadcastInDim_row_apply]

/-- A one-row matrix is the row of its own unrow. -/
theorem row_unrow {c : ℕ} (m : Mat 1 c) : row (unrow m) = m := by
  funext j
  obtain ⟨a, b, rfl⟩ : ∃ (a : Fin 1) (b : Fin c), j = ix2 a b := ⟨j 0, j 1, eq_ix2 j⟩
  obtain rfl : a = 0 := Subsingleton.elim _ _
  rfl

/-! ## The batch statistics -/

/-- The reference's column sums are the specification's. -/
theorem ref_colSum (h : FVec Ideal S100000x128 .f32) : Stages.colSumR h = unrow (colSum h) := by
  funext j
  obtain ⟨c, rfl⟩ : ∃ c : Fin 128, j = ix1 c := ⟨j 0, eq_ix1 j⟩
  unfold Stages.colSumR
  rw [hostSum_rows h _ (by decide) _ c]
  rfl

/-- The reference's column means are the specification's. -/
theorem ref_mean (h : FVec Ideal S100000x128 .f32) : Stages.meanR h = unrow (meanOf (colSum h)) := by
  funext j
  obtain ⟨c, rfl⟩ : ∃ c : Fin 128, j = ix1 c := ⟨j 0, eq_ix1 j⟩
  unfold Stages.meanR
  show Ideal.div (Stages.colSumR h (ix1 c)) (Ideal.ofBits .f32 0x47C35000#32) = _
  rw [ref_colSum]
  rfl

/-- The count N − 0 the variance divides by is N. -/
theorem cnt_eq (k : S_.Idx) :
    subf (constant (F := Ideal) S_ .f32 0x47C35000#32) (sitofp .f32 (constantI S_ 32 0#32)) k = cntN := by
  show Ideal.ofBits .f32 0x47C35000#32 - (((0#32 : BitVec 32).toInt : ℝ) : EReal) = cntN
  rw [BitVec.toInt_zero, Int.cast_zero, EReal.coe_zero, sub_zero]
  rfl

/-- The guard "N − 0 > 0" of the variance is true. -/
theorem guard_eq (k : S_.Idx) :
    cmpf .ogt (subf (constant (F := Ideal) S_ .f32 0x47C35000#32) (sitofp .f32 (constantI S_ 32 0#32)))
      (constant (F := Ideal) S_ .f32 0x00000000#32) k = 1#1 := by
  show Ideal.cmp .ogt (subf (constant (F := Ideal) S_ .f32 0x47C35000#32) (sitofp .f32 (constantI S_ 32 0#32)) k)
      (Ideal.ofBits .f32 0x00000000#32) = 1#1
  rw [cnt_eq, Ideal.ofBits_zero_f32, cntN_eq]
  have hpos : (0 : EReal) < ((100000 : ℝ) : EReal) := EReal.coe_pos.mpr (by norm_num)
  simp [Ideal.cmp, hpos]

/-- The reference's variance (mean of the squared deviations, with its guard) is the specification's. -/
theorem ref_var (h : FVec Ideal S100000x128 .f32) : Stages.varR h = unrow (varOfDev h) := by
  funext j
  obtain ⟨c, rfl⟩ : ∃ c : Fin 128, j = ix1 c := ⟨j 0, eq_ix1 j⟩
  unfold Stages.varR
  rw [select_apply]
  have hg : broadcastInDim S128 ![] bcast_S_S128
      (cmpf .ogt (subf (constant (F := Ideal) S_ .f32 0x47C35000#32) (sitofp .f32 (constantI S_ 32 0#32)))
        (constant (F := Ideal) S_ .f32 0x00000000#32)) (ix1 c) = 1#1 := guard_eq _
  rw [hg, select_one]
  show Ideal.div (Stages.colSumR _ (ix1 c))
    (subf (constant (F := Ideal) S_ .f32 0x47C35000#32) (sitofp .f32 (constantI S_ 32 0#32)) _) = _
  rw [cnt_eq]
  unfold Stages.colSumR
  rw [hostSum_rows _ _ (by decide) _ c]
  show _ = Ideal.div (∑ r : Fin 100000, (h (ix2 r c) - Ideal.div (∑ r : Fin 100000, h (ix2 r c)) cntN)
      * (h (ix2 r c) - Ideal.div (∑ r : Fin 100000, h (ix2 r c)) cntN)) cntN
  refine congrArg (fun z => Ideal.div z cntN) ?_
  refine Finset.sum_congr rfl fun r _ => ?_
  have hdev : ∀ r : Fin 100000,
      subf h (broadcastInDim S100000x128 ![0, 1] bcast_S1x128_S100000x128_0_1
        (Host.divf (broadcastInDim S1x128 ![1] bcast_S128_S1x128_1
            (Host.reduceAdd h (constant (F := Ideal) S_ .f32 0x00000000#32) reducesTo_S100000x128_S128_d0 h_S_))
          (broadcastInDim S1x128 ![] bcast_S_S1x128 (constant (F := Ideal) S_ .f32 0x47C35000#32)))) (ix2 r c)
        = h (ix2 r c) - Ideal.div (∑ r : Fin 100000, h (ix2 r c)) cntN := by
    intro r
    rw [subf_apply, bcast_rows_apply, hostDivf_apply, Cert.LibLayout.broadcastInDim_row_apply,
      hostSum_rows h _ (by decide) _ c, bcast_scalar_apply, constant_apply, cntN_def]
  rw [mulf_apply, hdev r]

/-! ## The normalisation -/

/-- The host's reciprocal square root, exponential and logarithm of an array, read at an index. -/
theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- The reference's normalisation with any per-column mean, variance, scale and shift is the specification's. -/
theorem ref_bn (h : FVec Ideal S100000x128 .f32) (mean var g b : FVec Ideal S128 .f32) :
    addf (mulf (mulf (subf h (Stages.rows128 mean))
        (Stages.rows128 (Host.rsqrt (addf var (broadcastInDim S128 ![] bcast_S_S128 (constant (F := Ideal) S_ .f32 0x3727C5AC#32))))))
        (Stages.rows128 g)) (Stages.rows128 b)
      = bn h (row mean) (row var) (row g) (row b) := by
  funext i
  obtain ⟨r, c, rfl⟩ : ∃ (r : Fin 100000) (c : Fin 128), i = ix2 r c := ⟨i 0, i 1, eq_ix2 i⟩
  rw [addf_apply, mulf_apply, mulf_apply, subf_apply, rows128_apply, rows128_apply, rows128_apply, rows128_apply,
    hostRsqrt_apply, addf_apply, bcast_scalar_apply, constant_apply]
  rfl

/-- The reference's normalisation with the batch's own statistics, on real data: the mean is the column sum over N and
    the variance may be taken in either of its two forms. -/
theorem bnR_eq (h : FVec Ideal S100000x128 .f32) (g b : FVec Ideal S128 .f32) (hreal : AllReal h) :
    Stages.bnR h g b
      = bn h (meanOf (colSum h)) (varOfSums (colSum h) (colSumSq h)) (row g) (row b) := by
  unfold Stages.bnR
  rw [ref_bn h (Stages.meanR h) (Stages.varR h) g b, ref_mean, ref_var, row_unrow, row_unrow,
    var_forms_agree h hreal]

/-! ## The final biased log-softmax -/

/-- A 40-vector repeated along the rows of a 100000 × 40 matrix, read at (r, c), is the vector at c. -/
theorem rows40_apply (v : FVec Ideal S40 .f32) (r : Fin 100000) (c : Fin 40) :
    Stages.rows40 v (ix2 r c) = v (ix1 c) := by
  unfold Stages.rows40
  rw [bcast_rows_apply, Cert.LibLayout.broadcastInDim_row_apply]

/-- A 100000-vector as a column repeated along the 40 columns, read at (r, c), is the vector at r. -/
theorem cols40_apply (v : FVec Ideal S100000 .f32) (r : Fin 100000) (c : Fin 40) :
    Stages.cols40 v (ix2 r c) = v (ix1 r) := by
  unfold Stages.cols40
  rw [bcast_cols_apply, Cert.LibLayout.broadcastInDim_col_apply]

/-- The word 0xFF800000 is −∞. -/
theorem ofBits_neginf : Ideal.ofBits .f32 0xFF800000#32 = (⊥ : EReal) := by simp [Ideal.ofBits, Ideal.ieee]

/-- A row index r of a matrix [m, n] with the column coordinate k put back is (r, k). -/
theorem lift_cols {m n : ℕ} (h : (⟨2, ![m, n]⟩ : Shape).Reduces [1] ⟨1, ![m]⟩) (r : Fin m)
    (k : Fin ((⟨2, ![m, n]⟩ : Shape).size 1)) : h.lift (ix1 r) k = ix2 r (⟨k.val, k.isLt⟩ : Fin n) := by
  funext d
  apply Fin.ext
  match d with
  | ⟨0, _⟩ => rfl
  | ⟨1, _⟩ => rfl

/-- The host's maximum of a matrix [m, n] along each row, started from −∞, at row r: the fold of max over row r. -/
theorem hostMax_cols {m n : ℕ} (z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (r : Fin m) :
    Host.reduce FloatOps.maximumf z (constant (F := Ideal) ⟨0, ![]⟩ .f32 0xFF800000#32) h' hu (ix1 r)
      = (Finset.univ : Finset (Fin n)).fold max (⊥ : EReal) (fun q => z (ix2 r q)) := by
  rw [Host.reduce_eq_fold_single FloatOps.maximumf z _ h' h hu]
  have hf : (z ∘ h.lift (ix1 r)) = fun q : Fin n => z (ix2 r q) :=
    funext fun k => congrArg z (lift_cols h r k)
  have hi : constant (F := Ideal) (⟨0, ![]⟩ : Shape) .f32 0xFF800000#32 (Shape.Idx.first hu) = (⊥ : EReal) := ofBits_neginf
  rw [hi]
  exact congrArg (fun f => Finset.fold max (⊥ : EReal) f (Finset.univ : Finset (Fin n))) hf

/-- The row maxima as the reference computes them: the maximum of −∞ and the host's row-wise maximum from −∞. -/
def zmaxR (z : FVec Ideal S100000x40 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x40_S100000_d1 h_S_)

/-- They are the specification's row maxima. -/
theorem zmaxR_apply (z : FVec Ideal S100000x40 .f32) (r : Fin 100000) : zmaxR z (ix1 r) = rowMax z r := by
  unfold zmaxR
  rw [maximumf_apply, bcast_scalar_apply, constant_apply, ofBits_neginf, hostMax_cols z _ (by decide) _ r]
  exact max_eq_right bot_le

/-- The reference's log-softmax of any matrix z is the specification's. -/
theorem softmax_core (z : FVec Ideal S100000x40 .f32) :
    subf (subf z (Stages.cols40 (zmaxR z)))
      (broadcastInDim S100000x40 ![0, 1] bcast_S100000x1_S100000x40_0_1
        (Host.log (broadcastInDim S100000x1 ![0] bcast_S100000_S100000x1_0
          (Host.reduceAdd (Host.exp (subf z (Stages.cols40 (zmaxR z)))) (constant (F := Ideal) S_ .f32 0x00000000#32)
            reducesTo_S100000x40_S100000_d1 h_S_))))
      = logSoftmax z := by
  funext i
  obtain ⟨r, c, rfl⟩ : ∃ (r : Fin 100000) (c : Fin 40), i = ix2 r c := ⟨i 0, i 1, eq_ix2 i⟩
  have hsh : ∀ q : Fin 40, subf z (Stages.cols40 (zmaxR z)) (ix2 r q) = z (ix2 r q) - rowMax z r :=
    fun q => by rw [subf_apply, cols40_apply, zmaxR_apply]
  have hsum : (∑ q : Fin 40, Host.exp (subf z (Stages.cols40 (zmaxR z))) (ix2 r q))
      = ∑ q : Fin 40, Ideal.exp (z (ix2 r q) - rowMax z r) :=
    Finset.sum_congr rfl fun q _ => by rw [hostExp_apply, hsh q]
  rw [subf_apply, hsh c, bcast_cols_apply, hostLog_apply, Cert.LibLayout.broadcastInDim_col_apply,
    hostSum_cols _ _ (by decide) _ r, hsum]
  rfl

/-- The biased matrix the log-softmax is taken of. -/
theorem z_eq (A : FVec Ideal S100000x40 .f32) (b2 : FVec Ideal S40 .f32) :
    addf A (Stages.rows40 b2) = addBias A (row b2) := by
  funext i
  obtain ⟨r, c, rfl⟩ : ∃ (r : Fin 100000) (c : Fin 40), i = ix2 r c := ⟨i 0, i 1, eq_ix2 i⟩
  rw [addf_apply, rows40_apply]
  rfl

/-- The reference's final stage is the specification's biased row-wise log-softmax. -/
theorem ref_out (A : FVec Ideal S100000x40 .f32) (b2 : FVec Ideal S40 .f32) :
    Stages.outR A b2 = logSoftmax (addBias A (row b2)) := by
  rw [← z_eq A b2]
  exact softmax_core (addf A (Stages.rows40 b2))

end Cert.RefMath

end
-- ==== Proof.LibScatterRows.lean ====
/-
  A scatter-add of whole rows, scaled row by row by a non-negative real.

  At the exact instance a scatter-add is, at every operand index `i`, the operand's element plus the sum of the
  update elements that land on `i`. Multiplication by a NON-NEGATIVE REAL `z` distributes over sums of extended
  reals (it does not for an infinite or a negative factor: `(2 + (-1)) * ⊤ = ⊤` but `2 * ⊤ + (-1) * ⊤ = ⊤ + ⊥ = ⊥`, and
  `(⊤ + ⊥) * (-1) = ⊤` but `⊤ * (-1) + ⊥ * (-1) = ⊥ + ⊤ = ⊥`), so scaling the result of a
  scatter-add at `i` by `z` is the scatter-add of the operand's element and of every update landing on `i`, each
  scaled by `z` first.

  For a scatter of whole rows — operand `[N, C]`, scatter indices `[R, 1]`, updates `[R, C]` — update element
  `(r, c)` lands on operand element `(idx[r, 0], c)`, the row number read as a signed integer and NOT clamped: a row
  number outside `[0, N)` drops the update. The same for a scatter of single elements into a flat array — operand `[N]`,
  scatter indices `[R, 1]`, updates `[R]` —: update element `r` lands on operand element `idx[r, 0]`.

  The node scale `rsqrt (max y 1)` is a non-negative real whatever `y` is, and an index that is already inside
  `[0, N)` is unchanged by the wrap-around normalization of negative indices and by the gather's clamp.
-/
import Idealize.ShloMosaic.PureOps.Ideal
import Idealize.ShloMosaic.Lib.ValueIdx
import Idealize.ShloMosaic.Lib.IdealHost

namespace Cert.LibScatterRows

open Idealize.ShloMosaic Idealize.ShloMosaic.ValueIdx

section Scale

/-- Multiplication on the right by a non-negative real distributes over a finite sum of extended reals. -/
theorem sum_mul_real {ι : Type} (t : Finset ι) (f : ι → EReal) (z : ℝ) (hz : 0 ≤ z) :
    (∑ j ∈ t, f j) * (z : EReal) = ∑ j ∈ t, f j * (z : EReal) := by
  classical
  induction t using Finset.induction_on with
  | empty => simp
  | insert a t ha ih =>
    rw [Finset.sum_insert ha, Finset.sum_insert ha,
      EReal.right_distrib_of_nonneg_of_ne_top (EReal.coe_nonneg.mpr hz) (EReal.coe_ne_top z), ih]

/-- SCALE AFTER = SCALE BEFORE: if at operand index `i` the operand `x'` is `x` scaled by the non-negative real
    `z`, and every update of `u'` landing on `i` is the one of `u` scaled by `z`, then the scatter-add of `x'` and
    `u'` at `i` is the scatter-add of `x` and `u` at `i`, scaled by `z`. -/
theorem scatterAdd_mul_real {s si su : Shape} (d : ScatterDims s si su) {w : Nat} (x x' : s.Idx → EReal)
    (idx : IVec si w) (u u' : su.Idx → EReal) (i : s.Idx) (z : ℝ) (hz : 0 ≤ z)
    (hx : x' i = x i * (z : EReal)) (hu : ∀ j, d.resultIdx? j idx = some i → u' j = u j * (z : EReal)) :
    Ideal.hostScatterAdd d x' idx u' i = Ideal.hostScatterAdd d x idx u i * (z : EReal) := by
  unfold Ideal.hostScatterAdd
  rw [EReal.right_distrib_of_nonneg_of_ne_top (EReal.coe_nonneg.mpr hz) (EReal.coe_ne_top z), sum_mul_real _ _ z hz, hx]
  congr 1
  exact Finset.sum_congr rfl fun j hj => hu j (Finset.mem_filter.mp hj).2

end Scale

section Rows

/-- The dimension numbers of a scatter of whole rows: operand `[N, C]`, scatter indices `[R, 1]`, updates `[R, C]`;
    the updates' axis 1 is the window axis (it runs along a row), the operand's axis 0 is inserted and is the one the
    scatter index names. Their conditions `wf` are decided on a program's literal shapes. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An operand axis takes a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

variable {N R C w : Nat} (wf : ScatterDims.WF ⟨2, ![N, C]⟩ ⟨2, ![R, 1]⟩ ⟨2, ![R, C]⟩ [1] [0] [0] 1)

/-- On the row axis the window of update `(r, c)` starts at `idx[r, 0]`, read as a signed integer. -/
theorem rows_start_row (idx : IVec ⟨2, ![R, 1]⟩ w) (j : (⟨2, ![R, C]⟩ : Shape).Idx) :
    (rowsScatterDims N R C wf).start j idx (0 : Fin 2) = (idx (ix2 (j 0) 0)).toInt := by
  unfold ScatterDims.start
  rw [dif_pos (show (0 : Fin 2) ∈ (rowsScatterDims N R C wf).scatterDimsToOperandDims from
    List.mem_singleton.mpr rfl)]
  have hsi : (rowsScatterDims N R C wf).siIdx j
      ⟨List.idxOf (0 : Fin 2) (rowsScatterDims N R C wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at `0`: the scatter index does not name that axis. -/
theorem rows_start_col (idx : IVec ⟨2, ![R, 1]⟩ w) (j : (⟨2, ![R, C]⟩ : Shape).Idx) :
    (rowsScatterDims N R C wf).start j idx (1 : Fin 2) = 0 := by
  have hne : ¬ ((1 : Fin 2) = 0) := by decide
  unfold ScatterDims.start
  rw [dif_neg (fun h => hne (List.mem_singleton.mp h))]

/-- The row axis is inserted: the window coordinate on it is `0`. -/
theorem rows_window_row (j : (⟨2, ![R, C]⟩ : Shape).Idx) :
    (rowsScatterDims N R C wf).window j (0 : Fin 2) = 0 := by
  unfold ScatterDims.window
  rw [dif_neg (fun h => (mem_sKept _ _).mp h (List.mem_singleton.mpr rfl))]

/-- The column axis is the window axis: the window coordinate on it is the update's own column. -/
theorem rows_window_col (j : (⟨2, ![R, C]⟩ : Shape).Idx) :
    (rowsScatterDims N R C wf).window j (1 : Fin 2) = (j 1).val := by
  have hne : ¬ ((1 : Fin 2) = 0) := by decide
  unfold ScatterDims.window
  rw [dif_pos ((mem_sKept _ _).mpr (fun h => hne (List.mem_singleton.mp h)))]
  rfl

/-- WHERE A ROW UPDATE LANDS: if update element `j = (r, c)` lands on operand element `i`, then the row number
    `idx[r, 0]`, read as a signed integer (not clamped), is `i`'s row, and `c` is `i`'s column. -/
theorem rows_resultIdx_some (idx : IVec ⟨2, ![R, 1]⟩ w) (j : (⟨2, ![R, C]⟩ : Shape).Idx)
    (i : (⟨2, ![N, C]⟩ : Shape).Idx) (h : (rowsScatterDims N R C wf).resultIdx? j idx = some i) :
    (idx (ix2 (j 0) 0)).toInt = ((i 0).val : Int) ∧ (j 1).val = (i 1).val := by
  unfold ScatterDims.resultIdx? at h
  split at h
  · rename_i hb
    have hi := Option.some.inj h
    have h0 : (i (0 : Fin 2)).val
        = ((rowsScatterDims N R C wf).start j idx (0 : Fin 2) + (rowsScatterDims N R C wf).window j (0 : Fin 2)).toNat := by
      rw [← hi]
    have h1 : (i (1 : Fin 2)).val
        = ((rowsScatterDims N R C wf).start j idx (1 : Fin 2) + (rowsScatterDims N R C wf).window j (1 : Fin 2)).toNat := by
      rw [← hi]
    have hb0 := (hb (0 : Fin 2)).1
    rw [rows_start_row, rows_window_row] at h0 hb0
    rw [rows_start_col, rows_window_col] at h1
    constructor
    · omega
    · omega
  · exact absurd h (by simp)

end Rows

section Flat

/-- The dimension numbers of a scatter of single elements into a flat array: operand `[N]`, scatter indices
    `[R, 1]`, updates `[R]`; no window axis, the operand's only axis is inserted and is the one the scatter index
    names. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- WHERE AN ELEMENT UPDATE LANDS: if update element `j = (r)` lands on operand element `i`, then `idx[r, 0]`, read
    as a signed integer (not clamped), is `i`'s position. -/
theorem flat_resultIdx_some {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx)
    (h : (flatScatterDims N R wf).resultIdx? j idx = some i) :
    (idx (ix2 (j 0) 0)).toInt = ((i 0).val : Int) := by
  have hstart : (flatScatterDims N R wf).start j idx (0 : Fin 1) = (idx (ix2 (j 0) 0)).toInt := by
    unfold ScatterDims.start
    rw [dif_pos (show (0 : Fin 1) ∈ (flatScatterDims N R wf).scatterDimsToOperandDims from
      List.mem_singleton.mpr rfl)]
    have hsi : (flatScatterDims N R wf).siIdx j
        ⟨List.idxOf (0 : Fin 1) (flatScatterDims N R wf).scatterDimsToOperandDims,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hwindow : (flatScatterDims N R wf).window j (0 : Fin 1) = 0 := by
    unfold ScatterDims.window
    rw [dif_neg (fun h => (mem_sKept _ _).mp h (List.mem_singleton.mpr rfl))]
  unfold ScatterDims.resultIdx? at h
  split at h
  · rename_i hb
    have hi := Option.some.inj h
    have h0 : (i (0 : Fin 1)).val
        = ((flatScatterDims N R wf).start j idx (0 : Fin 1) + (flatScatterDims N R wf).window j (0 : Fin 1)).toNat := by
      rw [← hi]
    have hb0 := (hb (0 : Fin 1)).1
    rw [hstart, hwindow] at h0 hb0
    omega
  · exact absurd h (by simp)

end Flat

section NodeScale

/-- The reciprocal square root of a positive extended real is a non-negative real: `0` at `⊤`, `(√r)⁻¹` at a
    positive real `r`. -/
theorem rsqrt_of_pos (m : EReal) (hm : 0 < m) : ∃ z : ℝ, 0 ≤ z ∧ Ideal.rsqrt m = (z : EReal) := by
  induction m using EReal.rec with
  | bot => exact absurd hm (by simp)
  | top => exact ⟨0, le_refl 0, by simp⟩
  | coe r =>
    have hr : 0 < r := EReal.coe_pos.mp hm
    refine ⟨(Real.sqrt r)⁻¹, inv_nonneg.mpr (Real.sqrt_nonneg r), ?_⟩
    rw [Ideal.rsqrt_coe, if_neg (not_lt.mpr hr.le), if_neg hr.ne']

/-- THE NODE SCALE IS A NON-NEGATIVE REAL whatever the degree `y` is (finite, infinite or junk): `max y 1` is at
    least `1`, so its reciprocal square root is `0` (at `⊤`) or the inverse of a real square root. -/
theorem rsqrt_max_one (y : EReal) : ∃ z : ℝ, 0 ≤ z ∧ Ideal.rsqrt (max y 1) = (z : EReal) :=
  rsqrt_of_pos (max y 1) (lt_of_lt_of_le zero_lt_one (le_max_right y 1))

/-- The f32 word `0x3F800000` is the extended real one. -/
theorem ofBits_one : Ideal.ofBits .f32 0x3F800000#32 = (1 : EReal) := Ideal.ofBits_one_f32

end NodeScale

section InRange

/-- A select on "`v` is negative" (signed comparison with the zero word) takes its second operand when `v`, read
    as a signed integer, is not negative. -/
theorem select_slt_zero_of_nonneg {α : Type} (v : BitVec 32) (a b : α) (hv : 0 ≤ v.toInt) :
    Scalar.select (IntOp.cmpi .slt v 0#32) a b = b := by
  have h : v.slt 0#32 = false := by
    simp only [BitVec.slt, BitVec.toInt_zero, decide_eq_false_iff_not, not_lt]
    exact hv
  show Scalar.select (BitVec.ofBool (v.slt 0#32)) a b = b
  rw [h]
  exact select_zero a b

/-- AN IN-RANGE INDEX IS ITS OWN NORMALIZATION: the wrap-around of negative indices, `v < 0 ? v + 50000 : v`, leaves a
    word `v` that reads as the signed integer `r ≥ 0` unchanged. -/
theorem normalize_of_inRange (v : BitVec 32) (r : Nat) (hv : v.toInt = (r : Int)) :
    Scalar.select (IntOp.cmpi .slt v 0#32) (IntOp.addi v 50000#32) v = v :=
  select_slt_zero_of_nonneg v _ _ (by omega)

/-- AN IN-RANGE INDEX IS ITS OWN CLAMP: a word that reads as the signed integer `r < N` names row `r` after the
    gather's clamp into `[0, N − 1]`. -/
theorem clamp_of_inRange (N : Nat) (v : BitVec 32) (r : Nat) (hr : r < N) (hv : v.toInt = (r : Int)) :
    min v.toInt.toNat (N - 1) = r := by
  omega

/-- The same at `N = 50000`. -/
theorem clamp_of_inRange_50000 (v : BitVec 32) (r : Nat) (hr : r < 50000) (hv : v.toInt = (r : Int)) :
    min v.toInt.toNat (50000 - 1) = r :=
  clamp_of_inRange 50000 v r hr hv

end InRange

end Cert.LibScatterRows
-- ==== Proof.RealChain.lean ====
/-
  Every entry of the first layer's activations is a real number when the inputs are.

  The real numbers inside the extended reals are closed under finite sums, products and maxima, and every operation
  between the inputs and the first layer's activations is built from those: a matrix product is a finite sum of
  products; a gather, a broadcast and a reshape only re-read entries of their operand; a select returns an entry of one
  of its two branches; an accumulating scatter adds, to an entry of its operand, a finite sum of entries of its updates;
  bias and positive part are a sum and a maximum with zero. The only non-polynomial step is the node scale, the
  reciprocal square root of max(degree, 1): its argument is at least one, so it is a non-negative real whatever the
  degree is (finite, infinite or junk) — which is why the degree itself is never opened here.
-/
import proofs.«130976_j31610959298975_1_alg».proof.Proof.RefStages
import proofs.«130976_j31610959298975_1_alg».proof.Proof.Spec
import proofs.«130976_j31610959298975_1_alg».proof.Proof.LibScatterRows

open scoped BigOperators

noncomputable section

namespace Cert.RealChain

open Idealize.ShloMosaic Idealize.ShloMosaic.ValueIdx Cert.Spec Cert.ReferenceIdeal

/-! ## The reals inside the extended reals -/

/-- An extended real that is neither infinity. -/
abbrev IsReal (a : EReal) : Prop := a ≠ ⊤ ∧ a ≠ ⊥

/-- A real number is neither infinity. -/
theorem isReal_coe (r : ℝ) : IsReal (r : EReal) := ⟨EReal.coe_ne_top r, EReal.coe_ne_bot r⟩

/-- An extended real that is neither infinity is a real number. -/
theorem exists_coe {a : EReal} (h : IsReal a) : ∃ r : ℝ, a = (r : EReal) :=
  ⟨a.toReal, (EReal.coe_toReal h.1 h.2).symm⟩

theorem isReal_zero : IsReal (0 : EReal) := isReal_coe 0

theorem isReal_add {a b : EReal} (ha : IsReal a) (hb : IsReal b) : IsReal (a + b) := by
  obtain ⟨r, rfl⟩ := exists_coe ha
  obtain ⟨s, rfl⟩ := exists_coe hb
  rw [← EReal.coe_add]
  exact isReal_coe _

theorem isReal_mul {a b : EReal} (ha : IsReal a) (hb : IsReal b) : IsReal (a * b) := by
  obtain ⟨r, rfl⟩ := exists_coe ha
  obtain ⟨s, rfl⟩ := exists_coe hb
  rw [← EReal.coe_mul]
  exact isReal_coe _

theorem isReal_max {a b : EReal} (ha : IsReal a) (hb : IsReal b) : IsReal (max a b) := by
  rcases le_total a b with h | h
  · rw [max_eq_right h]; exact hb
  · rw [max_eq_left h]; exact ha

/-- A finite sum of reals is real. -/
theorem isReal_sum {ι : Type} (t : Finset ι) (f : ι → EReal) (hf : ∀ i ∈ t, IsReal (f i)) :
    IsReal (∑ i ∈ t, f i) := by
  classical
  induction t using Finset.induction_on with
  | empty => rw [Finset.sum_empty]; exact isReal_zero
  | insert a t ha ih =>
    rw [Finset.sum_insert ha]
    exact isReal_add (hf a (Finset.mem_insert_self a t))
      (ih fun i hi => hf i (Finset.mem_insert_of_mem hi))

/-! ## The operations of the first layer preserve "every entry is real" -/

section Ops
variable {s t : Shape} {φ : FTy}

theorem allReal_addf (x y : FVec Ideal s φ) (hx : AllReal x) (hy : AllReal y) : AllReal (addf x y) :=
  fun i => isReal_add (hx i) (hy i)

theorem allReal_mulf (x y : FVec Ideal s φ) (hx : AllReal x) (hy : AllReal y) : AllReal (mulf x y) :=
  fun i => isReal_mul (hx i) (hy i)

theorem allReal_maximumf (x y : FVec Ideal s φ) (hx : AllReal x) (hy : AllReal y) : AllReal (maximumf x y) :=
  fun i => isReal_max (hx i) (hy i)

/-- A broadcast only re-reads entries of its operand. -/
theorem allReal_broadcastInDim (dims : Fin s.rank → Fin t.rank) (h : s.BroadcastsInDim t dims)
    (x : s.Idx → EReal) (hx : AllReal x) : AllReal (broadcastInDim t dims h x) :=
  fun _ => hx _

/-- A gather only re-reads entries of its operand. -/
theorem allReal_gather {si : Shape} {w : Nat} (d : GatherDims s si t) (x : s.Idx → EReal) (idx : IVec si w)
    (hx : AllReal x) : AllReal (Host.gather d x idx) :=
  fun _ => hx _

/-- A select returns, at each index, the entry of one of its two branches. -/
theorem allReal_select (c : IVec s 1) (a b : s.Idx → EReal) (ha : AllReal a) (hb : AllReal b) :
    AllReal (select c a b) := by
  intro i
  show IsReal (if c i = 1 then a i else b i)
  split
  · exact ha i
  · exact hb i

/-- An accumulating scatter adds, to each entry of its operand, a finite sum of entries of its updates. -/
theorem allReal_scatterAdd {si u : Shape} {w : Nat} (d : ScatterDims s si u) (x : FVec Ideal s φ) (idx : IVec si w)
    (upd : FVec Ideal u φ) (hx : AllReal x) (hu : AllReal upd) :
    AllReal (Host.scatterAdd (F := Ideal) d x idx upd) := by
  intro i
  show IsReal (x i + ∑ j ∈ Finset.univ.filter (fun j => d.resultIdx? j idx = some i), upd j)
  exact isReal_add (hx i) (isReal_sum _ _ fun j _ => hu j)

/-- The zero word is the real number zero at every index. -/
theorem allReal_zero : AllReal (constant (F := Ideal) s .f32 0x00000000#32) := by
  intro i
  show IsReal (Ideal.ofBits .f32 0x00000000#32)
  rw [Ideal.ofBits_zero_f32]
  exact isReal_zero

/-- The node scale: the reciprocal square root of max(y, 1) is a real number at every index, whatever y is. -/
theorem allReal_rsqrt_max_one (y : FVec Ideal s .f32) (h : (⟨0, ![]⟩ : Shape).BroadcastsInDim s (![] : Fin 0 → Fin s.rank)) :
    AllReal (Host.rsqrt (maximumf y (broadcastInDim s ![] h (constant (F := Ideal) ⟨0, ![]⟩ .f32 0x3F800000#32)))) := by
  intro i
  show IsReal (Ideal.rsqrt (max (y i) (Ideal.ofBits .f32 0x3F800000#32)))
  rw [Cert.LibScatterRows.ofBits_one]
  obtain ⟨z, _, hz⟩ := Cert.LibScatterRows.rsqrt_max_one (y i)
  rw [hz]
  exact isReal_coe z

end Ops

/-! ## The product of two real matrices -/

/-- Every entry of the product of two real matrices is a finite sum of products of reals. -/
theorem mm_real {n k c : ℕ} (x : Mat n k) (w : Mat k c) (hx : AllReal x) (hw : AllReal w) : AllReal (mm x w) :=
  fun _ => isReal_sum _ _ fun _ _ => isReal_mul (hx _) (hw _)

/-! ## The stages of the reference up to the first layer's activations -/

/-- The node scale 1/√deg (or 0) is real at every node: a select between the reciprocal square root of
    max(deg, 1) and zero. -/
theorem dis_real (e : IVec S2x1600000 32) : AllReal (Stages.dis e) := by
  unfold Stages.dis
  exact allReal_select _ _ _ (allReal_rsqrt_max_one _ _)
    (allReal_broadcastInDim _ _ _ allReal_zero)

/-- The per-edge scale is a product of two gathered node scales. -/
theorem normE_real (e : IVec S2x1600000 32) : AllReal (Stages.normE e) := by
  unfold Stages.normE
  exact allReal_mulf _ _ (allReal_gather _ _ _ (dis_real e)) (allReal_gather _ _ _ (dis_real e))

/-- One aggregation of a real matrix is real: gathered rows times the broadcast edge scale, added into zero. -/
theorem agg128_real (e : IVec S2x1600000 32) (H : FVec Ideal S100000x128 .f32) (hH : AllReal H) :
    AllReal (Stages.agg128 e H) := by
  unfold Stages.agg128
  exact allReal_scatterAdd _ _ _ _ (allReal_broadcastInDim _ _ _ allReal_zero)
    (allReal_mulf _ _ (allReal_gather _ _ _ hH)
      (allReal_broadcastInDim _ _ _ (allReal_broadcastInDim _ _ _ (normE_real e))))

/-- A real vector repeated along the rows is a real matrix. -/
theorem rows128_real (v : FVec Ideal S128 .f32) (hv : AllReal v) : AllReal (Stages.rows128 v) := by
  unfold Stages.rows128
  exact allReal_broadcastInDim _ _ _ (allReal_broadcastInDim _ _ _ hv)

/-- Bias and positive part of a real matrix with a real bias. -/
theorem hrelu_real_of (A : FVec Ideal S100000x128 .f32) (b1 : FVec Ideal S128 .f32) (hA : AllReal A) (hb : AllReal b1) :
    AllReal (Stages.hrelu A b1) := by
  unfold Stages.hrelu
  exact allReal_maximumf _ _ (allReal_addf _ _ hA (rows128_real b1 hb))
    (allReal_broadcastInDim _ _ _ allReal_zero)

/-- THE FIRST LAYER'S ACTIVATIONS ARE REAL when the node features, the weights and the bias are. -/
theorem hrelu_real (x : FVec Ideal Cert.ReferenceIdeal.S100000x128 .f32) (e : IVec Cert.ReferenceIdeal.S2x1600000 32)
    (W1 : FVec Ideal Cert.ReferenceIdeal.S128x128 .f32) (b1 : FVec Ideal Cert.ReferenceIdeal.S128 .f32)
    (hx : Cert.Spec.AllReal x) (hW : Cert.Spec.AllReal W1) (hb : Cert.Spec.AllReal b1) :
    Cert.Spec.AllReal (Cert.ReferenceIdeal.Stages.hrelu (Cert.ReferenceIdeal.Stages.agg128 e (Cert.Spec.mm x W1)) b1) :=
  hrelu_real_of _ b1 (agg128_real e _ (mm_real x W1 hx hW)) hb

end Cert.RealChain

end
-- ==== Proof.RefValue.lean ====
/-
  The reference program's result as one function of its inputs, written with the mathematics of the specification.

  A product of a matrix with a weight matrix, as the host computes it, is at every entry the sum over the contracted
  coordinate of the products of the entries. With that, the reference is: the first product, one aggregation, bias and
  positive part; batch normalisation with the batch's own mean and variance — on real data the variance may be taken as
  "mean of squares minus square of the mean", and the first layer's activations are real when the inputs are —; the
  second product, one aggregation, and the biased row-wise log-softmax.
-/
import proofs.«130976_j31610959298975_1_alg».proof.Proof.RefStages
import proofs.«130976_j31610959298975_1_alg».proof.Proof.Spec
import proofs.«130976_j31610959298975_1_alg».proof.Proof.RefMath
import proofs.«130976_j31610959298975_1_alg».proof.Proof.RealChain
import proofs.«130976_j31610959298975_1_alg».proof.Proof.KStats
import Idealize.ShloMosaic.PureOps.Ideal.Laws
import Idealize.ShloMosaic.Lib.ValueIdx

open scoped BigOperators

noncomputable section

namespace Cert.RefValue

open Idealize.ShloMosaic Idealize.ShloMosaic.ValueIdx Cert.Spec Cert.ReferenceIdeal Cert.ReferenceIdeal.Facts₀

/-! ## The host's product of two matrices at an entry -/

/-- The host's product of an m × k matrix with a k × n matrix (the left operand contracted on its columns, the right on
    its rows, no batch axis), read at (a, b): the sum over the contracted coordinate c of A(a, c) · B(c, b). -/
theorem dot_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The reference's first product is the specification's. -/
theorem ref_dot1 (x : FVec Ideal S100000x128 .f32) (w : FVec Ideal S128x128 .f32) :
    Host.dotGeneral dot_S100000x128_S128x128_S100000x128_1_0_0_1_n_n none x w = mm x w := by
  funext j
  obtain ⟨a, b, rfl⟩ : ∃ (a : Fin 100000) (b : Fin 128), j = ix2 a b := ⟨j 0, j 1, eq_ix2 j⟩
  refine (dot_plain_apply (k := 128) dot_S100000x128_S128x128_S100000x128_1_0_0_1_n_n_wf none x w a b).trans ?_
  rfl

/-- The reference's second product is the specification's. -/
theorem ref_dot2 (x : FVec Ideal S100000x128 .f32) (w : FVec Ideal S128x40 .f32) :
    Host.dotGeneral dot_S100000x128_S128x40_S100000x40_1_0_0_1_n_n none x w = mm x w := by
  funext j
  obtain ⟨a, b, rfl⟩ : ∃ (a : Fin 100000) (b : Fin 40), j = ix2 a b := ⟨j 0, j 1, eq_ix2 j⟩
  refine (dot_plain_apply (k := 128) dot_S100000x128_S128x40_S100000x40_1_0_0_1_n_n_wf none x w a b).trans ?_
  rfl

/-! ## The whole reference -/

/-- The first layer's activations: product, aggregation, bias and positive part. -/
def H1of (x : Mat 100000 128) (e : IVec S2x1600000 32) (W1 : Mat 128 128) (b1 : (⟨1, ![128]⟩ : Shape).Idx → EReal) :
    Mat 100000 128 :=
  reluBias (Stages.agg128 e (mm x W1)) (row b1)

/-- Batch normalisation of the activations with their own column mean and their variance as "mean of squares minus
    square of the mean". -/
def H2of (H1 : Mat 100000 128) (g be : (⟨1, ![128]⟩ : Shape).Idx → EReal) : Mat 100000 128 :=
  bn H1 (meanOf (colSum H1)) (varOfSums (colSum H1) (colSumSq H1)) (row g) (row be)

/-- The result: second product, aggregation, bias and row-wise log-softmax of the normalised activations. -/
def kerOut (x : Mat 100000 128) (e : IVec S2x1600000 32) (W1 : Mat 128 128) (b1 g be : (⟨1, ![128]⟩ : Shape).Idx → EReal)
    (W2 : Mat 128 40) (b2 : (⟨1, ![40]⟩ : Shape).Idx → EReal) : Mat 100000 40 :=
  logSoftmax (addBias (Stages.agg40 e (mm (H2of (H1of x e W1 b1) g be) W2)) (row b2))

/-- The first layer's activations are real when the node features, the weights and the bias are. -/
theorem H1of_real (x : FVec Ideal S100000x128 .f32) (e : IVec S2x1600000 32) (W1 : FVec Ideal S128x128 .f32)
    (b1 : FVec Ideal S128 .f32) (hx : AllReal x) (hW : AllReal W1) (hb : AllReal b1) : AllReal (H1of x e W1 b1) := by
  have h := Cert.RealChain.hrelu_real x e W1 b1 hx hW hb
  rw [Cert.ReferenceIdeal.StatsRead.ref_hrelu] at h
  exact h

/-- THE REFERENCE'S RESULT on real node features, first-layer weights and first-layer bias. -/
theorem refOut_eq (x : FVec Ideal S100000x128 .f32) (e : IVec S2x1600000 32) (W1 : FVec Ideal S128x128 .f32)
    (b1 g be : FVec Ideal S128 .f32) (W2 : FVec Ideal S128x40 .f32) (b2 : FVec Ideal S40 .f32)
    (hx : AllReal x) (hW : AllReal W1) (hb : AllReal b1) :
    Stages.refOut x e W1 b1 g be W2 b2 = kerOut x e W1 b1 g be W2 b2 := by
  have hH1 : AllReal (reluBias (Stages.agg128 e (mm x W1)) (row b1)) := H1of_real x e W1 b1 hx hW hb
  unfold Stages.refOut
  rw [ref_dot1, Cert.ReferenceIdeal.StatsRead.ref_hrelu, Cert.RefMath.bnR_eq _ g be hH1, ref_dot2,
    Cert.RefMath.ref_out]
  rfl

end Cert.RefValue

end
-- ==== Proof.PreReal.lean ====
/-
  From the precondition to real numbers.

  The precondition is the conjunction, over the seven float arguments, of "every entry's absolute value is below +∞".
  On the extended reals the absolute value is max x (−x) and the word of +∞ is the top element, so an entry that passes
  the test is neither infinity: it is a real number.
-/
import proofs.«130976_j31610959298975_1_alg».proof.Defs
import proofs.«130976_j31610959298975_1_alg».proof.Proof.Gen.Pre_finite_inputs
import proofs.«130976_j31610959298975_1_alg».proof.Proof.Spec
import Idealize.ShloMosaic.Lib.ReduceAll
import Idealize.ShloMosaic.Lib.IdealHost

noncomputable section

namespace Cert.PreReal

open Idealize.ShloMosaic Idealize.ShloMosaic.ValueIdx Idealize.SL.Sem

/-- A rank-zero array has one index. -/
instance subsingleton_scalarIdx : Subsingleton (⟨0, ![]⟩ : Shape).Idx := ⟨fun a b => funext fun d => d.elim0⟩

/-- The binary32 word of +∞ is the top element. -/
theorem ofBits_inf : Ideal.ofBits .f32 0x7F800000#32 = (⊤ : EReal) := by simp [Ideal.ofBits, Ideal.ieee]

/-- The comparison "less than" that answers one says the first is below the second. -/
theorem lt_of_cmp_olt {u v : EReal} (h : Ideal.cmp .olt u v = 1#1) : u < v := by
  unfold Ideal.cmp at h
  by_contra hn
  simp [hn] at h

/-- An extended real whose absolute value is below +∞ is neither infinity. -/
theorem real_of_abs_lt_top (x : EReal) (h : max x (-x) < ⊤) : x ≠ ⊤ ∧ x ≠ ⊥ := by
  constructor
  · rintro rfl; simp at h
  · rintro rfl; simp at h

/-- One conjunct: if "all entries have absolute value below +∞" answers one, every entry is a real. -/
theorem allReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) :
    Cert.Spec.AllReal x := by
  intro i
  have h1 := Host.reduce_andi_all _ _ hr hu ix0 e i
  rw [cmpf_apply, broadcastInDim_scalar_apply, constant_apply, ofBits_inf] at h1
  exact real_of_abs_lt_top (x i) (lt_of_cmp_olt h1)

/-- The conjunction of two rank-zero truth values that answers one: both do. -/
theorem andi_split {a b : IVec ⟨0, ![]⟩ 1} (h : andi a b ix0 = 1#1) : a ix0 = 1#1 ∧ b ix0 = 1#1 :=
  IntOp.andi_eq_one.1 h

/-- Under the precondition every entry of each of the seven float arguments is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllReal (m ((c.tc : Thread Cert.KernelIdeal.nD Cert.KernelIdeal.τ).loc Cert.KernelIdeal.main_arg0))
    ∧ Cert.Spec.AllReal (m ((c.tc : Thread Cert.KernelIdeal.nD Cert.KernelIdeal.τ).loc Cert.KernelIdeal.main_arg2))
    ∧ Cert.Spec.AllReal (m ((c.tc : Thread Cert.KernelIdeal.nD Cert.KernelIdeal.τ).loc Cert.KernelIdeal.main_arg3))
    ∧ Cert.Spec.AllReal (m ((c.tc : Thread Cert.KernelIdeal.nD Cert.KernelIdeal.τ).loc Cert.KernelIdeal.main_arg4))
    ∧ Cert.Spec.AllReal (m ((c.tc : Thread Cert.KernelIdeal.nD Cert.KernelIdeal.τ).loc Cert.KernelIdeal.main_arg5))
    ∧ Cert.Spec.AllReal (m ((c.tc : Thread Cert.KernelIdeal.nD Cert.KernelIdeal.τ).loc Cert.KernelIdeal.main_arg6))
    ∧ Cert.Spec.AllReal (m ((c.tc : Thread Cert.KernelIdeal.nD Cert.KernelIdeal.τ).loc Cert.KernelIdeal.main_arg7)) := by
  have h0 := congrFun (h c) ix0
  dsimp only [Cert.Pre_finite_inputs.fn, Cert.Pre_finite_inputs.fn_part1] at h0
  obtain ⟨h1, e7⟩ := andi_split h0
  obtain ⟨h2, e6⟩ := andi_split h1
  obtain ⟨h3, e5⟩ := andi_split h2
  obtain ⟨h4, e4⟩ := andi_split h3
  obtain ⟨h5, e3⟩ := andi_split h4
  obtain ⟨e0, e2⟩ := andi_split h5
  exact ⟨allReal_of_all _ _ _ _ e0, allReal_of_all _ _ _ _ e2, allReal_of_all _ _ _ _ e3, allReal_of_all _ _ _ _ e4,
    allReal_of_all _ _ _ _ e5, allReal_of_all _ _ _ _ e6, allReal_of_all _ _ _ _ e7⟩

end Cert.PreReal

end
-- ==== Proof.lean ====
/-
  The certificate of a two-layer graph convolution with batch normalisation and a final log-softmax: the kernel program
  (five dense kernels on the TensorCore, tiled over blocks of 4000 of the 100000 nodes, with the edge-indexed
  gather / scatter-add aggregations and the small per-column divisions left to the host between them) against the plain
  reference.

  The three frame claims are the programs' runs. Nothing was rewritten when the kernel was idealized, so the
  idealization claim is empty. The value claim: at extended-real values both programs compute
      log-softmax (A (BN (relu (A (x W₁) + b₁)) W₂) + b₂)
  where A is the aggregation over the edge list with self loops, scaled by 1/√deg at both ends. The programs differ in
  three ways that are no difference on extended reals — products taken block of rows by block of rows, column sums
  accumulated block by block, maxima and sums of a row taken inside a block of whole rows — and in one that is a
  difference off the reals: the kernel's variance is the mean of the squares minus the square of the mean, the reference's
  the mean of the squared deviations. They agree when every activation is a real number, which holds when the float inputs
  are finite: a matrix product, a gather, a sum of finitely many scaled rows and a positive part keep real numbers real,
  and the scale 1/√max(deg, 1) is real whatever the degree.
-/
import proofs.«130976_j31610959298975_1_alg».proof.Defs
import proofs.«130976_j31610959298975_1_alg».proof.Proof.Gen.Kernel
import proofs.«130976_j31610959298975_1_alg».proof.Proof.Gen.Kernel.Frame
import proofs.«130976_j31610959298975_1_alg».proof.Proof.Gen.KernelIdeal
import proofs.«130976_j31610959298975_1_alg».proof.Proof.Gen.KernelIdeal.Frame
import proofs.«130976_j31610959298975_1_alg».proof.Proof.Gen.ReferenceIdeal
import proofs.«130976_j31610959298975_1_alg».proof.Proof.Gen.Pre_finite_inputs
import proofs.«130976_j31610959298975_1_alg».proof.Proof.KRun
import proofs.«130976_j31610959298975_1_alg».proof.Proof.KValue
import proofs.«130976_j31610959298975_1_alg».proof.Proof.RefRun
import proofs.«130976_j31610959298975_1_alg».proof.Proof.RefValue
import proofs.«130976_j31610959298975_1_alg».proof.Proof.PreReal
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Run.run m ρ)

/-- On extended reals, from memories that agree on the arguments, the two programs end with the same result: both compute
    log-softmax (A (BN (relu (A (x W₁) + b₁)) W₂) + b₂), A the normalised aggregation over the edges; the kernel takes the
    variance as the mean of squares minus the squared mean, the reference as the mean of squared deviations, and these agree
    because every activation is a real number when the inputs are. -/
theorem algebraic : Cert.algebraic_KernelIdeal_ReferenceIdeal := by
  intro m ρ m' ρ' hpre hagree
  refine ⟨fun c => Cert.KernelIdeal.KValue.out m c, ?_, ?_⟩
  · exact (θ_run Cert.KernelIdeal.defs _ _).mono
      (fun r h c => ⟨(h c).1.trans (Cert.KernelIdeal.KValue.result_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Run.run m' ρ')
    obtain ⟨hx, hW, hb, -⟩ := Cert.PreReal.real_of_pre m hpre c
    obtain ⟨a0, a1, a2, a3, a4, a5, a6, a7⟩ := hagree c
    rw [a0, a1, a2, a3, a4, a5, a6, a7]
    exact (Cert.RefValue.refOut_eq _ _ _ _ _ _ _ _ hx hW hb).trans rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
